-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S2x128 .f32) (main_arg6 : FVec F S128x64 .f32) (main_arg7 : FVec F S64 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S2x128 .f32) (main_arg6 : FVec F S128x64 .f32) (main_arg7 : FVec F S64 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩
abbrev S128x1 : Shape := ⟨2, ![128, 1]⟩
abbrev S1x128 : Shape := ⟨2, ![1, 128]⟩
abbrev S1x64 : Shape := ⟨2, ![1, 64]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S10000x64 : Shape := ⟨2, ![10000, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 39
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128x1, .f32⟩
  | .hbm, ⟨13, _⟩ => ⟨S128x128, .f32⟩
  | .hbm, ⟨14, _⟩ => ⟨S128x128, .f32⟩
  | .hbm, ⟨15, _⟩ => ⟨S128x128, .bf16⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x64, .f32⟩
  | .hbm, ⟨21, _⟩ => ⟨S128x64, .f32⟩
  | .hbm, ⟨22, _⟩ => ⟨S1x128, .f32⟩
  | .hbm, ⟨23, _⟩ => ⟨S1x64, .f32⟩
  | .hbm, ⟨24, _⟩ => ⟨S10000x128, .bf16⟩
  | .hbm, ⟨25, _⟩ => ⟨S10000x10000, .bf16⟩
  | .hbm, ⟨26, _⟩ => ⟨S10000x128, .f32⟩
  | .hbm, ⟨27, _⟩ => ⟨S10000x128, .bf16⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S10000x128, .f32⟩
  | .hbm, ⟨32, _⟩ => ⟨S10000x128, .bf16⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S10000x64, .bf16⟩
  | .hbm, ⟨37, _⟩ => ⟨S10000x64, .f32⟩
  | .hbm, ⟨38, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .bf16⟩
  | .local _ .vmem, ⟨7, _⟩ => ⟨S1x128, .f32⟩
  | .local _ .vmem, ⟨8, _⟩ => ⟨S400x10000, .bf16⟩
  | .local _ .vmem, ⟨9, _⟩ => ⟨S400x10000, .bf16⟩
  | .local _ .vmem, ⟨10, _⟩ => ⟨S400x128, .f32⟩
  | .local _ .vmem, ⟨11, _⟩ => ⟨S400x128, .f32⟩
  | .local _ .vmem, ⟨12, _⟩ => ⟨S400x128, .bf16⟩
  | .local _ .vmem, ⟨13, _⟩ => ⟨S400x128, .bf16⟩
  | .local _ .vmem, ⟨14, _⟩ => ⟨S1000x10000, .bf16⟩
  | .local _ .vmem, ⟨15, _⟩ => ⟨S1000x10000, .bf16⟩
  | .local _ .vmem, ⟨16, _⟩ => ⟨S10000x128, .bf16⟩
  | .local _ .vmem, ⟨17, _⟩ => ⟨S1000x128, .f32⟩
  | .local _ .vmem, ⟨18, _⟩ => ⟨S1000x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .bf16⟩
  | .local _ .vmem, ⟨23, _⟩ => ⟨S1000x128, .bf16⟩
  | .local _ .vmem, ⟨24, _⟩ => ⟨S1000x10000, .bf16⟩
  | .local _ .vmem, ⟨25, _⟩ => ⟨S1000x10000, .bf16⟩
  | .local _ .vmem, ⟨26, _⟩ => ⟨S10000x128, .bf16⟩
  | .local _ .vmem, ⟨27, _⟩ => ⟨S1000x128, .f32⟩
  | .local _ .vmem, ⟨28, _⟩ => ⟨S1000x128, .f32⟩
  | .local _ .vmem, ⟨29, _⟩ => ⟨S1x128, .f32⟩
  | .local _ .vmem, ⟨30, _⟩ => ⟨S128x64, .f32⟩
  | .local _ .vmem, ⟨31, _⟩ => ⟨S128x64, .f32⟩
  | .local _ .vmem, ⟨32, _⟩ => ⟨S1x64, .f32⟩
  | .local _ .vmem, ⟨33, _⟩ => ⟨S1000x64, .bf16⟩
  | .local _ .vmem, ⟨34, _⟩ => ⟨S1000x64, .bf16⟩
  | .local _ .vmem, ⟨35, _⟩ => ⟨S1000x64, .f32⟩
  | .local _ .vmem, ⟨36, _⟩ => ⟨S1000x64, .f32⟩
  | .local _ .vmem, ⟨37, _⟩ => ⟨S1000x10000, .bf16⟩
  | .local _ .vmem, ⟨38, _⟩ => ⟨S1000x10000, .bf16⟩
  | .local _ .vmem, ⟨39, _⟩ => ⟨S10000x64, .bf16⟩
  | .local _ .vmem, ⟨40, _⟩ => ⟨S1000x64, .f32⟩
  | .local _ .vmem, ⟨41, _⟩ => ⟨S1000x64, .f32⟩
  | .local _ .vmem, ⟨42, _⟩ => ⟨S1000x64, .f32⟩
  | .local _ .vmem, ⟨43, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev cc2_sem8_0 : DmaSem sig := 35
abbrev cc2_sem8_1 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem2_1 : DmaSem sig := 41
abbrev cc3_sem3_0 : DmaSem sig := 42
abbrev cc3_sem3_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bitsLt_bf16_f32 : FTy.bits .bf16 < FTy.bits .f32
  bcast_S128x1_S128x64_0_1 : S128x1.BroadcastsInDim S128x64 (![0, 1] : Fin 2 → Fin S128x64.rank)
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  packedbf16_S400x128_S400x128_0_0 : (Rect.unit (s := S400x128) ![0, 0] S400x128.size inb_S400x128_S400x128_0_0).PackedRows (EltTy.packing .bf16)
  slices_S2x128_S1x128_0_0 : S2x128.Slices ![0, 0] S1x128
  shapeCasts_S1x128_S128 : S1x128.ShapeCasts S128
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  packedbf16_S1000x128_S1000x128_0_0 : (Rect.unit (s := S1000x128) ![0, 0] S1000x128.size inb_S1000x128_S1000x128_0_0).PackedRows (EltTy.packing .bf16)
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S1000x64_S1000x64 : S1000x64.ShapeCasts S1000x64
  reduces_S1000x64_S1000 : S1000x64.Reduces [1] S1000
  shapeCasts_S1000_S1000x1 : S1000.ShapeCasts S1000x1
  broadcasts_S1000x1_S1000x64 : S1000x1.Broadcasts S1000x64
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x64_S1000x64_1_0_0_1_n_n_wf : DotDims.WF S1000x128 S128x64 S1000x64 [1] [0] [0] [1] [] []
  dot_S1000x10000_S10000x64_S1000x64_1_0_0_1_n_n_wf : DotDims.WF S1000x10000 S10000x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .bf16 = 32 ∨ (Rect.block (s := S10000x128) S400x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .bf16 = 32 ∨ (Rect.block (s := S10000x128) S1000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x64.size a ≤ S10000x64.size a
  hwx2_7 : ∀ i : grid2.Coords, EltTy.bits .bf16 = 32 ∨ (Rect.block (s := S10000x64) S1000x64.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x64.size a ≤ S10000x64.size a
  hwx2_8 : ∀ i : grid2.Coords, EltTy.bits .f32 = 32 ∨ (Rect.block (s := S10000x64) S1000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S10000x64.size a
  hwx3_2 : ∀ i : grid3.Coords, EltTy.bits .f32 = 32 ∨ (Rect.block (s := S10000x64) S1000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S10000x64.size a
  hwx3_3 : ∀ i : grid3.Coords, EltTy.bits .f32 = 32 ∨ (Rect.block (s := S10000x64) S1000x64.size (cc3_transform_3 i) (hinb3_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S400x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S400x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S400x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S1000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v14_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18_0) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22_0) S1000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v22_1) S1000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v14_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22_0) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22_1) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x128 : Shape := ⟨2, ![2, 128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S2x128, .f32⟩
  | .hbm, ⟨6, _⟩ => ⟨S128x64, .f32⟩
  | .hbm, ⟨7, _⟩ => ⟨S64, .f32⟩
  | .hbm, ⟨8, _⟩ => ⟨S128, .f32⟩
  | .hbm, ⟨9, _⟩ => ⟨S10000x128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S_, .f32⟩
  | .hbm, ⟨57, _⟩ => ⟨S10000x64, .f32⟩
  | .hbm, ⟨58, _⟩ => ⟨S10000x64, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x64, .f32⟩
  | .hbm, ⟨66, _⟩ => ⟨S10000x64, .f32⟩
  | .hbm, ⟨67, _⟩ => ⟨S10000x64, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S10000x1, .f32⟩
  | .hbm, ⟨72, _⟩ => ⟨S10000x64, .f32⟩
  | .hbm, ⟨73, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call3_cst : Ref sig .tc := ⟨.hbm, 56, rfl⟩
abbrev main_call3_v0 : Ref sig .tc := ⟨.hbm, 57, rfl⟩
abbrev main_v39 : Ref sig .tc := ⟨.hbm, 58, rfl⟩
abbrev main_call4_cst : Ref sig .tc := ⟨.hbm, 59, rfl⟩
abbrev main_call4_v0 : Ref sig .tc := ⟨.hbm, 60, rfl⟩
abbrev main_call4_cst_0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_cst_1 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_v40 : Ref sig .tc := ⟨.hbm, 73, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x128_S1x128_0_0 : S2x128.Slices ![0, 0] S1x128
  shapeCasts_S1x128_S128 : S1x128.ShapeCasts S128
  slices_S2x128_S1x128_1_0 : S2x128.Slices ![1, 0] S1x128
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Spec.lean ====
/-
  The AdaGNN forward pass as functions of arrays of extended reals, index by index, in the two
  arrangements the two programs compute it in.

  Notation: L is the N×N operator (N = 10000), x the N×128 features, W1 (128×128), b1, d1 the first
  weighted layer, dh (2×128) the two diagonal hidden layers, W2 (128×64), b2, d2 the last weighted
  layer.  With c = d + 1 (row scaling of a weight matrix) the weighted layer is

      relu ((h − (L·h) ⊙ c) · W + b)                      -- one arrangement ("R": subtract, then project)
      relu ((h·W + b) − (L·h)·(c ⊙ W))                    -- first layer, other arrangement ("K")
      relu ((h·W + b) − L·(h·(c ⊙ W)))                    -- last layer, other arrangement ("K")

  and they agree on real (finite) entries by distributivity and exchanging two finite sums; on the
  extended reals distributivity fails at ±∞, which is why finiteness of the inputs is needed.  The
  hidden layers relu (h − (L·h) ⊙ dh[r]) are literally the same on both sides.  The final row-wise
  log-softmax is written  z − (log Σ exp (z − m) + m)  on one side and  (z − m) − log Σ exp (z − m)
  on the other, m the row maximum.
-/
import Idealize.ShloMosaic.PureOps.Ideal
import Idealize.ShloMosaic.PureOps.Ideal.Laws
import Idealize.ShloMosaic.Lib.ValueIdx

noncomputable section

namespace Cert.AdaGnn

open Idealize.ShloMosaic Idealize.ShloMosaic.ValueIdx

/-- A matrix of extended reals with literal extents. -/
abbrev Mat (r c : Nat) := (⟨2, ![r, c]⟩ : Shape).Idx → EReal
/-- A vector of extended reals with a literal extent. -/
abbrev Row (n : Nat) := (⟨1, ![n]⟩ : Shape).Idx → EReal

/-- The three float literals both programs use, as the extended reals they denote: 1, 0 and −∞. -/
abbrev one : EReal := Ideal.ofBits .f32 0x3F800000#32
abbrev zero : EReal := Ideal.ofBits .f32 0x00000000#32
abbrev negInf : EReal := Ideal.ofBits .f32 0xFF800000#32

/-! ## Small re-arrangements of the parameters -/

/-- Row k of W scaled by d[k] + 1. -/
def scaleRows {c : Nat} (d : Row 128) (W : Mat 128 c) : Mat 128 c := fun i => (d (ix1 (i 0)) + one) * W i
/-- A vector as a one-row matrix. -/
def asRow {n : Nat} (b : Row n) : Mat 1 n := fun i => b (ix1 (i 1))
/-- Row r of the 2×128 table of hidden diagonals, as a one-row matrix. -/
def rowOf (dh : Mat 2 128) (r : Fin 2) : Mat 1 128 := fun i => dh (ix2 r (i 1))

/-! ## Arrangement K (project first) -/

/-- First layer: relu ((xb·W1 + b1) − ((L·xa)·W1s)); xa and xb are two copies of the features. -/
def layer1K (L : Mat 10000 10000) (xa xb : Mat 10000 128) (W1 W1s : Mat 128 128) (b1r : Mat 1 128) : Mat 10000 128 :=
  fun i => max ((∑ k : Fin 128, xb (ix2 (i 0) k) * W1 (ix2 k (i 1)) + b1r (ix2 0 (i 1)))
    - ∑ k : Fin 128, (∑ l : Fin 10000, L (ix2 (i 0) l) * xa (ix2 l k)) * W1s (ix2 k (i 1))) zero

/-- Hidden layer: relu (hb − (L·ha) ⊙ dr); ha and hb are two copies of the previous layer. -/
def hiddenK (L : Mat 10000 10000) (ha hb : Mat 10000 128) (dr : Mat 1 128) : Mat 10000 128 :=
  fun i => max (hb i - (∑ l : Fin 10000, L (ix2 (i 0) l) * ha (ix2 l (i 1))) * dr (ix2 0 (i 1))) zero

/-- h·W2s. -/
def projU (h : Mat 10000 128) (W2s : Mat 128 64) : Mat 10000 64 :=
  fun i => ∑ k : Fin 128, h (ix2 (i 0) k) * W2s (ix2 k (i 1))
/-- h·W2 + b2. -/
def projV (h : Mat 10000 128) (W2 : Mat 128 64) (b2r : Mat 1 64) : Mat 10000 64 :=
  fun i => ∑ k : Fin 128, h (ix2 (i 0) k) * W2 (ix2 k (i 1)) + b2r (ix2 0 (i 1))

/-- Last layer's logits: relu (v − L·u). -/
def logitsK (L : Mat 10000 10000) (u v : Mat 10000 64) : Mat 10000 64 :=
  fun i => max (v i - ∑ l : Fin 10000, L (ix2 (i 0) l) * u (ix2 l (i 1))) zero

/-- The maximum of row p, as a fold of max from −∞. -/
def rowMax (z : Mat 10000 64) (p : Fin 10000) : EReal :=
  (Finset.univ : Finset (Fin 64)).fold max negInf (fun j => z (ix2 p j))

/-- Row-wise log-softmax written z − (log Σ exp (z − m) + m). -/
def logSoftmaxK (z : Mat 10000 64) : Mat 10000 64 :=
  fun i => z i - (Ideal.log (∑ j : Fin 64, Ideal.exp (z (ix2 (i 0) j) - rowMax z (i 0))) + rowMax z (i 0))

/-- The whole forward pass in arrangement K. -/
def forwardK (x : Mat 10000 128) (L : Mat 10000 10000) (W1 : Mat 128 128) (b1 d1 : Row 128) (dh : Mat 2 128)
    (W2 : Mat 128 64) (b2 : Row 64) (d2 : Row 128) : Mat 10000 64 :=
  logSoftmaxK (logitsK L
    (projU (hiddenK L (hiddenK L (layer1K L x x W1 (scaleRows d1 W1) (asRow b1)) (layer1K L x x W1 (scaleRows d1 W1) (asRow b1)) (rowOf dh 0))
                      (hiddenK L (layer1K L x x W1 (scaleRows d1 W1) (asRow b1)) (layer1K L x x W1 (scaleRows d1 W1) (asRow b1)) (rowOf dh 0)) (rowOf dh 1))
           (scaleRows d2 W2))
    (projV (hiddenK L (hiddenK L (layer1K L x x W1 (scaleRows d1 W1) (asRow b1)) (layer1K L x x W1 (scaleRows d1 W1) (asRow b1)) (rowOf dh 0))
                      (hiddenK L (layer1K L x x W1 (scaleRows d1 W1) (asRow b1)) (layer1K L x x W1 (scaleRows d1 W1) (asRow b1)) (rowOf dh 0)) (rowOf dh 1))
           W2 (asRow b2)))

/-! ## Arrangement R (subtract first) -/

/-- First layer: relu ((x − (L·x) ⊙ (d1 + 1))·W1 + b1). -/
def layer1R (L : Mat 10000 10000) (x : Mat 10000 128) (W1 : Mat 128 128) (b1 d1 : Row 128) : Mat 10000 128 :=
  fun i => max ((∑ k : Fin 128, (x (ix2 (i 0) k) - (∑ l : Fin 10000, L (ix2 (i 0) l) * x (ix2 l k)) * (d1 (ix1 k) + one)) * W1 (ix2 k (i 1)))
    + b1 (ix1 (i 1))) zero

/-- Hidden layer: relu (h − (L·h) ⊙ dh[r]). -/
def hiddenR (L : Mat 10000 10000) (h : Mat 10000 128) (dh : Mat 2 128) (r : Fin 2) : Mat 10000 128 :=
  fun i => max (h i - (∑ l : Fin 10000, L (ix2 (i 0) l) * h (ix2 l (i 1))) * dh (ix2 r (i 1))) zero

/-- Last layer's logits: relu ((h − (L·h) ⊙ (d2 + 1))·W2 + b2). -/
def logitsR (L : Mat 10000 10000) (h : Mat 10000 128) (W2 : Mat 128 64) (b2 : Row 64) (d2 : Row 128) : Mat 10000 64 :=
  fun i => max ((∑ k : Fin 128, (h (ix2 (i 0) k) - (∑ l : Fin 10000, L (ix2 (i 0) l) * h (ix2 l k)) * (d2 (ix1 k) + one)) * W2 (ix2 k (i 1)))
    + b2 (ix1 (i 1))) zero

/-- Row-wise log-softmax written (z − m) − log (0 + Σ exp (z − m)), m = max (−∞) (row maximum). -/
def logSoftmaxR (z : Mat 10000 64) : Mat 10000 64 :=
  fun i => (z i - max negInf (rowMax z (i 0)))
    - Ideal.log (zero + ∑ j : Fin 64, Ideal.exp (z (ix2 (i 0) j) - max negInf (rowMax z (i 0))))

/-- The whole forward pass in arrangement R. -/
def forwardR (x : Mat 10000 128) (L : Mat 10000 10000) (W1 : Mat 128 128) (b1 d1 : Row 128) (dh : Mat 2 128)
    (W2 : Mat 128 64) (b2 : Row 64) (d2 : Row 128) : Mat 10000 64 :=
  logSoftmaxR (logitsR L (hiddenR L (hiddenR L (layer1R L x W1 b1 d1) dh 0) dh 1) W2 b2 d2)

/-- Every entry of an array is a real number. -/
def AllReal {ι : Type} (a : ι → EReal) : Prop := ∀ i, ∃ r : ℝ, a i = (r : EReal)

end Cert.AdaGnn

end
-- ==== Proof.Algebra1.lean ====
/-
  Real-valued extended reals and the algebraic identities between the two arrangements of the
  forward pass.

  An extended real is "real" when it is the image of a real number.  Sums, products, differences
  and maxima of real extended reals are real, and on them the extended reals' arithmetic is the
  reals' (the coercion commutes with every operation), so the identities below are proved by
  pushing the coercion outwards and finishing in ℝ with distributivity and an exchange of two
  finite sums.  The index types are arbitrary finite types: nothing is ever enumerated.
-/
import proofs.«120691_g47665547051069_cont_8to1c4_396_9_alg».proof.Proof.Spec

noncomputable section

namespace Cert.AdaGnn

open Idealize.ShloMosaic

/-! ## The three literals -/

/-- The pattern of `1.0` denotes the real 1. -/
theorem one_eq : one = ((1 : ℝ) : EReal) := by
  show Ideal.ofBits .f32 0x3F800000#32 = ((1 : ℝ) : EReal)
  simp [Ideal.ofBits, Ideal.ieee, -EReal.coe_mul]; norm_num

/-- The pattern of `+0.0` denotes 0. -/
theorem zero_eq : zero = 0 := Ideal.ofBits_zero_f32

/-- The pattern of `-inf` denotes −∞. -/
theorem negInf_eq : negInf = ⊥ := by
  show Ideal.ofBits .f32 0xFF800000#32 = ⊥
  simp [Ideal.ofBits, Ideal.ieee]

/-! ## Real extended reals -/

/-- An extended real that is the image of a real number. -/
def IsReal (a : EReal) : Prop := ∃ r : ℝ, a = (r : EReal)

theorem IsReal.coe (r : ℝ) : IsReal (r : EReal) := ⟨r, rfl⟩

theorem isReal_zero : IsReal zero := ⟨0, zero_eq⟩

theorem isReal_one : IsReal one := ⟨1, one_eq⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The coercion is monotone, so it commutes with the maximum. -/
theorem coe_max (r s : ℝ) : ((max r s : ℝ) : EReal) = max (r : EReal) (s : EReal) :=
  EReal.coe_strictMono.monotone.map_max

theorem IsReal.max {a b : EReal} (ha : IsReal a) (hb : IsReal b) : IsReal (max a b) := by
  obtain ⟨r, rfl⟩ := ha; obtain ⟨s, rfl⟩ := hb; exact ⟨Max.max r s, (coe_max r s).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) :
    IsReal (∑ i ∈ s, f i) := by
  choose g hg using hf
  obtain rfl : f = fun i => ((g i : ℝ) : EReal) := funext hg
  exact ⟨∑ i ∈ s, g i, (coe_sum s g).symm⟩

/-! ## The identities, over arbitrary finite index types -/

/-- First layer.  With e = L·x (one row), c the row scaling and W one column of the weights:
    (Σ x·W + b) − Σ e·(c·W) = Σ (x − e·c)·W + b. -/
theorem firstLayer_alg {κ : Type*} [Fintype κ] (xb W c e : κ → EReal) (b : EReal)
    (hxb : ∀ k, IsReal (xb k)) (hW : ∀ k, IsReal (W k)) (hc : ∀ k, IsReal (c k)) (he : ∀ k, IsReal (e k))
    (hb : IsReal b) :
    (∑ k, xb k * W k + b) - ∑ k, e k * (c k * W k) = (∑ k, (xb k - e k * c k) * W k) + b := by
  choose xb' hxb' using hxb
  obtain rfl : xb = fun k => ((xb' k : ℝ) : EReal) := funext hxb'
  choose W' hW' using hW
  obtain rfl : W = fun k => ((W' k : ℝ) : EReal) := funext hW'
  choose c' hc' using hc
  obtain rfl : c = fun k => ((c' k : ℝ) : EReal) := funext hc'
  choose e' he' using he
  obtain rfl : e = fun k => ((e' k : ℝ) : EReal) := funext he'
  obtain ⟨b', rfl⟩ := hb
  simp only [← EReal.coe_mul, ← EReal.coe_sub, ← coe_sum, ← EReal.coe_add]
  rw [EReal.coe_eq_coe_iff]
  have : ∀ k, (xb' k - e' k * c' k) * W' k = xb' k * W' k - e' k * (c' k * W' k) := fun k => by ring
  simp only [this, Finset.sum_sub_distrib]
  ring

/-- Last layer.  With H the previous layer, Lr one row of the operator, c the row scaling and W one
    column of the weights:  (Σ_k h·W + b) − Σ_l L·(Σ_k H·(c·W)) = Σ_k (h − (Σ_l L·H)·c)·W + b. -/
theorem lastLayer_alg {ι κ : Type*} [Fintype ι] [Fintype κ] (hr W c : κ → EReal) (b : EReal) (Lr : ι → EReal)
    (H : ι → κ → EReal)
    (hhr : ∀ k, IsReal (hr k)) (hW : ∀ k, IsReal (W k)) (hc : ∀ k, IsReal (c k)) (hL : ∀ l, IsReal (Lr l))
    (hH : ∀ l k, IsReal (H l k)) (hb : IsReal b) :
    (∑ k, hr k * W k + b) - ∑ l, Lr l * ∑ k, H l k * (c k * W k)
      = (∑ k, (hr k - (∑ l, Lr l * H l k) * c k) * W k) + b := by
  choose hr' hhr' using hhr
  obtain rfl : hr = fun k => ((hr' k : ℝ) : EReal) := funext hhr'
  choose W' hW' using hW
  obtain rfl : W = fun k => ((W' k : ℝ) : EReal) := funext hW'
  choose c' hc' using hc
  obtain rfl : c = fun k => ((c' k : ℝ) : EReal) := funext hc'
  choose L' hL' using hL
  obtain rfl : Lr = fun l => ((L' l : ℝ) : EReal) := funext hL'
  choose H' hH' using hH
  obtain rfl : H = fun l k => ((H' l k : ℝ) : EReal) := funext fun l => funext (hH' l)
  obtain ⟨b', rfl⟩ := hb
  simp only [← EReal.coe_mul, ← EReal.coe_sub, ← coe_sum, ← EReal.coe_add]
  rw [EReal.coe_eq_coe_iff]
  have h1 : ∀ k, (hr' k - (∑ l, L' l * H' l k) * c' k) * W' k
      = hr' k * W' k - ∑ l, L' l * (H' l k * (c' k * W' k)) := fun k => by
    rw [sub_mul, Finset.sum_mul, Finset.sum_mul]
    congr 1
    exact Finset.sum_congr rfl fun l _ => by ring
  have h2 : ∑ l, L' l * ∑ k, H' l k * (c' k * W' k) = ∑ k, ∑ l, L' l * (H' l k * (c' k * W' k)) := by
    simp only [Finset.mul_sum]
    exact Finset.sum_comm
  simp only [h1, h2, Finset.sum_sub_distrib]
  ring

/-- The log-softmax rearrangement: for real a, m and ANY extended real t,
    a − (t + m) = (a − m) − t  (both sides are −∞ at t = +∞ and +∞ at t = −∞). -/
theorem sub_add_real (a m : ℝ) (t : EReal) : (a : EReal) - (t + m) = ((a : EReal) - m) - t := by
  induction t using EReal.rec with
  | bot => rw [EReal.bot_add, ← EReal.coe_sub, EReal.coe_sub_bot, EReal.coe_sub_bot]
  | top => rw [EReal.top_add_coe, ← EReal.coe_sub, EReal.sub_top, EReal.sub_top]
  | coe t => rw [← EReal.coe_add, ← EReal.coe_sub, ← EReal.coe_sub, ← EReal.coe_sub, EReal.coe_eq_coe_iff]; ring

/-- The maximum over a nonempty finite family of real extended reals, folded from −∞, is real. -/
theorem isReal_fold_max {ι : Type*} (s : Finset ι) (hs : s.Nonempty) (f : ι → EReal) (hf : ∀ i, IsReal (f i)) :
    IsReal (s.fold Max.max negInf f) := by
  rw [negInf_eq]
  obtain ⟨i, -, hi⟩ := Finset.exists_mem_eq_sup s hs f
  have : s.fold Max.max ⊥ f = s.sup f := rfl
  rw [this, hi]
  exact hf i

end Cert.AdaGnn

end
-- ==== Proof.Algebra.lean ====
/-
  The two arrangements of the forward pass agree on real inputs.

  Layer by layer: the first weighted layer by distributivity, the two diagonal hidden layers
  literally, the last weighted layer by distributivity and an exchange of the sum over the nodes
  with the sum over the features, and the log-softmax by  a − (t + m) = (a − m) − t  for real a, m.
  Every layer maps real arrays to real arrays, which is what lets the next layer's identity apply.
-/
import proofs.«120691_g47665547051069_cont_8to1c4_396_9_alg».proof.Proof.Algebra1

noncomputable section

namespace Cert.AdaGnn

open Idealize.ShloMosaic Idealize.ShloMosaic.ValueIdx

/-! ## Every layer maps real arrays to real arrays -/

theorem allReal_layer1R {L : Mat 10000 10000} {x : Mat 10000 128} {W1 : Mat 128 128} {b1 d1 : Row 128}
    (hL : AllReal L) (hx : AllReal x) (hW1 : AllReal W1) (hb1 : AllReal b1) (hd1 : AllReal d1) :
    AllReal (layer1R L x W1 b1 d1) := fun i =>
  IsReal.max (IsReal.add (isReal_sum _ _ fun _ => IsReal.mul (IsReal.sub (hx _)
    (IsReal.mul (isReal_sum _ _ fun _ => IsReal.mul (hL _) (hx _)) (IsReal.add (hd1 _) isReal_one))) (hW1 _)) (hb1 _))
    isReal_zero

theorem allReal_hiddenR {L : Mat 10000 10000} {h : Mat 10000 128} {dh : Mat 2 128}
    (hL : AllReal L) (hh : AllReal h) (hdh : AllReal dh) (r : Fin 2) :
    AllReal (hiddenR L h dh r) := fun i =>
  IsReal.max (IsReal.sub (hh _) (IsReal.mul (isReal_sum _ _ fun _ => IsReal.mul (hL _) (hh _)) (hdh _))) isReal_zero

theorem allReal_logitsR {L : Mat 10000 10000} {h : Mat 10000 128} {W2 : Mat 128 64} {b2 : Row 64} {d2 : Row 128}
    (hL : AllReal L) (hh : AllReal h) (hW2 : AllReal W2) (hb2 : AllReal b2) (hd2 : AllReal d2) :
    AllReal (logitsR L h W2 b2 d2) := fun i =>
  IsReal.max (IsReal.add (isReal_sum _ _ fun _ => IsReal.mul (IsReal.sub (hh _)
    (IsReal.mul (isReal_sum _ _ fun _ => IsReal.mul (hL _) (hh _)) (IsReal.add (hd2 _) isReal_one))) (hW2 _)) (hb2 _))
    isReal_zero

/-! ## Layer by layer -/

/-- First weighted layer: (x·W1 + b1) − (L·x)·(c ⊙ W1) = (x − (L·x) ⊙ c)·W1 + b1 before the relu. -/
theorem layer1K_eq_layer1R (L : Mat 10000 10000) (x : Mat 10000 128) (W1 : Mat 128 128) (b1 d1 : Row 128)
    (hL : AllReal L) (hx : AllReal x) (hW1 : AllReal W1) (hb1 : AllReal b1) (hd1 : AllReal d1) :
    layer1K L x x W1 (scaleRows d1 W1) (asRow b1) = layer1R L x W1 b1 d1 := by
  funext i
  unfold layer1K layer1R scaleRows asRow
  refine congrArg (fun t => max t zero) ?_
  exact firstLayer_alg (fun k => x (ix2 (i 0) k)) (fun k => W1 (ix2 k (i 1))) (fun k => d1 (ix1 k) + one)
    (fun k => ∑ l : Fin 10000, L (ix2 (i 0) l) * x (ix2 l k)) (b1 (ix1 (i 1)))
    (fun _ => hx _) (fun _ => hW1 _) (fun _ => IsReal.add (hd1 _) isReal_one)
    (fun _ => isReal_sum _ _ fun _ => IsReal.mul (hL _) (hx _)) (hb1 _)

/-- The hidden layers are the same expression on both sides. -/
theorem hiddenK_eq_hiddenR (L : Mat 10000 10000) (h : Mat 10000 128) (dh : Mat 2 128) (r : Fin 2) :
    hiddenK L h h (rowOf dh r) = hiddenR L h dh r := rfl

/-- Last weighted layer: (h·W2 + b2) − L·(h·(c ⊙ W2)) = (h − (L·h) ⊙ c)·W2 + b2 before the relu. -/
theorem logitsK_eq_logitsR (L : Mat 10000 10000) (h : Mat 10000 128) (W2 : Mat 128 64) (b2 : Row 64) (d2 : Row 128)
    (hL : AllReal L) (hh : AllReal h) (hW2 : AllReal W2) (hb2 : AllReal b2) (hd2 : AllReal d2) :
    logitsK L (projU h (scaleRows d2 W2)) (projV h W2 (asRow b2)) = logitsR L h W2 b2 d2 := by
  funext i
  unfold logitsK logitsR projU projV scaleRows asRow
  refine congrArg (fun t => max t zero) ?_
  exact lastLayer_alg (fun k => h (ix2 (i 0) k)) (fun k => W2 (ix2 k (i 1))) (fun k => d2 (ix1 k) + one)
    (b2 (ix1 (i 1))) (fun l => L (ix2 (i 0) l)) (fun l k => h (ix2 l k))
    (fun _ => hh _) (fun _ => hW2 _) (fun _ => IsReal.add (hd2 _) isReal_one) (fun _ => hL _)
    (fun _ _ => hh _) (hb2 _)

/-- The two ways of writing the row-wise log-softmax agree on a real array: the row maximum m is
    real, max (−∞) m = m, 0 + s = s, and z − (t + m) = (z − m) − t for real z, m. -/
theorem logSoftmaxK_eq_logSoftmaxR (z : Mat 10000 64) (hz : AllReal z) : logSoftmaxK z = logSoftmaxR z := by
  funext i
  unfold logSoftmaxK logSoftmaxR
  obtain ⟨m, hm⟩ : IsReal (rowMax z (i 0)) :=
    isReal_fold_max _ ⟨0, Finset.mem_univ _⟩ _ fun _ => hz _
  obtain ⟨a, ha⟩ := hz i
  rw [hm, ha, negInf_eq, max_eq_right bot_le, zero_eq, zero_add]
  exact sub_add_real a m _

/-! ## The whole pass -/

theorem forwardK_eq_forwardR (x : Mat 10000 128) (L : Mat 10000 10000) (W1 : Mat 128 128) (b1 d1 : Row 128) (dh : Mat 2 128)
    (W2 : Mat 128 64) (b2 : Row 64) (d2 : Row 128)
    (hx : AllReal x) (hL : AllReal L) (hW1 : AllReal W1) (hb1 : AllReal b1) (hd1 : AllReal d1) (hdh : AllReal dh)
    (hW2 : AllReal W2) (hb2 : AllReal b2) (hd2 : AllReal d2) :
    forwardK x L W1 b1 d1 dh W2 b2 d2 = forwardR x L W1 b1 d1 dh W2 b2 d2 := by
  have hl1 := allReal_layer1R hL hx hW1 hb1 hd1
  have hh1 := allReal_hiddenR hL hl1 hdh 0
  have hh2 := allReal_hiddenR hL hh1 hdh 1
  have hz := allReal_logitsR hL hh2 hW2 hb2 hd2
  unfold forwardK forwardR
  rw [layer1K_eq_layer1R L x W1 b1 d1 hL hx hW1 hb1 hd1, hiddenK_eq_hiddenR, hiddenK_eq_hiddenR,
    logitsK_eq_logitsR L _ W2 b2 d2 hL hh2 hW2 hb2 hd2]
  exact logSoftmaxK_eq_logSoftmaxR _ hz

end Cert.AdaGnn

end
-- ==== Proof.Finite.lean ====
/-
  The finiteness precondition, decoded: if the predicate "every entry of each of the nine float
  inputs has |x| < +∞" holds, every entry of every input is a real number.

  The predicate is a conjunction of nine "all entries" reductions by `and`.  One such reduction
  being 1 says every entry x satisfies max x (−x) < +∞ on the extended reals, which excludes
  x = +∞ and x = −∞ (there max x (−x) = +∞), so x is the image of a real.  This step is stated once
  for an arbitrary shape; no entry is ever enumerated.
-/
import proofs.«120691_g47665547051069_cont_8to1c4_396_9_alg».proof.Proof.Spec
import proofs.«120691_g47665547051069_cont_8to1c4_396_9_alg».proof.Pre_finite_inputs
import Idealize.ShloMosaic.Lib.ReduceAll

noncomputable section

namespace Cert.AdaGnn

open Idealize.ShloMosaic

/-- The pattern of `+inf` denotes +∞. -/
theorem posInf_eq : Ideal.ofBits .f32 0x7F800000#32 = (⊤ : EReal) := by
  simp [Ideal.ofBits, Ideal.ieee]

/-- An extended real x with max x (−x) < +∞ is real: at x = ±∞ the maximum is +∞. -/
theorem exists_real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison "less than" on the extended reals is the word 1 exactly when it holds. -/
theorem cmp_olt_eq_one {x y : EReal} (h : Ideal.cmp .olt x y = 1#1) : x < y := by
  by_contra hn
  simp [Ideal.cmp, hn] at h

/-- The elementwise `and` of two arrays of words, at an index. -/
theorem andi_at {s : Shape} {w : Nat} (x y : IVec s w) (i : s.Idx) : andi x y i = IntOp.andi (x i) (y i) := rfl

/-- One "all entries are finite" reduction, for an arbitrary shape: if the reduction by `and` of the
    comparisons |a| < +∞ into a one-element result is 1, every entry of a is real. -/
theorem allReal_of_all_abs_lt_inf {s t u c : Shape} [Subsingleton t.Idx] {axes : List (Fin s.rank)}
    (a : FVec Ideal s .f32) (dims : Fin c.rank → Fin s.rank) (hb : c.BroadcastsInDim s dims)
    (hr : s.ReducesTo axes t) (hu : 0 < u.numel) (init : IVec u 1) (j : t.Idx)
    (e : Host.reduce IntOp.andi
        (cmpf .olt (Host.absf a) (broadcastInDim s dims hb (constant (F := Ideal) c .f32 0x7F800000#32)))
        init hr hu j = 1#1) :
    AllReal a := by
  intro i
  have h1 := Host.reduce_andi_all _ init hr hu j e i
  have h2 : Ideal.cmp .olt (max (a i) (-(a i))) (Ideal.ofBits .f32 0x7F800000#32) = 1#1 := h1
  rw [posInf_eq] at h2
  exact exists_real_of_abs_lt_top (a i) (cmp_olt_eq_one h2)

/-- The scalar shape has one index. -/
instance : Subsingleton Cert.Pre_finite_inputs.S_.Idx := ⟨fun _ _ => funext fun d => d.elim0⟩

/-- The precondition, decoded: all nine inputs are arrays of reals. -/
theorem allReal_of_finite_inputs [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x128 .f32)
    (a3 a4 : FVec Ideal Cert.Pre_finite_inputs.S128 .f32) (a5 : FVec Ideal Cert.Pre_finite_inputs.S2x128 .f32)
    (a6 : FVec Ideal Cert.Pre_finite_inputs.S128x64 .f32)
    (a7 : FVec Ideal Cert.Pre_finite_inputs.S64 .f32) (a8 : FVec Ideal Cert.Pre_finite_inputs.S128 .f32)
    (h : Cert.Pre_finite_inputs.fn (F := Ideal) a0 a1 a2 a3 a4 a5 a6 a7 a8 = fun _ => 1#1) :
    AllReal a0 ∧ AllReal a1 ∧ AllReal a2 ∧ AllReal a3 ∧ AllReal a4 ∧ AllReal a5 ∧ AllReal a6 ∧ AllReal a7 ∧ AllReal a8 := by
  have h0 := congrFun h ValueIdx.ix0
  dsimp only [Cert.Pre_finite_inputs.fn, Cert.Pre_finite_inputs.fn_part1, Cert.Pre_finite_inputs.fn_part2] at h0
  simp only [andi_at, IntOp.andi_eq_one] at h0
  obtain ⟨⟨⟨⟨⟨⟨⟨⟨r0, r1⟩, r2⟩, r3⟩, r4⟩, r5⟩, r6⟩, r7⟩, r8⟩ := h0
  exact ⟨allReal_of_all_abs_lt_inf a0 _ _ _ _ _ _ r0, allReal_of_all_abs_lt_inf a1 _ _ _ _ _ _ r1,
    allReal_of_all_abs_lt_inf a2 _ _ _ _ _ _ r2, allReal_of_all_abs_lt_inf a3 _ _ _ _ _ _ r3,
    allReal_of_all_abs_lt_inf a4 _ _ _ _ _ _ r4, allReal_of_all_abs_lt_inf a5 _ _ _ _ _ _ r5,
    allReal_of_all_abs_lt_inf a6 _ _ _ _ _ _ r6, allReal_of_all_abs_lt_inf a7 _ _ _ _ _ _ r7,
    allReal_of_all_abs_lt_inf a8 _ _ _ _ _ _ r8⟩

end Cert.AdaGnn

end
-- ==== Proof.KernelRun.lean ====
/-
  The idealized kernel's whole run with its RESULT named: every weakly fair execution of @main ends,
  nothing faulting, with the result array holding what the last region's write-backs leave and the
  nine argument arrays as launched.  The generated frame proves the same run but keeps only the
  arguments in its post; the result array is read off the same last boundary contents.
-/
import proofs.«120691_g47665547051069_cont_8to1c4_396_9_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents. -/
theorem run : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.ResultRun

end
-- ==== Proof.HostGlue.lean ====
/-
  The host operations of the idealized kernel's @main, read as values.  Before the first region the
  host scales the rows of W1 and W2 by d + 1 (a [128] → [128,1] → [128,c] broadcast times the matrix),
  reshapes the two biases to one-row matrices and copies the features to a second buffer; before the
  second and third regions it slices one row of the 2×128 table of hidden diagonals.  At the ideal
  values a change of float format is the identity.  Each stretch is evaluated from an ARBITRARY
  valuation W of the buffers, and writes none of the buffers it does not name.
-/
import proofs.«120691_g47665547051069_cont_8to1c4_396_9_alg».proof.Proof.Gen.KernelIdeal.Frame
import proofs.«120691_g47665547051069_cont_8to1c4_396_9_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostGlue

open Cert.KernelIdeal Cert.KernelIdeal.Gen Cert.AdaGnn
open Idealize.ShloMosaic Idealize.ShloMosaic.TcCoe Idealize.ShloMosaic.ValueIdx Idealize.SL.Sem Idealize.ShloMosaic.StableHlo

/-! ## The layout operations, read at an index -/

/-- A vector broadcast down the columns of a matrix ([n] → [n,1] → [n,c]) read at (p, q) is the vector at p. -/
theorem colBroadcast_apply {c : Nat} (h0 : S128.BroadcastsInDim S128x1 ![0])
    (h1 : S128x1.BroadcastsInDim (⟨2, ![128, c]⟩ : Shape) ![0, 1]) (hc : c ≠ 1) (y : S128.Idx → EReal) (i : (⟨2, ![128, c]⟩ : Shape).Idx) :
    broadcastInDim (⟨2, ![128, c]⟩ : Shape) ![0, 1] h1 (broadcastInDim S128x1 ![0] h0 y) i = y (ix1 (i 0)) := by
  rw [broadcastInDim_apply _ h1 _ i (ix2 (i 0) (0 : Fin 1)) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])]
  exact broadcastInDim_apply _ h0 y _ (ix1 (i 0)) (fun a => match a with
    | ⟨0, _⟩ => by show (i 0).val = if (128 : Nat) = 1 then 0 else (i 0).val; rw [if_neg (by decide)])

/-- A scalar broadcast to a vector is the scalar at every index. -/
theorem scalarBroadcast_apply (h : S_.BroadcastsInDim S128 ![]) (y : S_.Idx → EReal) (j : S128.Idx) :
    broadcastInDim S128 ![] h y j = y ix0 :=
  broadcastInDim_apply _ h y j ix0 (fun a => a.elim0)

/-- A vector reshaped to a one-row matrix read at (0, q) is the vector at q. -/
theorem rowReshape_apply {n : Nat} (h : (⟨1, ![n]⟩ : Shape).ShapeCasts (⟨2, ![1, n]⟩ : Shape)) (y : (⟨1, ![n]⟩ : Shape).Idx → EReal)
    (i : (⟨2, ![1, n]⟩ : Shape).Idx) : shapeCast (⟨2, ![1, n]⟩ : Shape) y h i = y (ix1 (i 1)) :=
  shapeCast_apply y h i (ix1 (i 1)) (by
    rewrite [Shape.rowMajor_val_one, Shape.rowMajor_val_two]
    have h0 : (i 0).val = 0 := by have h1 : (i 0).val < 1 := (i 0).isLt; omega
    show (i 1).val = (i 0).val * n + (i 1).val
    rw [h0, Nat.zero_mul, Nat.zero_add])

/-- Row k of a matrix times (d[k] + 1), as the host computes it: the vector d + 1 broadcast down the columns, times the matrix. -/
theorem scaleRows_eq {c : Nat} (hc : c ≠ 1) (h0 : S128.BroadcastsInDim S128x1 ![0])
    (h1 : S128x1.BroadcastsInDim (⟨2, ![128, c]⟩ : Shape) ![0, 1]) (hS : S_.BroadcastsInDim S128 ![])
    (d : FVec Ideal S128 .f32) (Wm : FVec Ideal (⟨2, ![128, c]⟩ : Shape) .f32) :
    mulf (broadcastInDim (⟨2, ![128, c]⟩ : Shape) ![0, 1] h1 (broadcastInDim S128x1 ![0] h0
      (addf d (broadcastInDim S128 ![] hS (constant (F := Ideal) S_ .f32 0x3F800000#32))))) Wm = scaleRows d Wm := by
  funext i
  show (broadcastInDim (⟨2, ![128, c]⟩ : Shape) ![0, 1] h1 (broadcastInDim S128x1 ![0] h0
      (addf d (broadcastInDim S128 ![] hS (constant (F := Ideal) S_ .f32 0x3F800000#32)))) i : EReal) * Wm i = (d (ix1 (i 0)) + one) * Wm i
  refine congrArg (· * Wm i) ?_
  refine (colBroadcast_apply h0 h1 hc _ i).trans ?_
  show d (ix1 (i 0)) + broadcastInDim S128 ![] hS (constant (F := Ideal) S_ .f32 0x3F800000#32) (ix1 (i 0)) = d (ix1 (i 0)) + one
  refine congrArg (d (ix1 (i 0)) + ·) ?_
  exact scalarBroadcast_apply hS _ _

/-- At the ideal values a change of float format leaves an array as it is. -/
theorem truncf_bf16_eq {s : Shape} (X : FVec Ideal s .f32) (h : FTy.bf16.bits < FTy.f32.bits) :
    (truncf .bf16 X h : s.Idx → EReal) = X := rfl

/-- One row of the 2×128 table, sliced out, flattened and made a one-row matrix again, is that row. -/
theorem rowSlice_eq (r : Fin 2) (off : Fin 2 → Nat) (hoff0 : off 0 = r.val) (hoff1 : off 1 = 0) (hs : S2x128.Slices off S1x128)
    (h1 : S1x128.ShapeCasts S128) (h2 : S128.ShapeCasts S1x128) (dh : FVec Ideal S2x128 .f32) :
    (shapeCast S1x128 (shapeCast S128 (extractStridedSlice S1x128 off dh hs) h1) h2 : Mat 1 128) = rowOf dh r := by
  funext i
  refine (rowReshape_apply h2 _ i).trans ?_
  refine (shapeCast_apply _ h1 (ix1 (i 1)) (ix2 (0 : Fin 1) (i 1)) (by
    rewrite [Shape.rowMajor_val_two, Shape.rowMajor_val_one]
    show 0 * 128 + (i 1).val = (i 1).val
    omega)).trans ?_
  exact extractStridedSlice_apply off dh hs _ (ix2 r (i 1)) (fun a => match a with
    | ⟨0, _⟩ => by show r.val = off 0 + 0; omega
    | ⟨1, _⟩ => by show (i 1).val = off 1 + (i 1).val; omega)

variable (W : Valuation τ sig (Elt Ideal))

/-! ## Before the first region -/

theorem keep0 : after hostOps0 W (Proc.devRef .tc main_arg0) = W (Proc.devRef .tc main_arg0)
    ∧ after hostOps0 W (Proc.devRef .tc main_arg1) = W (Proc.devRef .tc main_arg1)
    ∧ after hostOps0 W (Proc.devRef .tc main_arg2) = W (Proc.devRef .tc main_arg2)
    ∧ after hostOps0 W (Proc.devRef .tc main_arg5) = W (Proc.devRef .tc main_arg5)
    ∧ after hostOps0 W (Proc.devRef .tc main_arg6) = W (Proc.devRef .tc main_arg6) := by
  refine ⟨?_, ?_, ?_, ?_, ?_⟩ <;> after_results_simp

/-- The second copy of the features is the features. -/
theorem h0_x16 : (after hostOps0 W (Proc.devRef .tc main_v13) : Mat 10000 128) = W (Proc.devRef .tc main_arg0) := by
  after_results_simp
  rfl

/-- The scaled first weight matrix. -/
theorem h0_W1s : (after hostOps0 W (Proc.devRef .tc main_v5) : Mat 128 128) = scaleRows (W (Proc.devRef .tc main_arg4)) (W (Proc.devRef .tc main_arg2)) := by
  after_results_simp
  exact (truncf_bf16_eq _ _).trans (scaleRows_eq (by decide) _ _ _ _ _)

/-- The scaled last weight matrix. -/
theorem h0_W2s : (after hostOps0 W (Proc.devRef .tc main_v10) : Mat 128 64) = scaleRows (W (Proc.devRef .tc main_arg8)) (W (Proc.devRef .tc main_arg6)) := by
  after_results_simp
  exact scaleRows_eq (by decide) _ _ _ _ _

/-- The first bias as a one-row matrix. -/
theorem h0_b1r : (after hostOps0 W (Proc.devRef .tc main_v11) : Mat 1 128) = asRow (W (Proc.devRef .tc main_arg3)) := by
  after_results_simp
  funext i
  exact rowReshape_apply _ _ i

/-- The last bias as a one-row matrix. -/
theorem h0_b2r : (after hostOps0 W (Proc.devRef .tc main_v12) : Mat 1 64) = asRow (W (Proc.devRef .tc main_arg7)) := by
  after_results_simp
  funext i
  exact rowReshape_apply _ _ i

/-! ## Before the second region -/

theorem keep1 : after hostOps1 W (Proc.devRef .tc main_v14_0) = W (Proc.devRef .tc main_v14_0)
    ∧ after hostOps1 W (Proc.devRef .tc main_v14_1) = W (Proc.devRef .tc main_v14_1)
    ∧ after hostOps1 W (Proc.devRef .tc main_v14_2) = W (Proc.devRef .tc main_v14_2)
    ∧ after hostOps1 W (Proc.devRef .tc main_arg5) = W (Proc.devRef .tc main_arg5)
    ∧ after hostOps1 W (Proc.devRef .tc main_arg6) = W (Proc.devRef .tc main_arg6)
    ∧ after hostOps1 W (Proc.devRef .tc main_v10) = W (Proc.devRef .tc main_v10)
    ∧ after hostOps1 W (Proc.devRef .tc main_v12) = W (Proc.devRef .tc main_v12) := by
  refine ⟨?_, ?_, ?_, ?_, ?_, ?_, ?_⟩ <;> after_results_simp

/-- The first hidden diagonal as a one-row matrix. -/
theorem h1_dr : (after hostOps1 W (Proc.devRef .tc main_v17) : Mat 1 128) = rowOf (W (Proc.devRef .tc main_arg5)) 0 := by
  after_results_simp
  exact rowSlice_eq 0 ![0, 0] rfl rfl _ _ _ _

/-! ## Before the third region -/

theorem keep2 : after hostOps2 W (Proc.devRef .tc main_v14_0) = W (Proc.devRef .tc main_v14_0)
    ∧ after hostOps2 W (Proc.devRef .tc main_v18_0) = W (Proc.devRef .tc main_v18_0)
    ∧ after hostOps2 W (Proc.devRef .tc main_v18_1) = W (Proc.devRef .tc main_v18_1)
    ∧ after hostOps2 W (Proc.devRef .tc main_arg6) = W (Proc.devRef .tc main_arg6)
    ∧ after hostOps2 W (Proc.devRef .tc main_v10) = W (Proc.devRef .tc main_v10)
    ∧ after hostOps2 W (Proc.devRef .tc main_v12) = W (Proc.devRef .tc main_v12) := by
  refine ⟨?_, ?_, ?_, ?_, ?_, ?_⟩ <;> after_results_simp

/-- The second hidden diagonal as a one-row matrix. -/
theorem h2_dr : (after hostOps2 W (Proc.devRef .tc main_v21) : Mat 1 128) = rowOf (W (Proc.devRef .tc main_arg5)) 1 := by
  after_results_simp
  exact rowSlice_eq 1 ![1, 0] rfl rfl _ _ _ _

end Cert.KernelIdeal.HostGlue

end
-- ==== Proof.Region0.lean ====
/-
  The first of the four row-strip sweeps of the idealized kernel, read as whole arrays.

  The sweep walks the N = 10000 rows of the N×N operator L in 25 strips of 400 rows. For strip t it forms, with every
  number an extended real,

      relu ((xs·W1 + b1) − ((Ls·x)·W1s))

  where Ls is rows 400 t … 400 t + 399 of L, xs the same rows of the features x, and x, W1, W1s, b1 are read whole at
  every strip; it writes the 400×128 result into rows 400 t … 400 t + 399 of two result arrays (one in each float
  format: on extended reals a change of format is the identity, so the two hold the same values) and writes Ls itself
  into the same rows of a third (the short-format copy of L).

  Proved here: entry (p, q) of a strip's stored value is the entry-wise formula with Σ over the contraction coordinates
  (`stored_entry`); each block entry a strip reads is the array's entry in that strip's row (`strip_L` … `whole_B`); hence
  what strip t writes back is rows 400 t … of ONE whole-array function of the arrays the sweep finds, `AdaGnn.layer1K`
  (`flushed_h32`, `flushed_h16`), resp. of L (`flushed_copy`); the 25 strips cover every row (row r lies in strip r / 400),
  so after the last strip the three result arrays are that function, resp. L (`arr_h32`, `arr_h16`, `arr_copy`).
-/
import proofs.«120691_g47665547051069_cont_8to1c4_396_9_alg».proof.Proof.Gen.KernelIdeal.Frame
import proofs.«120691_g47665547051069_cont_8to1c4_396_9_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-! ## A matrix product read at an entry

At the extended reals a product accumulated into the zero matrix is the plain sum over the contraction index. Both
products here contract the left operand's columns against the right operand's rows, so the contraction index is one
coordinate and entry (p, q) of A·B is Σ_l A(p, l) · B(l, q): the four facts below say which coordinate of each operand's
index is the output's and which is the contraction's. -/

theorem mm_long_l0 (i : S400x128.Idx) (r : dot_S400x10000_S10000x128_S400x128_1_0_0_1_n_n.contr.Idx) : (dot_S400x10000_S10000x128_S400x128_1_0_0_1_n_n.lhsIdx i r 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mm_long_l1 (i : S400x128.Idx) (r : dot_S400x10000_S10000x128_S400x128_1_0_0_1_n_n.contr.Idx) : (dot_S400x10000_S10000x128_S400x128_1_0_0_1_n_n.lhsIdx i r 1).val = (r ⟨0, by decide⟩).val :=
  dot_S400x10000_S10000x128_S400x128_1_0_0_1_n_n.lhsIdx_val_of_single rfl i r
theorem mm_long_r0 (i : S400x128.Idx) (r : dot_S400x10000_S10000x128_S400x128_1_0_0_1_n_n.contr.Idx) : (dot_S400x10000_S10000x128_S400x128_1_0_0_1_n_n.rhsIdx i r 0).val = (r ⟨0, by decide⟩).val :=
  dot_S400x10000_S10000x128_S400x128_1_0_0_1_n_n.rhsIdx_val_of_single rfl i r
theorem mm_long_r1 (i : S400x128.Idx) (r : dot_S400x10000_S10000x128_S400x128_1_0_0_1_n_n.contr.Idx) : (dot_S400x10000_S10000x128_S400x128_1_0_0_1_n_n.rhsIdx i r 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, q) of a [400,10000]·[10000,128] product is Σ_l A(p, l) · B(l, q). -/
theorem mm_long {φ₁ φ₂ : FTy} (A : FVec Ideal S400x10000 φ₁) (B : FVec Ideal S10000x128 φ₂) (p : Fin 400) (q : Fin 128) :
    FloatOps.matmul dot_S400x10000_S10000x128_S400x128_1_0_0_1_n_n none A B (constant S400x128 .f32 0x00000000#32) (ix2 p q)
      = ∑ l : Fin 10000, A (ix2 p l) * B (ix2 l q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact mm_long_l0 _ _
      | ⟨1, _⟩ => exact (mm_long_l1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (mm_long_r0 _ _).trans hk
      | ⟨1, _⟩ => exact mm_long_r1 _ _)
  rw [el, er]

theorem mm_short_l0 (i : S400x128.Idx) (r : dot_S400x128_S128x128_S400x128_1_0_0_1_n_n.contr.Idx) : (dot_S400x128_S128x128_S400x128_1_0_0_1_n_n.lhsIdx i r 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mm_short_l1 (i : S400x128.Idx) (r : dot_S400x128_S128x128_S400x128_1_0_0_1_n_n.contr.Idx) : (dot_S400x128_S128x128_S400x128_1_0_0_1_n_n.lhsIdx i r 1).val = (r ⟨0, by decide⟩).val :=
  dot_S400x128_S128x128_S400x128_1_0_0_1_n_n.lhsIdx_val_of_single rfl i r
theorem mm_short_r0 (i : S400x128.Idx) (r : dot_S400x128_S128x128_S400x128_1_0_0_1_n_n.contr.Idx) : (dot_S400x128_S128x128_S400x128_1_0_0_1_n_n.rhsIdx i r 0).val = (r ⟨0, by decide⟩).val :=
  dot_S400x128_S128x128_S400x128_1_0_0_1_n_n.rhsIdx_val_of_single rfl i r
theorem mm_short_r1 (i : S400x128.Idx) (r : dot_S400x128_S128x128_S400x128_1_0_0_1_n_n.contr.Idx) : (dot_S400x128_S128x128_S400x128_1_0_0_1_n_n.rhsIdx i r 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (p, q) of a [400,128]·[128,128] product is Σ_k A(p, k) · B(k, q). -/
theorem mm_short {φ₁ φ₂ : FTy} (A : FVec Ideal S400x128 φ₁) (B : FVec Ideal S128x128 φ₂) (p : Fin 400) (q : Fin 128) :
    FloatOps.matmul dot_S400x128_S128x128_S400x128_1_0_0_1_n_n none A B (constant S400x128 .f32 0x00000000#32) (ix2 p q)
      = ∑ k : Fin 128, A (ix2 p k) * B (ix2 k q) := by
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun a => Fin.ext (by
      match a with
      | ⟨0, _⟩ => exact mm_short_l0 _ _
      | ⟨1, _⟩ => exact (mm_short_l1 _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun a => Fin.ext (by
      match a with
      | ⟨0, _⟩ => exact (mm_short_r0 _ _).trans hk
      | ⟨1, _⟩ => exact mm_short_r1 _ _)
  rw [el, er]

/-! ## What one grid point stores, entry by entry

The row strip's 400 rows of L times the whole feature matrix, times the row-scaled weights, subtracted from the strip's
own features times the weights plus the bias row, clamped below at zero. Rounding to the short float format is the
identity on extended reals, and a shape cast to the same shape is the identity. -/

/-- Entry (p, q) of the value stored by one point, over the blocks the point reads: `xL` the strip of L, `xF` the whole
    feature matrix, `xWs` the row-scaled weights, `xS` the strip of the features, `xW` the weights, `xB` the bias row. -/
theorem stored_entry (xL : Vec Ideal S400x10000 .f32) (xF : Vec Ideal S10000x128 .bf16) (xWs : Vec Ideal S128x128 .bf16)
    (xS : Vec Ideal S400x128 .f32) (xW : Vec Ideal S128x128 .f32) (xB : Vec Ideal S1x128 .f32) (p : Fin 400) (q : Fin 128) :
    k0_pay2 xL xF xWs xS xW xB (ix2 p q)
      = max ((∑ k : Fin 128, xS (ix2 p k) * xW (ix2 k q) + xB (ix2 (0 : Fin 1) q))
          - ∑ k : Fin 128, (∑ l : Fin 10000, xL (ix2 p l) * xF (ix2 l k)) * xWs (ix2 k q)) AdaGnn.zero := by
  unfold k0_pay2 k0_pay1
  simp only [shapeCast_self]
  refine congrArg₂ max (congrArg₂ (· - ·) (congrArg₂ (· + ·) (mm_short xS xW p q) (broadcastTo_1b_ab_apply xB _ p q)) ?_) rfl
  refine (mm_short _ xWs p q).trans (Finset.sum_congr rfl fun k _ => congrArg (· * xWs (ix2 k q)) ?_)
  exact mm_long _ xF p k

/-! ## From the strips to the arrays

Point t of the 25 reads rows 400 t … 400 t + 399 of L and of the features, and the whole of the feature matrix, the two
weight matrices and the bias row; it writes rows 400 t … 400 t + 399 of each of the three results. A block's entry
at block coordinate y sits in the array at (block index) × (block extent) + y on each axis. -/

theorem zero_offsets : (![0, 0] : Fin 2 → Nat) = fun _ => 0 := funext fun a => by fin_cases a <;> rfl

/-- The printed index maps over the 25 points: a row-strip window's block index is (t, 0), a whole-array window's (0, 0). -/
theorem index_maps : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Entry y of the strip of L at point t is entry (400 t + y₀, y₁) of L. -/
theorem strip_L (c : Dev nD) (t : Fin cfg0.N) (y : S400x10000.Idx) (i : S10000x10000.Idx)
    (h0 : (i 0).val = t.val * 400 + (y 0).val) (h1 : (i 1).val = (y 1).val) :
    iblk0 V c 0 t y = V c main_arg1 i := by
  obtain ⟨⟨e0, e1⟩, -⟩ := index_maps t
  have e : ((cfg0.win 0).blk t).view.emb y = i := funext fun a => Fin.ext (by
    match a with
    | ⟨0, _⟩ => show win0_0.index t (0 : Fin 2) * 400 + 1 * (y 0).val = (i 0).val; omega
    | ⟨1, _⟩ => show win0_0.index t (1 : Fin 2) * 10000 + 1 * (y 1).val = (i 1).val; omega)
  show V c main_arg1 (((cfg0.win 0).blk t).view.emb y) = V c main_arg1 i
  rw [e]

/-- The whole feature matrix is its own block at every point. -/
theorem whole_F (c : Dev nD) (t : Fin cfg0.N) (y : S10000x128.Idx) : iblk0 V c 1 t y = V c main_v13 y := by
  obtain ⟨-, ⟨e0, e1⟩, -⟩ := index_maps t
  have e : ((cfg0.win 1).blk t).view.emb y = y := funext fun a => Fin.ext (by
    match a with
    | ⟨0, _⟩ => show win0_1.index t (0 : Fin 2) * 10000 + 1 * (y 0).val = (y 0).val; omega
    | ⟨1, _⟩ => show win0_1.index t (1 : Fin 2) * 128 + 1 * (y 1).val = (y 1).val; omega)
  show V c main_v13 (((cfg0.win 1).blk t).view.emb y) = V c main_v13 y
  rw [e]

/-- Entry y of the strip of the features at point t is entry (400 t + y₀, y₁) of the features. -/
theorem strip_S (c : Dev nD) (t : Fin cfg0.N) (y : S400x128.Idx) (i : S10000x128.Idx)
    (h0 : (i 0).val = t.val * 400 + (y 0).val) (h1 : (i 1).val = (y 1).val) :
    iblk0 V c 2 t y = V c main_arg0 i := by
  obtain ⟨-, -, ⟨e0, e1⟩, -⟩ := index_maps t
  have e : ((cfg0.win 2).blk t).view.emb y = i := funext fun a => Fin.ext (by
    match a with
    | ⟨0, _⟩ => show win0_2.index t (0 : Fin 2) * 400 + 1 * (y 0).val = (i 0).val; omega
    | ⟨1, _⟩ => show win0_2.index t (1 : Fin 2) * 128 + 1 * (y 1).val = (i 1).val; omega)
  show V c main_arg0 (((cfg0.win 2).blk t).view.emb y) = V c main_arg0 i
  rw [e]

/-- The weights are their own block at every point. -/
theorem whole_W (c : Dev nD) (t : Fin cfg0.N) (y i : S128x128.Idx) (h0 : (i 0).val = (y 0).val) (h1 : (i 1).val = (y 1).val) :
    iblk0 V c 3 t y = V c main_arg2 i := by
  obtain ⟨-, -, -, ⟨e0, e1⟩, -⟩ := index_maps t
  have e : ((cfg0.win 3).blk t).view.emb y = i := funext fun a => Fin.ext (by
    match a with
    | ⟨0, _⟩ => show win0_3.index t (0 : Fin 2) * 128 + 1 * (y 0).val = (i 0).val; omega
    | ⟨1, _⟩ => show win0_3.index t (1 : Fin 2) * 128 + 1 * (y 1).val = (i 1).val; omega)
  show V c main_arg2 (((cfg0.win 3).blk t).view.emb y) = V c main_arg2 i
  rw [e]

/-- The row-scaled weights are their own block at every point. -/
theorem whole_Ws (c : Dev nD) (t : Fin cfg0.N) (y i : S128x128.Idx) (h0 : (i 0).val = (y 0).val) (h1 : (i 1).val = (y 1).val) :
    iblk0 V c 4 t y = V c main_v5 i := by
  obtain ⟨-, -, -, -, ⟨e0, e1⟩, -⟩ := index_maps t
  have e : ((cfg0.win 4).blk t).view.emb y = i := funext fun a => Fin.ext (by
    match a with
    | ⟨0, _⟩ => show win0_4.index t (0 : Fin 2) * 128 + 1 * (y 0).val = (i 0).val; omega
    | ⟨1, _⟩ => show win0_4.index t (1 : Fin 2) * 128 + 1 * (y 1).val = (i 1).val; omega)
  show V c main_v5 (((cfg0.win 4).blk t).view.emb y) = V c main_v5 i
  rw [e]

/-- The bias row is its own block at every point. -/
theorem whole_B (c : Dev nD) (t : Fin cfg0.N) (y i : S1x128.Idx) (h0 : (i 0).val = (y 0).val) (h1 : (i 1).val = (y 1).val) :
    iblk0 V c 5 t y = V c main_v11 i := by
  obtain ⟨-, -, -, -, -, ⟨e0, e1⟩, -⟩ := index_maps t
  have e : ((cfg0.win 5).blk t).view.emb y = i := funext fun a => Fin.ext (by
    match a with
    | ⟨0, _⟩ => show win0_5.index t (0 : Fin 2) * 1 + 1 * (y 0).val = (i 0).val; omega
    | ⟨1, _⟩ => show win0_5.index t (1 : Fin 2) * 128 + 1 * (y 1).val = (i 1).val; omega)
  show V c main_v11 (((cfg0.win 5).blk t).view.emb y) = V c main_v11 i
  rw [e]

/-- Entry (p, q) of what point t stores is entry (400 t + p, q) of the first layer, computed from the arrays the region
    finds: each block entry the sums run over is the array's entry in the strip's row, or the whole array's own. -/
theorem point_entry (c : Dev nD) (t : Fin cfg0.N) (p : Fin 400) (q : Fin 128) (i : S10000x128.Idx)
    (hi0 : (i 0).val = t.val * 400 + p.val) (hi1 : (i 1).val = q.val) :
    k0_pay2 (iblk0 V c 0 t) (iblk0 V c 1 t) (iblk0 V c 4 t) (iblk0 V c 2 t) (iblk0 V c 3 t) (iblk0 V c 5 t) (ix2 p q) = (AdaGnn.layer1K (V c main_arg1) (V c main_v13) (V c main_arg0) (V c main_arg2) (V c main_v5) (V c main_v11)) i := by
  refine (stored_entry _ _ _ _ _ _ p q).trans ?_
  unfold AdaGnn.layer1K
  refine congrArg₂ max (congrArg₂ (· - ·) (congrArg₂ (· + ·)
      (Finset.sum_congr rfl fun k _ => congrArg₂ (· * ·) ?_ ?_) ?_)
      (Finset.sum_congr rfl fun k _ => congrArg₂ (· * ·) (Finset.sum_congr rfl fun l _ => congrArg₂ (· * ·) ?_ ?_) ?_)) rfl
  · exact strip_S V c t (ix2 p k) (ix2 (i 0) k) hi0 rfl
  · exact whole_W V c t (ix2 k q) (ix2 k (i 1)) rfl hi1
  · exact whole_B V c t (ix2 (0 : Fin 1) q) (ix2 (0 : Fin 1) (i 1)) rfl hi1
  · exact strip_L V c t (ix2 p l) (ix2 (i 0) l) hi0 rfl
  · exact whole_F V c t (ix2 l k)
  · exact whole_Ws V c t (ix2 k q) (ix2 k (i 1)) rfl hi1

/-- What point t writes back to the full-precision result is rows 400 t … 400 t + 399 of the first layer. -/
theorem flushed_h32 (c : Dev nD) (t : Fin cfg0.N) :
    (dat0 V c).flushed 7 t = ((cfg0.win 7).blk t).view.read (Elt Ideal) (AdaGnn.layer1K (V c main_arg1) (V c main_v13) (V c main_arg0) (V c main_arg2) (V c main_v5) (V c main_v11)) := by
  show (cfg0.win 7).cut (grid0.coords t) ((dat0 V c).after 7 t) = _
  rw [after0_7]
  unfold out0_7
  rw [View.canon_unit_zero zero_offsets]
  simp only [View.ld_unit_zero (S := S400x10000) zero_offsets, View.ld_unit_zero (S := S10000x128) zero_offsets, View.ld_unit_zero (S := S128x128) zero_offsets, View.ld_unit_zero (S := S400x128) zero_offsets, View.ld_unit_zero (S := S1x128) zero_offsets]
  obtain ⟨-, -, -, -, -, -, -, ⟨e0, e1⟩, -⟩ := index_maps t
  funext j
  obtain ⟨p, q, rfl⟩ : ∃ (p : Fin 400) (q : Fin 128), j = ix2 p q := ⟨j 0, j 1, eq_ix2 j⟩
  show k0_pay2 (iblk0 V c 0 t) (iblk0 V c 1 t) (iblk0 V c 4 t) (iblk0 V c 2 t) (iblk0 V c 3 t) (iblk0 V c 5 t) (ix2 p q) = (AdaGnn.layer1K (V c main_arg1) (V c main_v13) (V c main_arg0) (V c main_arg2) (V c main_v5) (V c main_v11)) (((cfg0.win 7).blk t).view.emb (ix2 p q))
  refine point_entry V c t p q _ ?_ ?_
  · show win0_7.index t (0 : Fin 2) * 400 + 1 * p.val = t.val * 400 + p.val; omega
  · show win0_7.index t (1 : Fin 2) * 128 + 1 * q.val = q.val; omega

/-- The short-format result is the same value: rounding to the short format is the identity on extended reals. -/
theorem flushed_h16 (c : Dev nD) (t : Fin cfg0.N) :
    (dat0 V c).flushed 8 t = ((cfg0.win 8).blk t).view.read (Elt Ideal) (AdaGnn.layer1K (V c main_arg1) (V c main_v13) (V c main_arg0) (V c main_arg2) (V c main_v5) (V c main_v11)) := by
  show (cfg0.win 8).cut (grid0.coords t) ((dat0 V c).after 8 t) = _
  rw [after0_8]
  unfold out0_8
  rw [View.canon_unit_zero zero_offsets]
  simp only [View.ld_unit_zero (S := S400x10000) zero_offsets, View.ld_unit_zero (S := S10000x128) zero_offsets, View.ld_unit_zero (S := S128x128) zero_offsets, View.ld_unit_zero (S := S400x128) zero_offsets, View.ld_unit_zero (S := S1x128) zero_offsets]
  obtain ⟨-, -, -, -, -, -, -, -, ⟨e0, e1⟩⟩ := index_maps t
  funext j
  obtain ⟨p, q, rfl⟩ : ∃ (p : Fin 400) (q : Fin 128), j = ix2 p q := ⟨j 0, j 1, eq_ix2 j⟩
  show k0_pay2 (iblk0 V c 0 t) (iblk0 V c 1 t) (iblk0 V c 4 t) (iblk0 V c 2 t) (iblk0 V c 3 t) (iblk0 V c 5 t) (ix2 p q) = (AdaGnn.layer1K (V c main_arg1) (V c main_v13) (V c main_arg0) (V c main_arg2) (V c main_v5) (V c main_v11)) (((cfg0.win 8).blk t).view.emb (ix2 p q))
  refine point_entry V c t p q _ ?_ ?_
  · show win0_8.index t (0 : Fin 2) * 400 + 1 * p.val = t.val * 400 + p.val; omega
  · show win0_8.index t (1 : Fin 2) * 128 + 1 * q.val = q.val; omega

/-- The short-format copy of L: point t writes back the rows of L it read. -/
theorem flushed_copy (c : Dev nD) (t : Fin cfg0.N) :
    (dat0 V c).flushed 6 t = ((cfg0.win 6).blk t).view.read (Elt Ideal) (V c main_arg1) := by
  show (cfg0.win 6).cut (grid0.coords t) ((dat0 V c).after 6 t) = _
  rw [after0_6]
  unfold out0_6
  rw [View.canon_unit_zero zero_offsets]
  simp only [View.ld_unit_zero (S := S400x10000) zero_offsets]
  obtain ⟨-, -, -, -, -, -, ⟨e0, e1⟩, -⟩ := index_maps t
  funext j
  show iblk0 V c 0 t j = V c main_arg1 (((cfg0.win 6).blk t).view.emb j)
  refine strip_L V c t j _ ?_ ?_
  · show win0_6.index t (0 : Fin 2) * 400 + 1 * (j 0).val = t.val * 400 + (j 0).val; omega
  · show win0_6.index t (1 : Fin 2) * 10000 + 1 * (j 1).val = (j 1).val; omega

/-- An index of the array is in point t's block iff each coordinate is in the block's range on its axis. -/
theorem mem_copy (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v14_0).slice (win0_6.rect t)).set ↔ _
  rw [View.set_slice_whole, Rect.mem_set_unit]
  exact Iff.rfl

/-- Row r of the array is in the block of point r / 400. -/
theorem cover_copy (i : S10000x10000.Idx) :
    ∃ t : Fin cfg0.N, (cfg0.win 6).flush t = true ∧ i ∈ ((cfg0.win 6).blk t).view.set := by
  have hi0 : (i 0).val < 10000 := (i 0).isLt
  have hi1 : (i 1).val < 10000 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  obtain ⟨-, -, -, -, -, -, ⟨e0, e1⟩, -, -⟩ := index_maps t
  refine ⟨t, flush0_6 t, ?_⟩
  rw [mem_copy]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 10000 ≤ (i 1).val ∧ (i 1).val < win0_6.index t (1 : Fin 2) * 10000 + 10000; omega

/-- An index of the array is in point t's block iff each coordinate is in the block's range on its axis. -/
theorem mem_h32 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v14_1).slice (win0_7.rect t)).set ↔ _
  rw [View.set_slice_whole, Rect.mem_set_unit]
  exact Iff.rfl

/-- Row r of the array is in the block of point r / 400. -/
theorem cover_h32 (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  obtain ⟨-, -, -, -, -, -, -, ⟨e0, e1⟩, -⟩ := index_maps t
  refine ⟨t, flush0_7 t, ?_⟩
  rw [mem_h32]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-- An index of the array is in point t's block iff each coordinate is in the block's range on its axis. -/
theorem mem_h16 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v14_2).slice (win0_8.rect t)).set ↔ _
  rw [View.set_slice_whole, Rect.mem_set_unit]
  exact Iff.rfl

/-- Row r of the array is in the block of point r / 400. -/
theorem cover_h16 (i : S10000x128.Idx) :
    ∃ t : Fin cfg0.N, (cfg0.win 8).flush t = true ∧ i ∈ ((cfg0.win 8).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, lt_of_lt_of_eq (by omega : (i 0).val / 400 < 25) N_0.symm⟩, rfl⟩
  obtain ⟨-, -, -, -, -, -, -, -, ⟨e0, e1⟩⟩ := index_maps t
  refine ⟨t, flush0_8 t, ?_⟩
  rw [mem_h16]
  intro a
  match a with
  | ⟨0, _⟩ => show win0_8.index t (0 : Fin 2) * 400 ≤ (i 0).val ∧ (i 0).val < win0_8.index t (0 : Fin 2) * 400 + 400; omega
  | ⟨1, _⟩ => show win0_8.index t (1 : Fin 2) * 128 ≤ (i 1).val ∧ (i 1).val < win0_8.index t (1 : Fin 2) * 128 + 128; omega

/-! ## The three results after the last point -/

/-- The short-format copy of L is L. -/
theorem arr_copy (c : Dev nD) : (dat0 V c).arrAt 6 cfg0.N = V c main_arg1 :=
  (dat0 V c).arrAt_eq_of_cover 6 (V c main_arg1) (fun t _ => flushed_copy V c t) cover_copy

/-- The full-precision result is the first layer of the arrays the region finds. -/
theorem arr_h32 (c : Dev nD) : (dat0 V c).arrAt 7 cfg0.N = AdaGnn.layer1K (V c main_arg1) (V c main_v13) (V c main_arg0) (V c main_arg2) (V c main_v5) (V c main_v11) :=
  (dat0 V c).arrAt_eq_of_cover 7 (AdaGnn.layer1K (V c main_arg1) (V c main_v13) (V c main_arg0) (V c main_arg2) (V c main_v5) (V c main_v11)) (fun t _ => flushed_h32 V c t) cover_h32

/-- So is the short-format result. -/
theorem arr_h16 (c : Dev nD) : (dat0 V c).arrAt 8 cfg0.N = AdaGnn.layer1K (V c main_arg1) (V c main_v13) (V c main_arg0) (V c main_arg2) (V c main_v5) (V c main_v11) :=
  (dat0 V c).arrAt_eq_of_cover 8 (AdaGnn.layer1K (V c main_arg1) (V c main_v13) (V c main_arg0) (V c main_arg2) (V c main_v5) (V c main_v11)) (fun t _ => flushed_h16 V c t) cover_h16

end Cert.KernelIdeal.Region0

end
-- ==== Proof.Region1.lean ====
/-
  The hidden layer's region, read as one function of the arrays it finds on entry.

  The region sweeps the 10000 rows in ten strips of 1000.  At strip t it holds rows 1000·t … 1000·t + 999 of the
  operator L (all 10000 columns), the whole previous layer ha (10000×128, the operand of the long product), the same
  rows of the previous layer's second copy hb, and the one-row diagonal dr.  It writes, for row p of the strip and
  column q,
      max (hb[p, q] − (∑ l, L[p, l] · ha[l, q]) · dr[0, q]) 0,
  to both outputs (the second output is the same value stored in a narrower format, which changes nothing on the
  extended reals).  Row 1000·t + p of the whole array therefore ends at `AdaGnn.hiddenK` there, and the ten strips
  cover every row.
-/
import proofs.«120691_g47665547051069_cont_8to1c4_396_9_alg».proof.Proof.Gen.KernelIdeal.Frame
import proofs.«120691_g47665547051069_cont_8to1c4_396_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.ShloMosaic.TcCoe
open Idealize.ShloMosaic.Pipeline (Dat)

/-! ## The strip's arithmetic at one entry -/

/-! The operand indices of the long product at output entry i and contraction index k: (i₀, k) on the left,
    (k, i₁) on the right. -/
theorem strip_matmul_lhs0 (i : S1000x128.Idx) (k : dot_S1000x10000_S10000x128_S1000x128_1_0_0_1_n_n.contr.Idx) : (dot_S1000x10000_S10000x128_S1000x128_1_0_0_1_n_n.lhsIdx i k 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem strip_matmul_lhs1 (i : S1000x128.Idx) (k : dot_S1000x10000_S10000x128_S1000x128_1_0_0_1_n_n.contr.Idx) : (dot_S1000x10000_S10000x128_S1000x128_1_0_0_1_n_n.lhsIdx i k 1).val = (k ⟨0, by decide⟩).val :=
  dot_S1000x10000_S10000x128_S1000x128_1_0_0_1_n_n.lhsIdx_val_of_single rfl i k
theorem strip_matmul_rhs0 (i : S1000x128.Idx) (k : dot_S1000x10000_S10000x128_S1000x128_1_0_0_1_n_n.contr.Idx) : (dot_S1000x10000_S10000x128_S1000x128_1_0_0_1_n_n.rhsIdx i k 0).val = (k ⟨0, by decide⟩).val :=
  dot_S1000x10000_S10000x128_S1000x128_1_0_0_1_n_n.rhsIdx_val_of_single rfl i k
theorem strip_matmul_rhs1 (i : S1000x128.Idx) (k : dot_S1000x10000_S10000x128_S1000x128_1_0_0_1_n_n.contr.Idx) : (dot_S1000x10000_S10000x128_S1000x128_1_0_0_1_n_n.rhsIdx i k 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

/-- One entry of a strip of the operator times the whole previous layer, accumulated from zero: the sum over the
    10000 columns of the strip. -/
theorem strip_matmul (x0 : FVec Ideal S1000x10000 .bf16) (x1 : FVec Ideal S10000x128 .bf16) (p : Fin 1000) (q : Fin 128) :
    matmul dot_S1000x10000_S10000x128_S1000x128_1_0_0_1_n_n none x0 x1 (constant (F := Ideal) S1000x128 .f32 0x00000000#32) (ix2 p q)
      = ∑ l : Fin 10000, x0 (ix2 p l) * x1 (ix2 l q) := by
  refine (Ideal.matmul_constant_zero_apply dot_S1000x10000_S10000x128_S1000x128_1_0_0_1_n_n none x0 x1 (ix2 p q)).trans ?_
  rw [← Equiv.sum_comp (contrEquiv1 dot_S1000x10000_S10000x128_S1000x128_1_0_0_1_n_n 10000 rfl rfl).symm]
  refine Finset.sum_congr rfl fun k _ => ?_
  have hk := contrEquiv1_symm_val dot_S1000x10000_S10000x128_S1000x128_1_0_0_1_n_n 10000 rfl rfl k
  have el : dot_S1000x10000_S10000x128_S1000x128_1_0_0_1_n_n.lhsIdx (ix2 p q) ((contrEquiv1 dot_S1000x10000_S10000x128_S1000x128_1_0_0_1_n_n 10000 rfl rfl).symm k) = ix2 p k :=
    funext fun a => Fin.ext (by
      match a with
      | ⟨0, _⟩ => exact strip_matmul_lhs0 _ _
      | ⟨1, _⟩ => exact (strip_matmul_lhs1 _ _).trans hk)
  have er : dot_S1000x10000_S10000x128_S1000x128_1_0_0_1_n_n.rhsIdx (ix2 p q) ((contrEquiv1 dot_S1000x10000_S10000x128_S1000x128_1_0_0_1_n_n 10000 rfl rfl).symm k) = ix2 k q :=
    funext fun a => Fin.ext (by
      match a with
      | ⟨0, _⟩ => exact (strip_matmul_rhs0 _ _).trans hk
      | ⟨1, _⟩ => exact strip_matmul_rhs1 _ _)
  rw [el, er]

/-- The hidden layer at (p, q) of a row strip: relu of the carried strip minus the strip of the operator times
    the whole previous layer, scaled by the diagonal's row. -/
theorem pay_hidden (x0 : Vec Ideal S1000x10000 .bf16) (x1 : Vec Ideal S10000x128 .bf16) (x2 : Vec Ideal S1000x128 .f32)
    (x3 : Vec Ideal S1x128 .f32) (p : Fin 1000) (q : Fin 128) :
    k1_pay1 x0 x1 x2 x3 (ix2 p q)
      = max (x2 (ix2 p q) - (∑ l : Fin 10000, x0 (ix2 p l) * x1 (ix2 l q)) * x3 (ix2 (0 : Fin 1) q)) AdaGnn.zero := by
  unfold k1_pay1
  simp only [shapeCast_self]
  show max (x2 (ix2 p q) - matmul dot_S1000x10000_S10000x128_S1000x128_1_0_0_1_n_n none x0 x1 (constant (F := Ideal) S1000x128 .f32 0x00000000#32) (ix2 p q)
      * broadcastTo S1000x128 x3 broadcasts_S1x128_S1000x128 (ix2 p q)) AdaGnn.zero = _
  rw [strip_matmul, broadcastTo_1b_ab_apply]

/-- The second output stores the same value in a narrower format: the same extended real. -/
theorem pay_hidden16 (x0 : Vec Ideal S1000x10000 .bf16) (x1 : Vec Ideal S10000x128 .bf16) (x2 : Vec Ideal S1000x128 .f32)
    (x3 : Vec Ideal S1x128 .f32) (p : Fin 1000) (q : Fin 128) :
    k1_pay2 x0 x1 x2 x3 (ix2 p q)
      = max (x2 (ix2 p q) - (∑ l : Fin 10000, x0 (ix2 p l) * x1 (ix2 l q)) * x3 (ix2 (0 : Fin 1) q)) AdaGnn.zero :=
  (show k1_pay2 x0 x1 x2 x3 (ix2 p q) = k1_pay1 x0 x1 x2 x3 (ix2 p q) from rfl).trans (pay_hidden x0 x1 x2 x3 p q)

/-! ## From the strips to the whole array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at strip t: the row-strip windows (the operator, the second copy, the two outputs)
    at block row t, block column 0; the whole-array windows at block (0, 0). -/
theorem idx_facts : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0
  ∧ win1_5.index t (0 : Fin 2) = t.val ∧ win1_5.index t (1 : Fin 2) = 0 :=
  (by decide +kernel : ∀ t : Fin grid1.N, _)

/-- The four blocks the region holds at strip t, at their literal types: the operator's strip, the whole previous
    layer, the second copy's strip, the diagonal's row. -/
abbrev blkL (c : Dev nD) (t : Fin cfg1.N) : Vec Ideal S1000x10000 .bf16 := iblk1 V c 0 t
abbrev blkA (c : Dev nD) (t : Fin cfg1.N) : Vec Ideal S10000x128 .bf16 := iblk1 V c 1 t
abbrev blkB (c : Dev nD) (t : Fin cfg1.N) : Vec Ideal S1000x128 .f32 := iblk1 V c 2 t
abbrev blkD (c : Dev nD) (t : Fin cfg1.N) : Vec Ideal S1x128 .f32 := iblk1 V c 3 t

/-- The strip's entry (p, q), written over the blocks the region holds at strip t, is the layer's entry at any index i
    of the whole array that names row 1000·t + p and column q: each block's entry is the array's entry at the block's
    offset plus the coordinate inside the block. -/
theorem strip_entry (c : Dev nD) (t : Fin cfg1.N) (p : Fin 1000) (q : Fin 128) (i : S10000x128.Idx)
    (hi0 : (i 0).val = t.val * 1000 + p.val) (hi1 : (i 1).val = q.val) :
    max (blkB V c t (ix2 p q) - (∑ l : Fin 10000, blkL V c t (ix2 p l) * blkA V c t (ix2 l q)) * blkD V c t (ix2 (0 : Fin 1) q)) AdaGnn.zero
      = AdaGnn.hiddenK (V c main_v14_0) (V c main_v14_2) (V c main_v14_1) (V c main_v17) i := by
  obtain ⟨e00, e01, e10, e11, e20, e21, e30, e31, -, -, -, -⟩ := idx_facts t
  unfold AdaGnn.hiddenK
  have h2 : blkB V c t (ix2 p q) = V c main_v14_1 i := by
    show V c main_v14_1 (((cfg1.win 2).blk t).view.emb (ix2 p q)) = _
    refine congrArg (V c main_v14_1) (funext fun a => Fin.ext ?_)
    match a with
    | ⟨0, _⟩ => show win1_2.index t (0 : Fin 2) * 1000 + 1 * p.val = (i 0).val; rw [e20, hi0]; omega
    | ⟨1, _⟩ => show win1_2.index t (1 : Fin 2) * 128 + 1 * q.val = (i 1).val; rw [e21, hi1]; omega
  have h0 : ∀ l : Fin 10000, blkL V c t (ix2 p l) = V c main_v14_0 (ix2 (i 0) l) := fun l => by
    show V c main_v14_0 (((cfg1.win 0).blk t).view.emb (ix2 p l)) = _
    refine congrArg (V c main_v14_0) (funext fun a => Fin.ext ?_)
    match a with
    | ⟨0, _⟩ => show win1_0.index t (0 : Fin 2) * 1000 + 1 * p.val = (i 0).val; rw [e00, hi0]; omega
    | ⟨1, _⟩ => show win1_0.index t (1 : Fin 2) * 10000 + 1 * l.val = l.val; rw [e01]; omega
  have h1 : ∀ l : Fin 10000, blkA V c t (ix2 l q) = V c main_v14_2 (ix2 l (i 1)) := fun l => by
    show V c main_v14_2 (((cfg1.win 1).blk t).view.emb (ix2 l q)) = _
    refine congrArg (V c main_v14_2) (funext fun a => Fin.ext ?_)
    match a with
    | ⟨0, _⟩ => show win1_1.index t (0 : Fin 2) * 10000 + 1 * l.val = l.val; rw [e10]; omega
    | ⟨1, _⟩ => show win1_1.index t (1 : Fin 2) * 128 + 1 * q.val = (i 1).val; rw [e11, hi1]; omega
  have h3 : blkD V c t (ix2 (0 : Fin 1) q) = V c main_v17 (ix2 (0 : Fin 1) (i 1)) := by
    show V c main_v17 (((cfg1.win 3).blk t).view.emb (ix2 (0 : Fin 1) q)) = _
    refine congrArg (V c main_v17) (funext fun a => Fin.ext ?_)
    match a with
    | ⟨0, _⟩ => show win1_3.index t (0 : Fin 2) * 1 + 1 * 0 = 0; rw [e30]
    | ⟨1, _⟩ => show win1_3.index t (1 : Fin 2) * 128 + 1 * q.val = (i 1).val; rw [e31, hi1]; omega
  rw [h2, h3]
  simp only [h0, h1]

/-- What strip t writes back to the first output is block t of the layer. -/
theorem flushed_h32 (c : Dev nD) (t : Fin cfg1.N) :
    (dat1 V c).flushed 4 t = ((cfg1.win 4).blk t).view.read (Elt Ideal)
      (AdaGnn.hiddenK (V c main_v14_0) (V c main_v14_2) (V c main_v14_1) (V c main_v17)) := by
  show (cfg1.win 4).cut (grid1.coords t) ((dat1 V c).after 4 t) = _
  rw [after1_4]
  unfold out1_4
  rw [View.canon_unit_zero hz]
  simp only [View.ld_unit_zero (S := S1000x10000) hz, View.ld_unit_zero (S := S10000x128) hz, View.ld_unit_zero (S := S1000x128) hz, View.ld_unit_zero (S := S1x128) hz]
  funext j
  obtain ⟨p, q, rfl⟩ : ∃ (p : Fin 1000) (q : Fin 128), j = ix2 p q := ⟨j 0, j 1, eq_ix2 j⟩
  obtain ⟨-, -, -, -, -, -, -, -, e40, e41, -, -⟩ := idx_facts t
  show k1_pay1 (iblk1 V c 0 t) (iblk1 V c 1 t) (iblk1 V c 2 t) (iblk1 V c 3 t) (ix2 p q)
      = AdaGnn.hiddenK (V c main_v14_0) (V c main_v14_2) (V c main_v14_1) (V c main_v17) (((cfg1.win 4).blk t).view.emb (ix2 p q))
  refine (pay_hidden _ _ _ _ p q).trans ?_
  refine strip_entry V c t p q _ ?_ ?_
  · show win1_4.index t (0 : Fin 2) * 1000 + 1 * p.val = _; rw [e40]; omega
  · show win1_4.index t (1 : Fin 2) * 128 + 1 * q.val = _; rw [e41]; omega

/-- What strip t writes back to the second output is block t of the same layer. -/
theorem flushed_h16 (c : Dev nD) (t : Fin cfg1.N) :
    (dat1 V c).flushed 5 t = ((cfg1.win 5).blk t).view.read (Elt Ideal)
      (AdaGnn.hiddenK (V c main_v14_0) (V c main_v14_2) (V c main_v14_1) (V c main_v17)) := by
  show (cfg1.win 5).cut (grid1.coords t) ((dat1 V c).after 5 t) = _
  rw [after1_5]
  unfold out1_5
  rw [View.canon_unit_zero hz]
  simp only [View.ld_unit_zero (S := S1000x10000) hz, View.ld_unit_zero (S := S10000x128) hz, View.ld_unit_zero (S := S1000x128) hz, View.ld_unit_zero (S := S1x128) hz]
  funext j
  obtain ⟨p, q, rfl⟩ : ∃ (p : Fin 1000) (q : Fin 128), j = ix2 p q := ⟨j 0, j 1, eq_ix2 j⟩
  obtain ⟨-, -, -, -, -, -, -, -, -, -, e50, e51⟩ := idx_facts t
  show k1_pay2 (iblk1 V c 0 t) (iblk1 V c 1 t) (iblk1 V c 2 t) (iblk1 V c 3 t) (ix2 p q)
      = AdaGnn.hiddenK (V c main_v14_0) (V c main_v14_2) (V c main_v14_1) (V c main_v17) (((cfg1.win 5).blk t).view.emb (ix2 p q))
  refine (pay_hidden16 _ _ _ _ p q).trans ?_
  refine strip_entry V c t p q _ ?_ ?_
  · show win1_5.index t (0 : Fin 2) * 1000 + 1 * p.val = _; rw [e50]; omega
  · show win1_5.index t (1 : Fin 2) * 128 + 1 * q.val = _; rw [e51]; omega

/-- An index of the first output is in strip t's block iff each coordinate is in the block's range on its axis. -/
theorem mem_blk_h32 (t : Fin cfg1.N) (i : S10000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v18_0).slice (win1_4.rect t)).set ↔ _
  rw [View.set_slice_whole, Rect.mem_set_unit]
  exact Iff.rfl

/-- The same for the second output. -/
theorem mem_blk_h16 (t : Fin cfg1.N) (i : S10000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v18_1).slice (win1_5.rect t)).set ↔ _
  rw [View.set_slice_whole, Rect.mem_set_unit]
  exact Iff.rfl

/-- Row r lies in strip r / 1000: the ten strips cover the first output. -/
theorem cover_h32 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : grid1.N = 10 := N_1
  obtain ⟨t, ht⟩ : ∃ t : Fin cfg1.N, t.val = (i 0).val / 1000 := ⟨⟨(i 0).val / 1000, by show _ < grid1.N; omega⟩, rfl⟩
  obtain ⟨-, -, -, -, -, -, -, -, e40, e41, -, -⟩ := idx_facts t
  refine ⟨t, flush1_4 t, ?_⟩
  rw [mem_blk_h32]
  intro a
  match a with
  | ⟨0, _⟩ => show win1_4.index t (0 : Fin 2) * 1000 ≤ (i 0).val ∧ (i 0).val < win1_4.index t (0 : Fin 2) * 1000 + 1000; rw [e40, ht]; omega
  | ⟨1, _⟩ => show win1_4.index t (1 : Fin 2) * 128 ≤ (i 1).val ∧ (i 1).val < win1_4.index t (1 : Fin 2) * 128 + 128; rw [e41]; omega

/-- And the second. -/
theorem cover_h16 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hN : grid1.N = 10 := N_1
  obtain ⟨t, ht⟩ : ∃ t : Fin cfg1.N, t.val = (i 0).val / 1000 := ⟨⟨(i 0).val / 1000, by show _ < grid1.N; omega⟩, rfl⟩
  obtain ⟨-, -, -, -, -, -, -, -, -, -, e50, e51⟩ := idx_facts t
  refine ⟨t, flush1_5 t, ?_⟩
  rw [mem_blk_h16]
  intro a
  match a with
  | ⟨0, _⟩ => show win1_5.index t (0 : Fin 2) * 1000 ≤ (i 0).val ∧ (i 0).val < win1_5.index t (0 : Fin 2) * 1000 + 1000; rw [e50, ht]; omega
  | ⟨1, _⟩ => show win1_5.index t (1 : Fin 2) * 128 ≤ (i 1).val ∧ (i 1).val < win1_5.index t (1 : Fin 2) * 128 + 128; rw [e51]; omega

/-- After the last strip the first output holds the hidden layer of the arrays the region found on entry. -/
theorem arr_h32 (c : Dev nD) :
    (dat1 V c).arrAt 4 cfg1.N = AdaGnn.hiddenK (V c main_v14_0) (V c main_v14_2) (V c main_v14_1) (V c main_v17) :=
  (dat1 V c).arrAt_eq_of_cover 4 (AdaGnn.hiddenK (V c main_v14_0) (V c main_v14_2) (V c main_v14_1) (V c main_v17))
    (fun t _ => flushed_h32 V c t) cover_h32

/-- And so does the second. -/
theorem arr_h16 (c : Dev nD) :
    (dat1 V c).arrAt 5 cfg1.N = AdaGnn.hiddenK (V c main_v14_0) (V c main_v14_2) (V c main_v14_1) (V c main_v17) :=
  (dat1 V c).arrAt_eq_of_cover 5 (AdaGnn.hiddenK (V c main_v14_0) (V c main_v14_2) (V c main_v14_1) (V c main_v17))
    (fun t _ => flushed_h16 V c t) cover_h16

end Cert.KernelIdeal.Region1

end
-- ==== Proof.Region2.lean ====
/-
  The last hidden layer's region, fused with the two projections the final layer needs, read as functions of the
  arrays it finds on entry.

  The region sweeps the 10000 rows in ten strips of 1000.  At strip t it holds rows 1000·t … 1000·t + 999 of the
  operator L, the whole previous layer ha, the same rows of its second copy hb, the one-row diagonal dr, and the two
  128×64 weight matrices W (unscaled) and Ws (rows scaled) with the one-row bias b.  It first forms the strip of the hidden
  layer,
      h[p, k] = max (hb[p, k] − (∑ l, L[p, l] · ha[l, k]) · dr[0, k]) 0,
  and writes  u[p, r] = ∑ k, h[p, k] · Ws[k, r]  to the first output and  v[p, r] = ∑ k, h[p, k] · W[k, r] + b[0, r]  to
  the second.  Row 1000·t + p of the two whole arrays therefore ends at `AdaGnn.projU` and `AdaGnn.projV` of
  `AdaGnn.hiddenK`, and the ten strips cover every row.
-/
import proofs.«120691_g47665547051069_cont_8to1c4_396_9_alg».proof.Proof.Gen.KernelIdeal.Frame
import proofs.«120691_g47665547051069_cont_8to1c4_396_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.ValueIdx Idealize.ShloMosaic.TcCoe
open Idealize.ShloMosaic.Pipeline (Dat)

/-! ## The strip's arithmetic at one entry -/

/-! The operand indices of the two products at output entry i and contraction index k: (i₀, k) on the left,
    (k, i₁) on the right. -/
theorem strip_matmul_lhs0 (i : S1000x128.Idx) (k : dot_S1000x10000_S10000x128_S1000x128_1_0_0_1_n_n.contr.Idx) : (dot_S1000x10000_S10000x128_S1000x128_1_0_0_1_n_n.lhsIdx i k 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem strip_matmul_lhs1 (i : S1000x128.Idx) (k : dot_S1000x10000_S10000x128_S1000x128_1_0_0_1_n_n.contr.Idx) : (dot_S1000x10000_S10000x128_S1000x128_1_0_0_1_n_n.lhsIdx i k 1).val = (k ⟨0, by decide⟩).val :=
  dot_S1000x10000_S10000x128_S1000x128_1_0_0_1_n_n.lhsIdx_val_of_single rfl i k
theorem strip_matmul_rhs0 (i : S1000x128.Idx) (k : dot_S1000x10000_S10000x128_S1000x128_1_0_0_1_n_n.contr.Idx) : (dot_S1000x10000_S10000x128_S1000x128_1_0_0_1_n_n.rhsIdx i k 0).val = (k ⟨0, by decide⟩).val :=
  dot_S1000x10000_S10000x128_S1000x128_1_0_0_1_n_n.rhsIdx_val_of_single rfl i k
theorem strip_matmul_rhs1 (i : S1000x128.Idx) (k : dot_S1000x10000_S10000x128_S1000x128_1_0_0_1_n_n.contr.Idx) : (dot_S1000x10000_S10000x128_S1000x128_1_0_0_1_n_n.rhsIdx i k 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl
theorem proj_matmul_lhs0 (i : S1000x64.Idx) (k : dot_S1000x128_S128x64_S1000x64_1_0_0_1_n_n.contr.Idx) : (dot_S1000x128_S128x64_S1000x64_1_0_0_1_n_n.lhsIdx i k 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem proj_matmul_lhs1 (i : S1000x64.Idx) (k : dot_S1000x128_S128x64_S1000x64_1_0_0_1_n_n.contr.Idx) : (dot_S1000x128_S128x64_S1000x64_1_0_0_1_n_n.lhsIdx i k 1).val = (k ⟨0, by decide⟩).val :=
  dot_S1000x128_S128x64_S1000x64_1_0_0_1_n_n.lhsIdx_val_of_single rfl i k
theorem proj_matmul_rhs0 (i : S1000x64.Idx) (k : dot_S1000x128_S128x64_S1000x64_1_0_0_1_n_n.contr.Idx) : (dot_S1000x128_S128x64_S1000x64_1_0_0_1_n_n.rhsIdx i k 0).val = (k ⟨0, by decide⟩).val :=
  dot_S1000x128_S128x64_S1000x64_1_0_0_1_n_n.rhsIdx_val_of_single rfl i k
theorem proj_matmul_rhs1 (i : S1000x64.Idx) (k : dot_S1000x128_S128x64_S1000x64_1_0_0_1_n_n.contr.Idx) : (dot_S1000x128_S128x64_S1000x64_1_0_0_1_n_n.rhsIdx i k 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- One entry of a strip of the operator times the whole previous layer, accumulated from zero: the sum over the
    10000 columns of the strip. -/
theorem strip_matmul (x0 : FVec Ideal S1000x10000 .bf16) (x1 : FVec Ideal S10000x128 .bf16) (p : Fin 1000) (q : Fin 128) :
    matmul dot_S1000x10000_S10000x128_S1000x128_1_0_0_1_n_n none x0 x1 (constant (F := Ideal) S1000x128 .f32 0x00000000#32) (ix2 p q)
      = ∑ l : Fin 10000, x0 (ix2 p l) * x1 (ix2 l q) := by
  refine (Ideal.matmul_constant_zero_apply dot_S1000x10000_S10000x128_S1000x128_1_0_0_1_n_n none x0 x1 (ix2 p q)).trans ?_
  rw [← Equiv.sum_comp (contrEquiv1 dot_S1000x10000_S10000x128_S1000x128_1_0_0_1_n_n 10000 rfl rfl).symm]
  refine Finset.sum_congr rfl fun k _ => ?_
  have hk := contrEquiv1_symm_val dot_S1000x10000_S10000x128_S1000x128_1_0_0_1_n_n 10000 rfl rfl k
  have el : dot_S1000x10000_S10000x128_S1000x128_1_0_0_1_n_n.lhsIdx (ix2 p q) ((contrEquiv1 dot_S1000x10000_S10000x128_S1000x128_1_0_0_1_n_n 10000 rfl rfl).symm k) = ix2 p k :=
    funext fun a => Fin.ext (by
      match a with
      | ⟨0, _⟩ => exact strip_matmul_lhs0 _ _
      | ⟨1, _⟩ => exact (strip_matmul_lhs1 _ _).trans hk)
  have er : dot_S1000x10000_S10000x128_S1000x128_1_0_0_1_n_n.rhsIdx (ix2 p q) ((contrEquiv1 dot_S1000x10000_S10000x128_S1000x128_1_0_0_1_n_n 10000 rfl rfl).symm k) = ix2 k q :=
    funext fun a => Fin.ext (by
      match a with
      | ⟨0, _⟩ => exact (strip_matmul_rhs0 _ _).trans hk
      | ⟨1, _⟩ => exact strip_matmul_rhs1 _ _)
  rw [el, er]

/-- One entry of a 1000×128 strip times a 128×64 weight matrix, accumulated from zero: the sum over the 128 hidden
    columns. -/
theorem proj_matmul (x0 : FVec Ideal S1000x128 .f32) (x1 : FVec Ideal S128x64 .f32) (p : Fin 1000) (q : Fin 64) :
    matmul dot_S1000x128_S128x64_S1000x64_1_0_0_1_n_n none x0 x1 (constant (F := Ideal) S1000x64 .f32 0x00000000#32) (ix2 p q)
      = ∑ l : Fin 128, x0 (ix2 p l) * x1 (ix2 l q) := by
  refine (Ideal.matmul_constant_zero_apply dot_S1000x128_S128x64_S1000x64_1_0_0_1_n_n none x0 x1 (ix2 p q)).trans ?_
  rw [← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q) ((contrEquiv1 dot_S1000x128_S128x64_S1000x64_1_0_0_1_n_n 128 rfl rfl).symm k) = ix2 p k :=
    funext fun a => Fin.ext (by
      match a with
      | ⟨0, _⟩ => exact proj_matmul_lhs0 _ _
      | ⟨1, _⟩ => exact (proj_matmul_lhs1 _ _).trans hk)
  have er : dot_S1000x128_S128x64_S1000x64_1_0_0_1_n_n.rhsIdx (ix2 p q) ((contrEquiv1 dot_S1000x128_S128x64_S1000x64_1_0_0_1_n_n 128 rfl rfl).symm k) = ix2 k q :=
    funext fun a => Fin.ext (by
      match a with
      | ⟨0, _⟩ => exact (proj_matmul_rhs0 _ _).trans hk
      | ⟨1, _⟩ => exact proj_matmul_rhs1 _ _)
  rw [el, er]

/-- The hidden layer at (p, q) of a row strip: relu of the carried strip minus the strip of the operator times
    the whole previous layer, scaled by the diagonal's row. -/
theorem pay_hidden (x0 : Vec Ideal S1000x10000 .bf16) (x1 : Vec Ideal S10000x128 .bf16) (x2 : Vec Ideal S1000x128 .f32)
    (x3 : Vec Ideal S1x128 .f32) (p : Fin 1000) (q : Fin 128) :
    k2_pay1 x0 x1 x2 x3 (ix2 p q)
      = max (x2 (ix2 p q) - (∑ l : Fin 10000, x0 (ix2 p l) * x1 (ix2 l q)) * x3 (ix2 (0 : Fin 1) q)) AdaGnn.zero := by
  unfold k2_pay1
  simp only [shapeCast_self]
  show max (x2 (ix2 p q) - matmul dot_S1000x10000_S10000x128_S1000x128_1_0_0_1_n_n none x0 x1 (constant (F := Ideal) S1000x128 .f32 0x00000000#32) (ix2 p q)
      * broadcastTo S1000x128 x3 broadcasts_S1x128_S1000x128 (ix2 p q)) AdaGnn.zero = _
  rw [strip_matmul, broadcastTo_1b_ab_apply]

/-- The first output at (p, r): the hidden strip's row p against column r of the scaled weights (stored in a narrower
    format, the same extended real). -/
theorem pay_u (x0 : Vec Ideal S1000x10000 .bf16) (x1 : Vec Ideal S10000x128 .bf16) (x2 : Vec Ideal S1000x128 .f32)
    (x3 : Vec Ideal S1x128 .f32) (x5 : Vec Ideal S128x64 .f32) (p : Fin 1000) (r : Fin 64) :
    k2_pay2 x0 x1 x2 x3 x5 (ix2 p r)
      = ∑ k : Fin 128, max (x2 (ix2 p k) - (∑ l : Fin 10000, x0 (ix2 p l) * x1 (ix2 l k)) * x3 (ix2 (0 : Fin 1) k)) AdaGnn.zero * x5 (ix2 k r) := by
  unfold k2_pay2
  simp only [shapeCast_self]
  show matmul (φ₁ := .f32) (φ₂ := .f32) dot_S1000x128_S128x64_S1000x64_1_0_0_1_n_n none (k2_pay1 x0 x1 x2 x3) x5 (constant (F := Ideal) S1000x64 .f32 0x00000000#32) (ix2 p r) = _
  rw [proj_matmul]
  exact Finset.sum_congr rfl fun k _ => by rw [pay_hidden]

/-- The second output at (p, r): the hidden strip's row p against column r of the weights, plus the bias. -/
theorem pay_v (x0 : Vec Ideal S1000x10000 .bf16) (x1 : Vec Ideal S10000x128 .bf16) (x2 : Vec Ideal S1000x128 .f32)
    (x3 : Vec Ideal S1x128 .f32) (x4 : Vec Ideal S128x64 .f32) (x6 : Vec Ideal S1x64 .f32) (p : Fin 1000) (r : Fin 64) :
    k2_pay3 x0 x1 x2 x3 x4 x6 (ix2 p r)
      = (∑ k : Fin 128, max (x2 (ix2 p k) - (∑ l : Fin 10000, x0 (ix2 p l) * x1 (ix2 l k)) * x3 (ix2 (0 : Fin 1) k)) AdaGnn.zero * x4 (ix2 k r)) + x6 (ix2 (0 : Fin 1) r) := by
  unfold k2_pay3
  simp only [shapeCast_self]
  show matmul (φ₁ := .f32) (φ₂ := .f32) dot_S1000x128_S128x64_S1000x64_1_0_0_1_n_n none (k2_pay1 x0 x1 x2 x3) x4 (constant (F := Ideal) S1000x64 .f32 0x00000000#32) (ix2 p r)
      + broadcastTo S1000x64 x6 broadcasts_S1x64_S1000x64 (ix2 p r) = _
  rw [proj_matmul, broadcastTo_1b_ab_apply]
  exact congrArg (· + x6 (ix2 (0 : Fin 1) r)) (Finset.sum_congr rfl fun k _ => by rw [pay_hidden])

/-! ## From the strips to the whole arrays -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at strip t: the row-strip windows (the operator, the second copy, the two outputs)
    at block row t, block column 0; the whole-array windows at block (0, 0). -/
theorem idx_facts : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = t.val ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = 0 ∧ win2_5.index t (1 : Fin 2) = 0
  ∧ win2_6.index t (0 : Fin 2) = 0 ∧ win2_6.index t (1 : Fin 2) = 0
  ∧ win2_7.index t (0 : Fin 2) = t.val ∧ win2_7.index t (1 : Fin 2) = 0
  ∧ win2_8.index t (0 : Fin 2) = t.val ∧ win2_8.index t (1 : Fin 2) = 0 :=
  (by decide +kernel : ∀ t : Fin grid2.N, _)

/-- The seven blocks the region holds at strip t, at their literal types: the operator's strip, the whole previous
    layer, the second copy's strip, the diagonal's row, the weights, the scaled weights, the bias's row. -/
abbrev blkL (c : Dev nD) (t : Fin cfg2.N) : Vec Ideal S1000x10000 .bf16 := iblk2 V c 0 t
abbrev blkA (c : Dev nD) (t : Fin cfg2.N) : Vec Ideal S10000x128 .bf16 := iblk2 V c 1 t
abbrev blkB (c : Dev nD) (t : Fin cfg2.N) : Vec Ideal S1000x128 .f32 := iblk2 V c 2 t
abbrev blkD (c : Dev nD) (t : Fin cfg2.N) : Vec Ideal S1x128 .f32 := iblk2 V c 3 t
abbrev blkW (c : Dev nD) (t : Fin cfg2.N) : Vec Ideal S128x64 .f32 := iblk2 V c 4 t
abbrev blkWs (c : Dev nD) (t : Fin cfg2.N) : Vec Ideal S128x64 .f32 := iblk2 V c 5 t
abbrev blkBias (c : Dev nD) (t : Fin cfg2.N) : Vec Ideal S1x64 .f32 := iblk2 V c 6 t

/-- The hidden strip's entry (p, k), written over the blocks the region holds at strip t, is the hidden layer's entry at
    any index i of the whole 10000×128 array that names row 1000·t + p and column k: each block's entry is the array's
    entry at the block's offset plus the coordinate inside the block. -/
theorem strip_hidden (c : Dev nD) (t : Fin cfg2.N) (p : Fin 1000) (k : Fin 128) (i : S10000x128.Idx)
    (hi0 : (i 0).val = t.val * 1000 + p.val) (hi1 : (i 1).val = k.val) :
    max (blkB V c t (ix2 p k) - (∑ l : Fin 10000, blkL V c t (ix2 p l) * blkA V c t (ix2 l k)) * blkD V c t (ix2 (0 : Fin 1) k)) AdaGnn.zero
      = AdaGnn.hiddenK (V c main_v14_0) (V c main_v18_1) (V c main_v18_0) (V c main_v21) i := by
  obtain ⟨e00, e01, e10, e11, e20, e21, e30, e31, -⟩ := idx_facts t
  unfold AdaGnn.hiddenK
  have h2 : blkB V c t (ix2 p k) = V c main_v18_0 i := by
    show V c main_v18_0 (((cfg2.win 2).blk t).view.emb (ix2 p k)) = _
    refine congrArg (V c main_v18_0) (funext fun a => Fin.ext ?_)
    match a with
    | ⟨0, _⟩ => show win2_2.index t (0 : Fin 2) * 1000 + 1 * p.val = (i 0).val; rw [e20, hi0]; omega
    | ⟨1, _⟩ => show win2_2.index t (1 : Fin 2) * 128 + 1 * k.val = (i 1).val; rw [e21, hi1]; omega
  have h0 : ∀ l : Fin 10000, blkL V c t (ix2 p l) = V c main_v14_0 (ix2 (i 0) l) := fun l => by
    show V c main_v14_0 (((cfg2.win 0).blk t).view.emb (ix2 p l)) = _
    refine congrArg (V c main_v14_0) (funext fun a => Fin.ext ?_)
    match a with
    | ⟨0, _⟩ => show win2_0.index t (0 : Fin 2) * 1000 + 1 * p.val = (i 0).val; rw [e00, hi0]; omega
    | ⟨1, _⟩ => show win2_0.index t (1 : Fin 2) * 10000 + 1 * l.val = l.val; rw [e01]; omega
  have h1 : ∀ l : Fin 10000, blkA V c t (ix2 l k) = V c main_v18_1 (ix2 l (i 1)) := fun l => by
    show V c main_v18_1 (((cfg2.win 1).blk t).view.emb (ix2 l k)) = _
    refine congrArg (V c main_v18_1) (funext fun a => Fin.ext ?_)
    match a with
    | ⟨0, _⟩ => show win2_1.index t (0 : Fin 2) * 10000 + 1 * l.val = l.val; rw [e10]; omega
    | ⟨1, _⟩ => show win2_1.index t (1 : Fin 2) * 128 + 1 * k.val = (i 1).val; rw [e11, hi1]; omega
  have h3 : blkD V c t (ix2 (0 : Fin 1) k) = V c main_v21 (ix2 (0 : Fin 1) (i 1)) := by
    show V c main_v21 (((cfg2.win 3).blk t).view.emb (ix2 (0 : Fin 1) k)) = _
    refine congrArg (V c main_v21) (funext fun a => Fin.ext ?_)
    match a with
    | ⟨0, _⟩ => show win2_3.index t (0 : Fin 2) * 1 + 1 * 0 = 0; rw [e30]
    | ⟨1, _⟩ => show win2_3.index t (1 : Fin 2) * 128 + 1 * k.val = (i 1).val; rw [e31, hi1]; omega
  rw [h2, h3]
  simp only [h0, h1]

/-- The first output's strip entry (p, r) over the blocks is the projection of the hidden layer against the scaled
    weights at any index i of the whole 10000×64 array that names row 1000·t + p and column r. -/
theorem strip_u (c : Dev nD) (t : Fin cfg2.N) (p : Fin 1000) (r : Fin 64) (i : S10000x64.Idx)
    (hi0 : (i 0).val = t.val * 1000 + p.val) (hi1 : (i 1).val = r.val) :
    (∑ k : Fin 128, max (blkB V c t (ix2 p k) - (∑ l : Fin 10000, blkL V c t (ix2 p l) * blkA V c t (ix2 l k)) * blkD V c t (ix2 (0 : Fin 1) k)) AdaGnn.zero * blkWs V c t (ix2 k r))
      = AdaGnn.projU (AdaGnn.hiddenK (V c main_v14_0) (V c main_v18_1) (V c main_v18_0) (V c main_v21)) (V c main_v10) i := by
  obtain ⟨-, -, -, -, -, -, -, -, -, -, e50, e51, -⟩ := idx_facts t
  unfold AdaGnn.projU
  refine Finset.sum_congr rfl fun k _ => ?_
  have hw : blkWs V c t (ix2 k r) = V c main_v10 (ix2 k (i 1)) := by
    show V c main_v10 (((cfg2.win 5).blk t).view.emb (ix2 k r)) = _
    refine congrArg (V c main_v10) (funext fun a => Fin.ext ?_)
    match a with
    | ⟨0, _⟩ => show win2_5.index t (0 : Fin 2) * 128 + 1 * k.val = k.val; rw [e50]; omega
    | ⟨1, _⟩ => show win2_5.index t (1 : Fin 2) * 64 + 1 * r.val = (i 1).val; rw [e51, hi1]; omega
  rw [hw, strip_hidden V c t p k (ix2 (i 0) k) hi0 rfl]

/-- The second output's strip entry (p, r) over the blocks is the projection of the hidden layer against the weights,
    plus the bias, at any index i of the whole 10000×64 array that names row 1000·t + p and column r. -/
theorem strip_v (c : Dev nD) (t : Fin cfg2.N) (p : Fin 1000) (r : Fin 64) (i : S10000x64.Idx)
    (hi0 : (i 0).val = t.val * 1000 + p.val) (hi1 : (i 1).val = r.val) :
    (∑ k : Fin 128, max (blkB V c t (ix2 p k) - (∑ l : Fin 10000, blkL V c t (ix2 p l) * blkA V c t (ix2 l k)) * blkD V c t (ix2 (0 : Fin 1) k)) AdaGnn.zero * blkW V c t (ix2 k r)) + blkBias V c t (ix2 (0 : Fin 1) r)
      = AdaGnn.projV (AdaGnn.hiddenK (V c main_v14_0) (V c main_v18_1) (V c main_v18_0) (V c main_v21)) (V c main_arg6) (V c main_v12) i := by
  obtain ⟨-, -, -, -, -, -, -, -, e40, e41, -, -, e60, e61, -⟩ := idx_facts t
  unfold AdaGnn.projV
  have hb : blkBias V c t (ix2 (0 : Fin 1) r) = V c main_v12 (ix2 (0 : Fin 1) (i 1)) := by
    show V c main_v12 (((cfg2.win 6).blk t).view.emb (ix2 (0 : Fin 1) r)) = _
    refine congrArg (V c main_v12) (funext fun a => Fin.ext ?_)
    match a with
    | ⟨0, _⟩ => show win2_6.index t (0 : Fin 2) * 1 + 1 * 0 = 0; rw [e60]
    | ⟨1, _⟩ => show win2_6.index t (1 : Fin 2) * 64 + 1 * r.val = (i 1).val; rw [e61, hi1]; omega
  rw [hb]
  refine congrArg (· + V c main_v12 (ix2 (0 : Fin 1) (i 1))) (Finset.sum_congr rfl fun k _ => ?_)
  have hw : blkW V c t (ix2 k r) = V c main_arg6 (ix2 k (i 1)) := by
    show V c main_arg6 (((cfg2.win 4).blk t).view.emb (ix2 k r)) = _
    refine congrArg (V c main_arg6) (funext fun a => Fin.ext ?_)
    match a with
    | ⟨0, _⟩ => show win2_4.index t (0 : Fin 2) * 128 + 1 * k.val = k.val; rw [e40]; omega
    | ⟨1, _⟩ => show win2_4.index t (1 : Fin 2) * 64 + 1 * r.val = (i 1).val; rw [e41, hi1]; omega
  rw [hw, strip_hidden V c t p k (ix2 (i 0) k) hi0 rfl]

/-- What strip t writes back to the first output is block t of the scaled projection. -/
theorem flushed_u (c : Dev nD) (t : Fin cfg2.N) :
    (dat2 V c).flushed 7 t = ((cfg2.win 7).blk t).view.read (Elt Ideal)
      (AdaGnn.projU (AdaGnn.hiddenK (V c main_v14_0) (V c main_v18_1) (V c main_v18_0) (V c main_v21)) (V c main_v10)) := by
  show (cfg2.win 7).cut (grid2.coords t) ((dat2 V c).after 7 t) = _
  rw [after2_7]
  unfold out2_7
  rw [View.canon_unit_zero hz]
  simp only [View.ld_unit_zero (S := S1000x10000) hz, View.ld_unit_zero (S := S10000x128) hz, View.ld_unit_zero (S := S1000x128) hz, View.ld_unit_zero (S := S1x128) hz, View.ld_unit_zero (S := S128x64) hz, View.ld_unit_zero (S := S1x64) hz]
  funext j
  obtain ⟨p, r, rfl⟩ : ∃ (p : Fin 1000) (r : Fin 64), j = ix2 p r := ⟨j 0, j 1, eq_ix2 j⟩
  obtain ⟨-, -, -, -, -, -, -, -, -, -, -, -, -, -, e70, e71, -⟩ := idx_facts t
  show k2_pay2 (iblk2 V c 0 t) (iblk2 V c 1 t) (iblk2 V c 2 t) (iblk2 V c 3 t) (iblk2 V c 5 t) (ix2 p r)
      = AdaGnn.projU (AdaGnn.hiddenK (V c main_v14_0) (V c main_v18_1) (V c main_v18_0) (V c main_v21)) (V c main_v10) (((cfg2.win 7).blk t).view.emb (ix2 p r))
  refine (pay_u _ _ _ _ _ p r).trans ?_
  refine strip_u V c t p r _ ?_ ?_
  · show win2_7.index t (0 : Fin 2) * 1000 + 1 * p.val = _; rw [e70]; omega
  · show win2_7.index t (1 : Fin 2) * 64 + 1 * r.val = _; rw [e71]; omega

/-- What strip t writes back to the second output is block t of the projection plus bias. -/
theorem flushed_v (c : Dev nD) (t : Fin cfg2.N) :
    (dat2 V c).flushed 8 t = ((cfg2.win 8).blk t).view.read (Elt Ideal)
      (AdaGnn.projV (AdaGnn.hiddenK (V c main_v14_0) (V c main_v18_1) (V c main_v18_0) (V c main_v21)) (V c main_arg6) (V c main_v12)) := by
  show (cfg2.win 8).cut (grid2.coords t) ((dat2 V c).after 8 t) = _
  rw [after2_8]
  unfold out2_8
  rw [View.canon_unit_zero hz]
  simp only [View.ld_unit_zero (S := S1000x10000) hz, View.ld_unit_zero (S := S10000x128) hz, View.ld_unit_zero (S := S1000x128) hz, View.ld_unit_zero (S := S1x128) hz, View.ld_unit_zero (S := S128x64) hz, View.ld_unit_zero (S := S1x64) hz]
  funext j
  obtain ⟨p, r, rfl⟩ : ∃ (p : Fin 1000) (r : Fin 64), j = ix2 p r := ⟨j 0, j 1, eq_ix2 j⟩
  obtain ⟨-, -, -, -, -, -, -, -, -, -, -, -, -, -, -, -, e80, e81⟩ := idx_facts t
  show k2_pay3 (iblk2 V c 0 t) (iblk2 V c 1 t) (iblk2 V c 2 t) (iblk2 V c 3 t) (iblk2 V c 4 t) (iblk2 V c 6 t) (ix2 p r)
      = AdaGnn.projV (AdaGnn.hiddenK (V c main_v14_0) (V c main_v18_1) (V c main_v18_0) (V c main_v21)) (V c main_arg6) (V c main_v12) (((cfg2.win 8).blk t).view.emb (ix2 p r))
  refine (pay_v _ _ _ _ _ _ p r).trans ?_
  refine strip_v V c t p r _ ?_ ?_
  · show win2_8.index t (0 : Fin 2) * 1000 + 1 * p.val = _; rw [e80]; omega
  · show win2_8.index t (1 : Fin 2) * 64 + 1 * r.val = _; rw [e81]; omega

/-- An index of the first output is in strip t's block iff each coordinate is in the block's range on its axis. -/
theorem mem_blk_u (t : Fin cfg2.N) (i : S10000x64.Idx) :
    i ∈ ((cfg2.win 7).blk t).view.set ↔ ∀ a : Fin 2, win2_7.index t a * S1000x64.size a ≤ (i a).val ∧ (i a).val < win2_7.index t a * S1000x64.size a + S1000x64.size a := by
  show i ∈ ((View.whole main_v22_0).slice (win2_7.rect t)).set ↔ _
  rw [View.set_slice_whole, Rect.mem_set_unit]
  exact Iff.rfl

/-- The same for the second output. -/
theorem mem_blk_v (t : Fin cfg2.N) (i : S10000x64.Idx) :
    i ∈ ((cfg2.win 8).blk t).view.set ↔ ∀ a : Fin 2, win2_8.index t a * S1000x64.size a ≤ (i a).val ∧ (i a).val < win2_8.index t a * S1000x64.size a + S1000x64.size a := by
  show i ∈ ((View.whole main_v22_1).slice (win2_8.rect t)).set ↔ _
  rw [View.set_slice_whole, Rect.mem_set_unit]
  exact Iff.rfl

/-- Row r lies in strip r / 1000: the ten strips cover the first output. -/
theorem cover_u (i : S10000x64.Idx) : ∃ t : Fin cfg2.N, (cfg2.win 7).flush t = true ∧ i ∈ ((cfg2.win 7).blk t).view.set := by
  have hi0 : (i 0).val < 10000 := (i 0).isLt
  have hi1 : (i 1).val < 64 := (i 1).isLt
  have hN : grid2.N = 10 := N_2
  obtain ⟨t, ht⟩ : ∃ t : Fin cfg2.N, t.val = (i 0).val / 1000 := ⟨⟨(i 0).val / 1000, by show _ < grid2.N; omega⟩, rfl⟩
  obtain ⟨-, -, -, -, -, -, -, -, -, -, -, -, -, -, e70, e71, -⟩ := idx_facts t
  refine ⟨t, flush2_7 t, ?_⟩
  rw [mem_blk_u]
  intro a
  match a with
  | ⟨0, _⟩ => show win2_7.index t (0 : Fin 2) * 1000 ≤ (i 0).val ∧ (i 0).val < win2_7.index t (0 : Fin 2) * 1000 + 1000; rw [e70, ht]; omega
  | ⟨1, _⟩ => show win2_7.index t (1 : Fin 2) * 64 ≤ (i 1).val ∧ (i 1).val < win2_7.index t (1 : Fin 2) * 64 + 64; rw [e71]; omega

/-- And the second. -/
theorem cover_v (i : S10000x64.Idx) : ∃ t : Fin cfg2.N, (cfg2.win 8).flush t = true ∧ i ∈ ((cfg2.win 8).blk t).view.set := by
  have hi0 : (i 0).val < 10000 := (i 0).isLt
  have hi1 : (i 1).val < 64 := (i 1).isLt
  have hN : grid2.N = 10 := N_2
  obtain ⟨t, ht⟩ : ∃ t : Fin cfg2.N, t.val = (i 0).val / 1000 := ⟨⟨(i 0).val / 1000, by show _ < grid2.N; omega⟩, rfl⟩
  obtain ⟨-, -, -, -, -, -, -, -, -, -, -, -, -, -, -, -, e80, e81⟩ := idx_facts t
  refine ⟨t, flush2_8 t, ?_⟩
  rw [mem_blk_v]
  intro a
  match a with
  | ⟨0, _⟩ => show win2_8.index t (0 : Fin 2) * 1000 ≤ (i 0).val ∧ (i 0).val < win2_8.index t (0 : Fin 2) * 1000 + 1000; rw [e80, ht]; omega
  | ⟨1, _⟩ => show win2_8.index t (1 : Fin 2) * 64 ≤ (i 1).val ∧ (i 1).val < win2_8.index t (1 : Fin 2) * 64 + 64; rw [e81]; omega

/-- After the last strip the first output holds the hidden layer of the arrays the region found on entry, projected
    against the scaled weights. -/
theorem arr_u (c : Dev nD) :
    (dat2 V c).arrAt 7 cfg2.N = AdaGnn.projU (AdaGnn.hiddenK (V c main_v14_0) (V c main_v18_1) (V c main_v18_0) (V c main_v21)) (V c main_v10) :=
  (dat2 V c).arrAt_eq_of_cover 7 (AdaGnn.projU (AdaGnn.hiddenK (V c main_v14_0) (V c main_v18_1) (V c main_v18_0) (V c main_v21)) (V c main_v10))
    (fun t _ => flushed_u V c t) cover_u

/-- And the second holds it projected against the weights, plus the bias. -/
theorem arr_v (c : Dev nD) :
    (dat2 V c).arrAt 8 cfg2.N = AdaGnn.projV (AdaGnn.hiddenK (V c main_v14_0) (V c main_v18_1) (V c main_v18_0) (V c main_v21)) (V c main_arg6) (V c main_v12) :=
  (dat2 V c).arrAt_eq_of_cover 8 (AdaGnn.projV (AdaGnn.hiddenK (V c main_v14_0) (V c main_v18_1) (V c main_v18_0) (V c main_v21)) (V c main_arg6) (V c main_v12))
    (fun t _ => flushed_v V c t) cover_v

end Cert.KernelIdeal.Region2

end
-- ==== Proof.Region3.lean ====
/-
  The last region of the idealized kernel, read as a function of whole arrays.

  The region walks the N = 10000 rows in ten strips of 1000.  At strip t it is handed rows 1000 t … 1000 t + 999 of the
  operator L (N×N) and of v (N×64), and all of u (N×64); it forms the strip of logits

      z = relu (v − L·u)          -- one row of L against each column of u, a sum over all N columns of L

  takes each row's maximum m (a fold of max from −∞ over the 64 lanes), and writes back  z − (log Σ exp (z − m) + m),
  the row-wise log-softmax.  Each written row depends only on the same row of L and v and on u, so the ten strips are
  the restrictions of ONE function of the three arrays, and since every row lies in exactly one strip (row r in strip
  r / 1000) the result array ends holding that function: `arr_out`.

  Over the extended reals every operation here is the exact one, a change of float format is the identity, and the
  matrix product into a zero accumulator is the plain sum over the contraction index.
-/
import proofs.«120691_g47665547051069_cont_8to1c4_396_9_alg».proof.Proof.Gen.KernelIdeal.Frame
import proofs.«120691_g47665547051069_cont_8to1c4_396_9_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.ValueIdx Idealize.ShloMosaic.TcCoe
open Idealize.ShloMosaic.Pipeline (Dat)

/-! ## Columns: a vector of row statistics as a one-column matrix, and that column spread over the lanes -/

/-- A vector viewed as a one-column matrix: entry (p, 0) is entry p (same row-major position). -/
theorem col_apply {α : Type} (w : S1000.Idx → α) (h : S1000.ShapeCasts S1000x1) (p : Fin 1000) (z : Fin 1) :
    shapeCast S1000x1 w h (ix2 p z) = w (ix1 p) := by
  refine shapeCast_apply w h (ix2 p z) (ix1 p) ?_
  rw [Shape.rowMajor_val_one, Shape.rowMajor_val_two]
  have := z.isLt
  show p.val = p.val * 1 + z.val
  omega

/-- A one-column matrix spread over 64 lanes: entry (p, q) is the column's entry (p, 0). -/
theorem bcol_apply {α : Type} (y : S1000x1.Idx → α) (h : S1000x1.Broadcasts S1000x64) (p : Fin 1000) (q : Fin 64) :
    broadcastTo S1000x64 y h (ix2 p q) = y (ix2 p 0) := by
  refine broadcastTo_apply y h (ix2 p q) (ix2 p 0) fun a => ?_
  match a with
  | ⟨0, _⟩ => rfl
  | ⟨1, _⟩ => rfl

/-! ## The body's value, cut in two: the strip of logits, then its row-wise log-softmax -/

/-- The strip of logits: relu (v − L·u) on the strip's rows. -/
def zBlk (x0 : Vec Ideal S1000x10000 .bf16) (x1 : Vec Ideal S10000x64 .bf16) (x2 : Vec Ideal S1000x64 .f32) : FVec Ideal S1000x64 .f32 :=
  maximumf (subf (shapeCast S1000x64 x2 shapeCasts_S1000x64_S1000x64)
      (matmul (φ₁ := .bf16) (φ₂ := .bf16) dot_S1000x10000_S10000x64_S1000x64_1_0_0_1_n_n none (shapeCast S1000x10000 x0 shapeCasts_S1000x10000_S1000x10000)
        (shapeCast S10000x64 x1 shapeCasts_S10000x64_S10000x64) (constant S1000x64 .f32 0x00000000#32)))
    (broadcast S1000x64 (Scalar.ofBits .f32 0x00000000#32))

/-- The row maxima of a strip, as a column. -/
def mCol (z : FVec Ideal S1000x64 .f32) : FVec Ideal S1000x1 .f32 :=
  shapeCast S1000x1 (multiReduction .maximumf [1] S1000 z 0xFF800000#32 reduces_S1000x64_S1000 (.inl rfl) rfl) shapeCasts_S1000_S1000x1

/-- The row-wise log-softmax of a strip as the body computes it. -/
def lsm (z : FVec Ideal S1000x64 .f32) : FVec Ideal S1000x64 .f32 :=
  subf z (broadcastTo S1000x64
    (addf (log (shapeCast S1000x1
        (multiReduction .add [1] S1000 (exp (subf z (broadcastTo S1000x64 (mCol z) broadcasts_S1000x1_S1000x64))) 0x00000000#32 reduces_S1000x64_S1000 (.inl rfl) rfl)
        shapeCasts_S1000_S1000x1)) (mCol z))
    broadcasts_S1000x1_S1000x64)

/-- The body's one stored value is the log-softmax of the strip of logits (the two halves composed). -/
theorem pay_eq (x0 : Vec Ideal S1000x10000 .bf16) (x1 : Vec Ideal S10000x64 .bf16) (x2 : Vec Ideal S1000x64 .f32) :
    k3_pay1 x0 x1 x2 = lsm (zBlk x0 x1 x2) := rfl

/-! ## Each half at an entry -/

/-- exp and log act entry by entry. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The dot's left operand index keeps the output's row, -/
theorem lhs_row (i : S1000x64.Idx) (k : dot_S1000x10000_S10000x64_S1000x64_1_0_0_1_n_n.contr.Idx) : (dot_S1000x10000_S10000x64_S1000x64_1_0_0_1_n_n.lhsIdx i k 0).val = (i 0).val := by
  unfold DotDims.lhsIdx
  rw [dif_neg (show ¬(0 : Fin S1000x10000.rank) ∈ dot_S1000x10000_S10000x64_S1000x64_1_0_0_1_n_n.lhsBatch by decide), dif_pos (show (0 : Fin S1000x10000.rank) ∈ dot_S1000x10000_S10000x64_S1000x64_1_0_0_1_n_n.lhsNonContracting by decide)]
  rfl
/-- and its right operand index the output's column. -/
theorem rhs_col (i : S1000x64.Idx) (k : dot_S1000x10000_S10000x64_S1000x64_1_0_0_1_n_n.contr.Idx) : (dot_S1000x10000_S10000x64_S1000x64_1_0_0_1_n_n.rhsIdx i k 1).val = (i 1).val := by
  unfold DotDims.rhsIdx
  rw [dif_neg (show ¬(1 : Fin S10000x64.rank) ∈ dot_S1000x10000_S10000x64_S1000x64_1_0_0_1_n_n.rhsBatch by decide), dif_pos (show (1 : Fin S10000x64.rank) ∈ dot_S1000x10000_S10000x64_S1000x64_1_0_0_1_n_n.rhsNonContracting by decide)]
  rfl

/-- An entry of the strip of logits: the strip's own row of L against a column of u. -/
theorem zBlk_apply (x0 : Vec Ideal S1000x10000 .bf16) (x1 : Vec Ideal S10000x64 .bf16) (x2 : Vec Ideal S1000x64 .f32)
    (p : Fin 1000) (j : Fin 64) :
    zBlk x0 x1 x2 (ix2 p j) = max (x2 (ix2 p j) - ∑ l : Fin 10000, x0 (ix2 p l) * x1 (ix2 l j)) AdaGnn.zero := by
  unfold zBlk
  rw [maximumf_apply, subf_apply, broadcast_apply, shapeCast_self, shapeCast_self, shapeCast_self]
  have hm : matmul (φ₁ := .bf16) (φ₂ := .bf16) dot_S1000x10000_S10000x64_S1000x64_1_0_0_1_n_n none x0 x1 (constant (F := Ideal) S1000x64 .f32 0x00000000#32) (ix2 p j)
      = ∑ l : Fin 10000, x0 (ix2 p l) * x1 (ix2 l j) := by
    refine (Ideal.matmul_constant_zero_apply (φ₁ := .bf16) (φ₂ := .bf16) dot_S1000x10000_S10000x64_S1000x64_1_0_0_1_n_n none x0 x1 (ix2 p j)).trans ?_
    rw [← Equiv.sum_comp (contrEquiv1 dot_S1000x10000_S10000x64_S1000x64_1_0_0_1_n_n 10000 rfl rfl).symm]
    refine Finset.sum_congr rfl fun k _ => ?_
    have hk := contrEquiv1_symm_val dot_S1000x10000_S10000x64_S1000x64_1_0_0_1_n_n 10000 rfl rfl k
    have el : dot_S1000x10000_S10000x64_S1000x64_1_0_0_1_n_n.lhsIdx (ix2 p j) ((contrEquiv1 dot_S1000x10000_S10000x64_S1000x64_1_0_0_1_n_n 10000 rfl rfl).symm k) = ix2 p k :=
      funext fun a => Fin.ext (by
        match a with
        | ⟨0, _⟩ => exact lhs_row _ _
        | ⟨1, _⟩ => exact (dot_S1000x10000_S10000x64_S1000x64_1_0_0_1_n_n.lhsIdx_val_of_single rfl _ _).trans hk)
    have er : dot_S1000x10000_S10000x64_S1000x64_1_0_0_1_n_n.rhsIdx (ix2 p j) ((contrEquiv1 dot_S1000x10000_S10000x64_S1000x64_1_0_0_1_n_n 10000 rfl rfl).symm k) = ix2 k j :=
      funext fun a => Fin.ext (by
        match a with
        | ⟨0, _⟩ => exact (dot_S1000x10000_S10000x64_S1000x64_1_0_0_1_n_n.rhsIdx_val_of_single rfl _ _).trans hk
        | ⟨1, _⟩ => exact rhs_col _ _)
    rw [el, er]
  rw [hm]
  rfl

/-- A lane maximum at a row: the fold of max from −∞ over the row. -/
theorem rowmax_apply (z : FVec Ideal S1000x64 .f32) (p : Fin 1000) :
    multiReduction .maximumf [1] S1000 z 0xFF800000#32 reduces_S1000x64_S1000 (.inl rfl) rfl (ix1 p)
      = (Finset.univ : Finset (Fin 64)).fold max AdaGnn.negInf (fun j => z (ix2 p j)) := by
  refine (Ideal.multiReduction_maximumf_single z 0xFF800000#32 reduces_S1000x64_S1000 (.inl rfl) rfl (ix1 p)).trans ?_
  have e : (z ∘ reduces_S1000x64_S1000.lift (ix1 p)) = fun j : Fin 64 => z (ix2 p j) :=
    funext fun j => congrArg z (funext fun a => Fin.ext (by match a with | ⟨0, _⟩ => rfl | ⟨1, _⟩ => rfl))
  rw [e]
  rfl

/-- A lane sum at a row. -/
theorem rowsum_apply (y : FVec Ideal S1000x64 .f32) (p : Fin 1000) :
    multiReduction .add [1] S1000 y 0x00000000#32 reduces_S1000x64_S1000 (.inl rfl) rfl (ix1 p) = ∑ j : Fin 64, y (ix2 p j) := by
  refine (Ideal.multiReduction_add_single y 0x00000000#32 reduces_S1000x64_S1000 (.inl rfl) rfl (ix1 p)).trans ?_
  exact Finset.sum_congr rfl fun j _ => congrArg y (funext fun a => Fin.ext (by match a with | ⟨0, _⟩ => rfl | ⟨1, _⟩ => rfl))

/-- The column of row maxima at a row. -/
theorem mCol_apply (z : FVec Ideal S1000x64 .f32) (p : Fin 1000) (o : Fin 1) :
    mCol z (ix2 p o) = (Finset.univ : Finset (Fin 64)).fold max AdaGnn.negInf (fun j => z (ix2 p j)) := by
  unfold mCol
  rw [col_apply, rowmax_apply]

/-- The body's log-softmax at an entry: z − (log Σ exp (z − m) + m), m the row's maximum. -/
theorem lsm_apply (z : FVec Ideal S1000x64 .f32) (p : Fin 1000) (q : Fin 64) :
    lsm z (ix2 p q) = z (ix2 p q)
      - (Ideal.log (∑ j : Fin 64, Ideal.exp (z (ix2 p j) - (Finset.univ : Finset (Fin 64)).fold max AdaGnn.negInf (fun j => z (ix2 p j))))
          + (Finset.univ : Finset (Fin 64)).fold max AdaGnn.negInf (fun j => z (ix2 p j))) := by
  unfold lsm
  rw [subf_apply, bcol_apply, addf_apply, log_apply, col_apply, rowsum_apply, mCol_apply]
  refine congrArg (fun s => z (ix2 p q) - (Ideal.log s + _)) (Finset.sum_congr rfl fun j _ => ?_)
  rw [exp_apply, subf_apply, bcol_apply, mCol_apply]

/-- THE PAYLOAD AT AN ENTRY. When the strip's blocks are the rows r of L and v and the whole of u, the body's value at
    (p, q) is the log-softmax of the logits at (r, q). -/
theorem pay_apply (x0 : Vec Ideal S1000x10000 .bf16) (x1 : Vec Ideal S10000x64 .bf16) (x2 : Vec Ideal S1000x64 .f32)
    (L : AdaGnn.Mat 10000 10000) (u v : AdaGnn.Mat 10000 64) (p : Fin 1000) (r : Fin 10000) (q : Fin 64)
    (h0 : ∀ l : Fin 10000, x0 (ix2 p l) = L (ix2 r l)) (h1 : ∀ (l : Fin 10000) (j : Fin 64), x1 (ix2 l j) = u (ix2 l j))
    (h2 : ∀ j : Fin 64, x2 (ix2 p j) = v (ix2 r j)) :
    k3_pay1 x0 x1 x2 (ix2 p q) = AdaGnn.logSoftmaxK (AdaGnn.logitsK L u v) (ix2 r q) := by
  have hz : ∀ j : Fin 64, zBlk x0 x1 x2 (ix2 p j) = AdaGnn.logitsK L u v (ix2 r j) := fun j => by
    rw [zBlk_apply, h2 j]
    exact congrArg (fun s => max (v (ix2 r j) - s) AdaGnn.zero) (Finset.sum_congr rfl fun l _ => by rw [h0 l, h1 l j])
  rw [pay_eq, lsm_apply]
  simp only [hz]
  rfl

/-! ## From strips to the array -/

variable (V : (c : Dev nD) → (b : Ref sig .tc) → Buf (Elt Ideal) ((c : Thread nD τ).loc b))

/-- The body loads and stores each block whole: through the rectangle at offsets (0, 0). -/
theorem zero_offsets : (![0, 0] : Fin 2 → Nat) = fun _ => 0 := funext fun a => by fin_cases a <;> rfl

/-- The printed index maps over the ten strips: the strip windows sit at block row t, block column 0; the whole-array
    window at block (0, 0). -/
theorem strip_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- WHAT STRIP t WRITES BACK is rows 1000 t … 1000 t + 999 of the log-softmax of the logits. -/
theorem strip_writes (c : Dev nD) (t : Fin cfg3.N) :
    (dat3 V c).flushed 3 t = ((cfg3.win 3).blk t).view.read (Elt Ideal)
      (AdaGnn.logSoftmaxK (AdaGnn.logitsK (V c main_v14_0) (V c main_v22_0) (V c main_v22_1))) := by
  show (cfg3.win 3).cut (grid3.coords t) ((dat3 V c).after 3 t) = _
  rw [after3_3]
  unfold out3_3
  rw [View.canon_unit_zero zero_offsets]
  simp only [View.ld_unit_zero (S := S1000x10000) zero_offsets, View.ld_unit_zero (S := S10000x64) zero_offsets, View.ld_unit_zero (S := S1000x64) zero_offsets]
  obtain ⟨e00, e01, e10, e11, e20, e21, e30, e31⟩ := strip_index t
  have ht : t.val < 10 := Nat.lt_of_lt_of_eq t.isLt N_3
  funext j
  obtain ⟨p, q, rfl⟩ : ∃ (p : Fin 1000) (q : Fin 64), j = ix2 p q := ⟨j 0, j 1, eq_ix2 j⟩
  have hr : t.val * 1000 + p.val < 10000 := by have := p.isLt; omega
  -- the three input blocks, read where the strip's rows lie
  have E0 : ∀ l : Fin 10000, iblk3 V c 0 t (ix2 p l) = V c main_v14_0 (ix2 ⟨t.val * 1000 + p.val, hr⟩ l) := fun l => by
    unfold iblk3
    rw [View.read_apply]
    show V c main_v14_0 _ = V c main_v14_0 _
    refine congrArg (V c main_v14_0) (funext fun a => Fin.ext ?_)
    match a with
    | ⟨0, _⟩ => show win3_0.index t (0 : Fin 2) * 1000 + 1 * p.val = t.val * 1000 + p.val; rw [e00]; omega
    | ⟨1, _⟩ => show win3_0.index t (1 : Fin 2) * 10000 + 1 * l.val = l.val; rw [e01]; omega
  have E1 : ∀ (l : Fin 10000) (j : Fin 64), iblk3 V c 1 t (ix2 l j) = V c main_v22_0 (ix2 l j) := fun l j => by
    unfold iblk3
    rw [View.read_apply]
    show V c main_v22_0 _ = V c main_v22_0 _
    refine congrArg (V c main_v22_0) (funext fun a => Fin.ext ?_)
    match a with
    | ⟨0, _⟩ => show win3_1.index t (0 : Fin 2) * 10000 + 1 * l.val = l.val; rw [e10]; omega
    | ⟨1, _⟩ => show win3_1.index t (1 : Fin 2) * 64 + 1 * j.val = j.val; rw [e11]; omega
  have E2 : ∀ j : Fin 64, iblk3 V c 2 t (ix2 p j) = V c main_v22_1 (ix2 ⟨t.val * 1000 + p.val, hr⟩ j) := fun j => by
    unfold iblk3
    rw [View.read_apply]
    show V c main_v22_1 _ = V c main_v22_1 _
    refine congrArg (V c main_v22_1) (funext fun a => Fin.ext ?_)
    match a with
    | ⟨0, _⟩ => show win3_2.index t (0 : Fin 2) * 1000 + 1 * p.val = t.val * 1000 + p.val; rw [e20]; omega
    | ⟨1, _⟩ => show win3_2.index t (1 : Fin 2) * 64 + 1 * j.val = j.val; rw [e21]; omega
  show k3_pay1 (iblk3 V c 0 t) (iblk3 V c 1 t) (iblk3 V c 2 t) (ix2 p q) = _
  refine (pay_apply (iblk3 V c 0 t) (iblk3 V c 1 t) (iblk3 V c 2 t) (V c main_v14_0) (V c main_v22_0) (V c main_v22_1)
    p ⟨t.val * 1000 + p.val, hr⟩ q E0 E1 E2).trans ?_
  rw [View.read_apply]
  refine congrArg (AdaGnn.logSoftmaxK (AdaGnn.logitsK (V c main_v14_0) (V c main_v22_0) (V c main_v22_1))) (funext fun a => Fin.ext ?_)
  match a with
  | ⟨0, _⟩ => show t.val * 1000 + p.val = win3_3.index t (0 : Fin 2) * 1000 + 1 * p.val; rw [e30]; omega
  | ⟨1, _⟩ => show q.val = win3_3.index t (1 : Fin 2) * 64 + 1 * q.val; rw [e31]; omega

/-- An index of the result is in strip t's block iff each coordinate is in the block's range on its axis. -/
theorem mem_strip (t : Fin cfg3.N) (i : S10000x64.Idx) :
    i ∈ ((cfg3.win 3).blk t).view.set ↔ ∀ a : Fin 2, win3_3.index t a * S1000x64.size a ≤ (i a).val ∧ (i a).val < win3_3.index t a * S1000x64.size a + S1000x64.size a := by
  show i ∈ ((View.whole main_v23).slice (win3_3.rect t)).set ↔ _
  rw [View.set_slice_whole, Rect.mem_set_unit]
  exact Iff.rfl

/-- Row r lies in strip r / 1000: the ten strips cover the result. -/
theorem strips_cover (i : S10000x64.Idx) : ∃ t : Fin cfg3.N, (cfg3.win 3).flush t = true ∧ i ∈ ((cfg3.win 3).blk t).view.set := by
  have hi0 : (i 0).val < 10000 := (i 0).isLt
  have hi1 : (i 1).val < 64 := (i 1).isLt
  have hN : cfg3.N = 10 := N_3
  refine ⟨⟨(i 0).val / 1000, by rw [hN]; omega⟩, flush3_3 _, ?_⟩
  rw [mem_strip]
  obtain ⟨-, -, -, -, -, -, e30, e31⟩ := strip_index ⟨(i 0).val / 1000, by rw [hN]; omega⟩
  intro a
  match a with
  | ⟨0, _⟩ =>
    show win3_3.index _ (0 : Fin 2) * 1000 ≤ (i 0).val ∧ (i 0).val < win3_3.index _ (0 : Fin 2) * 1000 + 1000
    rw [e30]; show (i 0).val / 1000 * 1000 ≤ (i 0).val ∧ (i 0).val < (i 0).val / 1000 * 1000 + 1000; omega
  | ⟨1, _⟩ =>
    show win3_3.index _ (1 : Fin 2) * 64 ≤ (i 1).val ∧ (i 1).val < win3_3.index _ (1 : Fin 2) * 64 + 64
    rw [e31]; omega

/-- THE RESULT ARRAY after the region: the row-wise log-softmax of the logits relu (v − L·u) of the arrays the region
    finds on entry. -/
theorem arr_out (c : Dev nD) :
    (dat3 V c).arrAt 3 cfg3.N = AdaGnn.logSoftmaxK (AdaGnn.logitsK (V c main_v14_0) (V c main_v22_0) (V c main_v22_1)) :=
  (dat3 V c).arrAt_eq_of_cover 3 (AdaGnn.logSoftmaxK (AdaGnn.logitsK (V c main_v14_0) (V c main_v22_0) (V c main_v22_1)))
    (fun t _ => strip_writes V c t) strips_cover

end Cert.KernelIdeal.Region3

end
-- ==== Proof.KernelValue.lean ====
/-
  The idealized kernel's result array as ONE function of the nine arguments as launched: the
  arrangement K of the forward pass (Spec).  The run leaves the result at the contents of the last
  boundary; walking back boundary by boundary — a region's output array is its whole-array function
  of the arrays the region found, a region's input array and every buffer it does not touch are as
  the region found them, a host stretch writes only the buffers it names — every array a region
  reads is either an argument, a host re-arrangement of arguments, or an earlier region's output.
-/
import proofs.«120691_g47665547051069_cont_8to1c4_396_9_alg».proof.Proof.KernelRun
import proofs.«120691_g47665547051069_cont_8to1c4_396_9_alg».proof.Proof.HostGlue
import proofs.«120691_g47665547051069_cont_8to1c4_396_9_alg».proof.Proof.Region0
import proofs.«120691_g47665547051069_cont_8to1c4_396_9_alg».proof.Proof.Region1
import proofs.«120691_g47665547051069_cont_8to1c4_396_9_alg».proof.Proof.Region2
import proofs.«120691_g47665547051069_cont_8to1c4_396_9_alg».proof.Proof.Region3

set_option maxRecDepth 16384

noncomputable section

namespace Cert.KernelIdeal.WholeValue

open Cert.KernelIdeal Cert.KernelIdeal.Gen Cert.AdaGnn Cert.KernelIdeal.HostGlue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first layer's output, of the arguments as launched. -/
abbrev H1 : Mat 10000 128 :=
  layer1K (m ((c : Thread nD τ).loc main_arg1)) (m ((c : Thread nD τ).loc main_arg0)) (m ((c : Thread nD τ).loc main_arg0)) (m ((c : Thread nD τ).loc main_arg2)) (scaleRows (m ((c : Thread nD τ).loc main_arg4)) (m ((c : Thread nD τ).loc main_arg2))) (asRow (m ((c : Thread nD τ).loc main_arg3)))
/-- The first hidden layer's output. -/
abbrev H2 : Mat 10000 128 := hiddenK (m ((c : Thread nD τ).loc main_arg1)) (H1 m c) (H1 m c) (rowOf (m ((c : Thread nD τ).loc main_arg5)) 0)
/-- The second hidden layer's output. -/
abbrev H3 : Mat 10000 128 := hiddenK (m ((c : Thread nD τ).loc main_arg1)) (H2 m c) (H2 m c) (rowOf (m ((c : Thread nD τ).loc main_arg5)) 1)

/-! ## Region 0's entry: the launch memory after the first host stretch -/

theorem e0_L : (V1 m ρ c main_arg1 : Mat 10000 10000) = (m ((c : Thread nD τ).loc main_arg1)) := (keep0 (W0 m ρ c)).2.1
theorem e0_x : (V1 m ρ c main_arg0 : Mat 10000 128) = (m ((c : Thread nD τ).loc main_arg0)) := (keep0 (W0 m ρ c)).1
theorem e0_x16 : (V1 m ρ c main_v13 : Mat 10000 128) = (m ((c : Thread nD τ).loc main_arg0)) := h0_x16 (W0 m ρ c)
theorem e0_W1 : (V1 m ρ c main_arg2 : Mat 128 128) = (m ((c : Thread nD τ).loc main_arg2)) := (keep0 (W0 m ρ c)).2.2.1
theorem e0_W1s : (V1 m ρ c main_v5 : Mat 128 128) = scaleRows (m ((c : Thread nD τ).loc main_arg4)) (m ((c : Thread nD τ).loc main_arg2)) := h0_W1s (W0 m ρ c)
theorem e0_b1r : (V1 m ρ c main_v11 : Mat 1 128) = asRow (m ((c : Thread nD τ).loc main_arg3)) := h0_b1r (W0 m ρ c)

/-! ## Region 0's exit -/

theorem x0_copy : (W2 m ρ c (Proc.devRef .tc main_v14_0) : Mat 10000 10000) = (m ((c : Thread nD τ).loc main_arg1)) :=
  (W2_arr m ρ c 6).trans ((Cert.KernelIdeal.Region0.arr_copy (V1 m ρ) c).trans (e0_L m ρ c))
theorem x0_h32 : (W2 m ρ c (Proc.devRef .tc main_v14_1) : Mat 10000 128) = H1 m c := by
  refine (W2_arr m ρ c 7).trans ((Cert.KernelIdeal.Region0.arr_h32 (V1 m ρ) c).trans ?_)
  rw [e0_L, e0_x16, e0_x, e0_W1, e0_W1s, e0_b1r]
theorem x0_h16 : (W2 m ρ c (Proc.devRef .tc main_v14_2) : Mat 10000 128) = H1 m c := by
  refine (W2_arr m ρ c 8).trans ((Cert.KernelIdeal.Region0.arr_h16 (V1 m ρ) c).trans ?_)
  rw [e0_L, e0_x16, e0_x, e0_W1, e0_W1s, e0_b1r]
theorem x0_dh : (W2 m ρ c (Proc.devRef .tc main_arg5) : Mat 2 128) = (m ((c : Thread nD τ).loc main_arg5)) :=
  (W2_of_ne m ρ c main_arg5 (by decide)).trans (keep0 (W0 m ρ c)).2.2.2.1
theorem x0_W2 : (W2 m ρ c (Proc.devRef .tc main_arg6) : Mat 128 64) = (m ((c : Thread nD τ).loc main_arg6)) :=
  (W2_of_ne m ρ c main_arg6 (by decide)).trans (keep0 (W0 m ρ c)).2.2.2.2
theorem x0_W2s : (W2 m ρ c (Proc.devRef .tc main_v10) : Mat 128 64) = scaleRows (m ((c : Thread nD τ).loc main_arg8)) (m ((c : Thread nD τ).loc main_arg6)) :=
  (W2_of_ne m ρ c main_v10 (by decide)).trans (h0_W2s (W0 m ρ c))
theorem x0_b2r : (W2 m ρ c (Proc.devRef .tc main_v12) : Mat 1 64) = asRow (m ((c : Thread nD τ).loc main_arg7)) :=
  (W2_of_ne m ρ c main_v12 (by decide)).trans (h0_b2r (W0 m ρ c))

/-! ## Region 1's entry (after the second host stretch) and exit -/

theorem e1_copy : (V3 m ρ c main_v14_0 : Mat 10000 10000) = (m ((c : Thread nD τ).loc main_arg1)) := (keep1 (W2 m ρ c)).1.trans (x0_copy m ρ c)
theorem e1_h32 : (V3 m ρ c main_v14_1 : Mat 10000 128) = H1 m c := (keep1 (W2 m ρ c)).2.1.trans (x0_h32 m ρ c)
theorem e1_h16 : (V3 m ρ c main_v14_2 : Mat 10000 128) = H1 m c := (keep1 (W2 m ρ c)).2.2.1.trans (x0_h16 m ρ c)
theorem e1_dr : (V3 m ρ c main_v17 : Mat 1 128) = rowOf (m ((c : Thread nD τ).loc main_arg5)) 0 := by
  refine (h1_dr (W2 m ρ c)).trans ?_
  rw [x0_dh]

theorem x1_copy : (W4 m ρ c (Proc.devRef .tc main_v14_0) : Mat 10000 10000) = (m ((c : Thread nD τ).loc main_arg1)) :=
  (W4_arr m ρ c 0).trans ((((dat1 (V3 m ρ) c).arrAt_in 0 rfl _).trans (A_eq1 (V3 m ρ) c 0)).trans (e1_copy m ρ c))
theorem x1_h32 : (W4 m ρ c (Proc.devRef .tc main_v18_0) : Mat 10000 128) = H2 m c := by
  refine (W4_arr m ρ c 4).trans ((Cert.KernelIdeal.Region1.arr_h32 (V3 m ρ) c).trans ?_)
  rw [e1_copy, e1_h16, e1_h32, e1_dr]
theorem x1_h16 : (W4 m ρ c (Proc.devRef .tc main_v18_1) : Mat 10000 128) = H2 m c := by
  refine (W4_arr m ρ c 5).trans ((Cert.KernelIdeal.Region1.arr_h16 (V3 m ρ) c).trans ?_)
  rw [e1_copy, e1_h16, e1_h32, e1_dr]
theorem x1_dh : (W4 m ρ c (Proc.devRef .tc main_arg5) : Mat 2 128) = (m ((c : Thread nD τ).loc main_arg5)) :=
  (W4_of_ne m ρ c main_arg5 (by decide)).trans ((keep1 (W2 m ρ c)).2.2.2.1.trans (x0_dh m ρ c))
theorem x1_W2 : (W4 m ρ c (Proc.devRef .tc main_arg6) : Mat 128 64) = (m ((c : Thread nD τ).loc main_arg6)) :=
  (W4_of_ne m ρ c main_arg6 (by decide)).trans ((keep1 (W2 m ρ c)).2.2.2.2.1.trans (x0_W2 m ρ c))
theorem x1_W2s : (W4 m ρ c (Proc.devRef .tc main_v10) : Mat 128 64) = scaleRows (m ((c : Thread nD τ).loc main_arg8)) (m ((c : Thread nD τ).loc main_arg6)) :=
  (W4_of_ne m ρ c main_v10 (by decide)).trans ((keep1 (W2 m ρ c)).2.2.2.2.2.1.trans (x0_W2s m ρ c))
theorem x1_b2r : (W4 m ρ c (Proc.devRef .tc main_v12) : Mat 1 64) = asRow (m ((c : Thread nD τ).loc main_arg7)) :=
  (W4_of_ne m ρ c main_v12 (by decide)).trans ((keep1 (W2 m ρ c)).2.2.2.2.2.2.trans (x0_b2r m ρ c))

/-! ## Region 2's entry (after the third host stretch) and exit -/

theorem e2_copy : (V5 m ρ c main_v14_0 : Mat 10000 10000) = (m ((c : Thread nD τ).loc main_arg1)) := (keep2 (W4 m ρ c)).1.trans (x1_copy m ρ c)
theorem e2_h32 : (V5 m ρ c main_v18_0 : Mat 10000 128) = H2 m c := (keep2 (W4 m ρ c)).2.1.trans (x1_h32 m ρ c)
theorem e2_h16 : (V5 m ρ c main_v18_1 : Mat 10000 128) = H2 m c := (keep2 (W4 m ρ c)).2.2.1.trans (x1_h16 m ρ c)
theorem e2_W2 : (V5 m ρ c main_arg6 : Mat 128 64) = (m ((c : Thread nD τ).loc main_arg6)) := (keep2 (W4 m ρ c)).2.2.2.1.trans (x1_W2 m ρ c)
theorem e2_W2s : (V5 m ρ c main_v10 : Mat 128 64) = scaleRows (m ((c : Thread nD τ).loc main_arg8)) (m ((c : Thread nD τ).loc main_arg6)) := (keep2 (W4 m ρ c)).2.2.2.2.1.trans (x1_W2s m ρ c)
theorem e2_b2r : (V5 m ρ c main_v12 : Mat 1 64) = asRow (m ((c : Thread nD τ).loc main_arg7)) := (keep2 (W4 m ρ c)).2.2.2.2.2.trans (x1_b2r m ρ c)
theorem e2_dr : (V5 m ρ c main_v21 : Mat 1 128) = rowOf (m ((c : Thread nD τ).loc main_arg5)) 1 := by
  refine (h2_dr (W4 m ρ c)).trans ?_
  rw [x1_dh]

theorem x2_copy : (V6 m ρ c main_v14_0 : Mat 10000 10000) = (m ((c : Thread nD τ).loc main_arg1)) :=
  (W6_arr m ρ c 0).trans ((((dat2 (V5 m ρ) c).arrAt_in 0 rfl _).trans (A_eq2 (V5 m ρ) c 0)).trans (e2_copy m ρ c))
theorem x2_u : (V6 m ρ c main_v22_0 : Mat 10000 64) = projU (H3 m c) (scaleRows (m ((c : Thread nD τ).loc main_arg8)) (m ((c : Thread nD τ).loc main_arg6))) := by
  refine (W6_arr m ρ c 7).trans ((Cert.KernelIdeal.Region2.arr_u (V5 m ρ) c).trans ?_)
  rw [e2_copy, e2_h16, e2_h32, e2_dr, e2_W2s]
theorem x2_v : (V6 m ρ c main_v22_1 : Mat 10000 64) = projV (H3 m c) (m ((c : Thread nD τ).loc main_arg6)) (asRow (m ((c : Thread nD τ).loc main_arg7))) := by
  refine (W6_arr m ρ c 8).trans ((Cert.KernelIdeal.Region2.arr_v (V5 m ρ) c).trans ?_)
  rw [e2_copy, e2_h16, e2_h32, e2_dr, e2_W2, e2_b2r]

/-! ## Region 3's exit: the result -/

/-- The last boundary's contents at the result buffer: the forward pass, arrangement K, of the arguments as launched. -/
theorem result : (W7 m ρ c (Proc.devRef .tc main_v23) : Mat 10000 64)
    = forwardK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 3).trans ((Cert.KernelIdeal.Region3.arr_out (V6 m ρ) c).trans ?_)
  rw [x2_copy, x2_u, x2_v]
  rfl

end Cert.KernelIdeal.WholeValue

end
-- ==== Proof.RefValue.lean ====
/-
  The reference's result buffer after its 65 host operations, as the composition of its five layers.
  Evaluating the operations from the launch contents in one go duplicates every layer's output at each
  of its uses; instead the list is cut at the four layer boundaries, each piece is evaluated from an
  ARBITRARY valuation W (so that the previous layer's output is the atom W(buffer)), and the pieces are
  joined by  after (l₁ ++ l₂) W = after l₂ (after l₁ W).  The arguments are written by no operation,
  so they pass through every piece unchanged.
-/
import proofs.«120691_g47665547051069_cont_8to1c4_396_9_alg».proof.Proof.RefRunP
import proofs.«120691_g47665547051069_cont_8to1c4_396_9_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The five layers' operations -/

/-- First weighted layer: operations 1–15, ending in its relu. -/
abbrev seg1 : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x3F800000#32),
    unary main_cst main_v1 (broadcastInDim S128 ![] bcast_S_S128 : (⟨S_, .f32⟩ : BufTy).Contents (Elt F) → (⟨S128, .f32⟩ : BufTy).Contents (Elt F)),
    binary main_arg4 main_v1 main_v2 (addf : (⟨S128, .f32⟩ : BufTy).Contents (Elt F) → (⟨S128, .f32⟩ : BufTy).Contents (Elt F) → (⟨S128, .f32⟩ : BufTy).Contents (Elt F)),
    unary main_v2 main_v3 (broadcastInDim S1x128 ![1] bcast_S128_S1x128_1 : (⟨S128, .f32⟩ : BufTy).Contents (Elt F) → (⟨S1x128, .f32⟩ : BufTy).Contents (Elt F)),
    unary main_v3 main_v4 (broadcastInDim S10000x128 ![0, 1] bcast_S1x128_S10000x128_0_1 : (⟨S1x128, .f32⟩ : BufTy).Contents (Elt F) → (⟨S10000x128, .f32⟩ : BufTy).Contents (Elt F)),
    binary main_v0 main_v4 main_v5 (mulf : (⟨S10000x128, .f32⟩ : BufTy).Contents (Elt F) → (⟨S10000x128, .f32⟩ : BufTy).Contents (Elt F) → (⟨S10000x128, .f32⟩ : BufTy).Contents (Elt F)),
    binary main_arg0 main_v5 main_v6 (subf : (⟨S10000x128, .f32⟩ : BufTy).Contents (Elt F) → (⟨S10000x128, .f32⟩ : BufTy).Contents (Elt F) → (⟨S10000x128, .f32⟩ : BufTy).Contents (Elt F)),
    binary main_v6 main_arg2 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v10) (TRef.of (T := ⟨S10000x128, .f32⟩) main_call0_v0) (TRef.of (T := ⟨S10000x128, .f32⟩) main_v11) maximumf ]

/-- First hidden layer: operations 16–25. -/
abbrev seg2 : List (HloOp τ sig (Elt F)) :=
  [ binary main_arg1 main_v11 main_v12 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v13 ((extractStridedSlice S1x128 ![0, 0] · slices_S2x128_S1x128_0_0) : (⟨S2x128, .f32⟩ : BufTy).Contents (Elt F) → (⟨S1x128, .f32⟩ : BufTy).Contents (Elt F)),
    reshape main_v13 main_v14 rfl shapeCasts_S1x128_S128,
    unary main_v14 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v12 main_v16 main_v17 (mulf : (⟨S10000x128, .f32⟩ : BufTy).Contents (Elt F) → (⟨S10000x128, .f32⟩ : BufTy).Contents (Elt F) → (⟨S10000x128, .f32⟩ : BufTy).Contents (Elt F)),
    binary main_v11 main_v17 main_v18 (subf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v18) (TRef.of (T := ⟨S10000x128, .f32⟩) main_call1_v0) (TRef.of (T := ⟨S10000x128, .f32⟩) main_v19) maximumf ]

/-- Second hidden layer: operations 26–35. -/
abbrev seg3 : List (HloOp τ sig (Elt F)) :=
  [ binary main_arg1 main_v19 main_v20 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v21 ((extractStridedSlice S1x128 ![1, 0] · slices_S2x128_S1x128_1_0) : (⟨S2x128, .f32⟩ : BufTy).Contents (Elt F) → (⟨S1x128, .f32⟩ : BufTy).Contents (Elt F)),
    reshape main_v21 main_v22 rfl shapeCasts_S1x128_S128,
    unary main_v22 main_v23 (broadcastInDim S1x128 ![1] bcast_S128_S1x128_1 : (⟨S128, .f32⟩ : BufTy).Contents (Elt F) → (⟨S1x128, .f32⟩ : BufTy).Contents (Elt F)),
    unary main_v23 main_v24 (broadcastInDim S10000x128 ![0, 1] bcast_S1x128_S10000x128_0_1 : (⟨S1x128, .f32⟩ : BufTy).Contents (Elt F) → (⟨S10000x128, .f32⟩ : BufTy).Contents (Elt F)),
    binary main_v20 main_v24 main_v25 (mulf : (⟨S10000x128, .f32⟩ : BufTy).Contents (Elt F) → (⟨S10000x128, .f32⟩ : BufTy).Contents (Elt F) → (⟨S10000x128, .f32⟩ : BufTy).Contents (Elt F)),
    binary main_v19 main_v25 main_v26 (subf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x128, .f32⟩) main_call2_v0) (broadcastInDim S10000x128 ![] bcast_S_S10000x128),
    TRef.binary (TRef.of (T := ⟨S10000x128, .f32⟩) main_v26) (TRef.of (T := ⟨S10000x128, .f32⟩) main_call2_v0) (TRef.of (T := ⟨S10000x128, .f32⟩) main_v27) maximumf ]

/-- Last weighted layer: operations 36–50, ending in its relu. -/
abbrev seg4 : List (HloOp τ sig (Elt F)) :=
  [ binary main_arg1 main_v27 main_v28 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst_0 (constant S_ .f32 0x3F800000#32),
    unary main_cst_0 main_v29 (broadcastInDim S128 ![] bcast_S_S128 : (⟨S_, .f32⟩ : BufTy).Contents (Elt F) → (⟨S128, .f32⟩ : BufTy).Contents (Elt F)),
    binary main_arg8 main_v29 main_v30 (addf : (⟨S128, .f32⟩ : BufTy).Contents (Elt F) → (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S10000x128 ![0, 1] bcast_S1x128_S10000x128_0_1 : (⟨S1x128, .f32⟩ : BufTy).Contents (Elt F) → (⟨S10000x128, .f32⟩ : BufTy).Contents (Elt F)),
    binary main_v28 main_v32 main_v33 (mulf : (⟨S10000x128, .f32⟩ : BufTy).Contents (Elt F) → (⟨S10000x128, .f32⟩ : BufTy).Contents (Elt F) → (⟨S10000x128, .f32⟩ : BufTy).Contents (Elt F)),
    binary main_v27 main_v33 main_v34 (subf : (⟨S10000x128, .f32⟩ : BufTy).Contents (Elt F) → (⟨S10000x128, .f32⟩ : BufTy).Contents (Elt F) → (⟨S10000x128, .f32⟩ : BufTy).Contents (Elt F)),
    binary main_v34 main_arg6 main_v35 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg7 main_v36 (broadcastInDim S1x64 ![1] bcast_S64_S1x64_1 : (⟨S64, .f32⟩ : BufTy).Contents (Elt F) → (⟨S1x64, .f32⟩ : BufTy).Contents (Elt F)),
    unary main_v36 main_v37 (broadcastInDim S10000x64 ![0, 1] bcast_S1x64_S10000x64_0_1 : (⟨S1x64, .f32⟩ : BufTy).Contents (Elt F) → (⟨S10000x64, .f32⟩ : BufTy).Contents (Elt F)),
    binary main_v35 main_v37 main_v38 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x64, .f32⟩) main_call3_v0) (broadcastInDim S10000x64 ![] bcast_S_S10000x64),
    TRef.binary (TRef.of (T := ⟨S10000x64, .f32⟩) main_v38) (TRef.of (T := ⟨S10000x64, .f32⟩) main_call3_v0) (TRef.of (T := ⟨S10000x64, .f32⟩) main_v39) maximumf ]

/-- Row-wise log-softmax: operations 51–65. -/
abbrev seg5 : List (HloOp τ sig (Elt F)) :=
  [ TRef.nullary (TRef.of (T := ⟨S_, .f32⟩) main_call4_cst) (constant S_ .f32 0xFF800000#32),
    TRef.binary (TRef.of (T := ⟨S10000x64, .f32⟩) main_v39) (TRef.of (T := ⟨S_, .f32⟩) main_call4_cst) (TRef.of (T := ⟨S10000, .f32⟩) main_call4_v0) (fun x v => Host.reduce FloatOps.maximumf x v reducesTo_S10000x64_S10000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S10000, .f32⟩) main_call4_v1) (broadcastInDim S10000 ![] bcast_S_S10000),
    TRef.binary (TRef.of (T := ⟨S10000, .f32⟩) main_call4_v1) (TRef.of (T := ⟨S10000, .f32⟩) main_call4_v0) (TRef.of (T := ⟨S10000, .f32⟩) main_call4_v2) maximumf,
    TRef.unary (TRef.of (T := ⟨S10000, .f32⟩) main_call4_v2) (TRef.of (T := ⟨S10000x1, .f32⟩) main_call4_v3) (broadcastInDim S10000x1 ![0] bcast_S10000_S10000x1_0),
    TRef.unary (TRef.of (T := ⟨S10000x1, .f32⟩) main_call4_v3) (TRef.of (T := ⟨S10000x64, .f32⟩) main_call4_v4) (broadcastInDim S10000x64 ![0, 1] bcast_S10000x1_S10000x64_0_1),
    TRef.binary (TRef.of (T := ⟨S10000x64, .f32⟩) main_v39) (TRef.of (T := ⟨S10000x64, .f32⟩) main_call4_v4) (TRef.of (T := ⟨S10000x64, .f32⟩) main_call4_v5) subf,
    TRef.unary (TRef.of (T := ⟨S10000x64, .f32⟩) main_call4_v5) (TRef.of (T := ⟨S10000x64, .f32⟩) main_call4_v6) Host.exp,
    TRef.nullary (TRef.of (T := ⟨S_, .f32⟩) main_call4_cst_1) (constant S_ .f32 0x00000000#32),
    TRef.binary (TRef.of (T := ⟨S10000x64, .f32⟩) main_call4_v6) (TRef.of (T := ⟨S_, .f32⟩) main_call4_cst_1) (TRef.of (T := ⟨S10000, .f32⟩) main_call4_v7) (fun x v => Host.reduceAdd x v reducesTo_S10000x64_S10000_d1 h_S_),
    TRef.unary (TRef.of (T := ⟨S10000, .f32⟩) main_call4_v7) (TRef.of (T := ⟨S10000x1, .f32⟩) main_call4_v8) (broadcastInDim S10000x1 ![0] bcast_S10000_S10000x1_0),
    TRef.unary (TRef.of (T := ⟨S10000x1, .f32⟩) main_call4_v8) (TRef.of (T := ⟨S10000x1, .f32⟩) main_call4_v9) Host.log,
    TRef.unary (TRef.of (T := ⟨S10000x1, .f32⟩) main_call4_v9) (TRef.of (T := ⟨S10000x64, .f32⟩) main_call4_v10) (broadcastInDim S10000x64 ![0, 1] bcast_S10000x1_S10000x64_0_1),
    TRef.binary (TRef.of (T := ⟨S10000x64, .f32⟩) main_call4_v5) (TRef.of (T := ⟨S10000x64, .f32⟩) main_call4_v10) (TRef.of (T := ⟨S10000x64, .f32⟩) main_v40) subf ]

set_option maxRecDepth 8192 in
/-- The program's operations are the five layers in order. -/
theorem ops_split : (ops : List (HloOp τ sig (Elt F))) = seg1 ++ (seg2 ++ (seg3 ++ (seg4 ++ seg5))) := rfl

/-! ## Each layer as a function of the previous layer's output -/

/-- A hidden layer from the previous layer h, the operator L, the broadcast diagonal and the broadcast zero. -/
def hiddenStage (h : (⟨S10000x128, .f32⟩ : BufTy).Contents (Elt F)) (L : (⟨S10000x10000, .f32⟩ : BufTy).Contents (Elt F)) (dcol z : (⟨S10000x128, .f32⟩ : BufTy).Contents (Elt F)) : (⟨S10000x128, .f32⟩ : BufTy).Contents (Elt F) :=
  maximumf (subf h (mulf (Host.dotGeneral dot_S10000x10000_S10000x128_S10000x128_1_0_0_1_n_n none L h) dcol)) z

/-- The last weighted layer from the previous layer h, the operator, W2, the broadcast d2 + 1, the broadcast b2 and zero. -/
def lastStage (h : (⟨S10000x128, .f32⟩ : BufTy).Contents (Elt F)) (L : (⟨S10000x10000, .f32⟩ : BufTy).Contents (Elt F)) (W2 : (⟨S128x64, .f32⟩ : BufTy).Contents (Elt F)) (ccol : (⟨S10000x128, .f32⟩ : BufTy).Contents (Elt F)) (bcol z : (⟨S10000x64, .f32⟩ : BufTy).Contents (Elt F)) : (⟨S10000x64, .f32⟩ : BufTy).Contents (Elt F) :=
  maximumf (addf (Host.dotGeneral dot_S10000x128_S128x64_S10000x64_1_0_0_1_n_n none
    (subf h (mulf (Host.dotGeneral dot_S10000x10000_S10000x128_S10000x128_1_0_0_1_n_n none L h) ccol)) W2) bcol) z

/-- The logits minus their row maximum (the maximum taken from −∞ and once more against −∞). -/
def shiftedStage (z : (⟨S10000x64, .f32⟩ : BufTy).Contents (Elt F)) : (⟨S10000x64, .f32⟩ : BufTy).Contents (Elt F) :=
  subf z (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x64_S10000_d1 h_S_))))

/-- The row-wise log-softmax of the logits. -/
def logSoftmaxStage (z : (⟨S10000x64, .f32⟩ : BufTy).Contents (Elt F)) : (⟨S10000x64, .f32⟩ : BufTy).Contents (Elt F) :=
  subf (shiftedStage z) (broadcastInDim S10000x64 ![0, 1] bcast_S10000x1_S10000x64_0_1 (Host.log (broadcastInDim S10000x1 ![0] bcast_S10000_S10000x1_0
    (Host.reduceAdd (Host.exp (shiftedStage z)) (constant S_ .f32 0x00000000#32) reducesTo_S10000x64_S10000_d1 h_S_))))

/-! The generated stages are these functions of the previous generated stage (definitional unfolding). -/

theorem v19_eq (x0 : (⟨S10000x128, .f32⟩ : BufTy).Contents (Elt F)) (x1 : (⟨S10000x10000, .f32⟩ : BufTy).Contents (Elt F)) (x2 : (⟨S128x128, .f32⟩ : BufTy).Contents (Elt F)) (x3 x4 : (⟨S128, .f32⟩ : BufTy).Contents (Elt F)) (x5 : (⟨S2x128, .f32⟩ : BufTy).Contents (Elt F)) :
    val_main_v19 (F := F) x0 x1 x2 x3 x4 x5 = hiddenStage (val_main_v11 (F := F) x0 x1 x2 x3 x4) x1 (val_main_v16 (F := F) x5) (val_main_call1_v0 (F := F)) := rfl
theorem v27_eq (x0 : (⟨S10000x128, .f32⟩ : BufTy).Contents (Elt F)) (x1 : (⟨S10000x10000, .f32⟩ : BufTy).Contents (Elt F)) (x2 : (⟨S128x128, .f32⟩ : BufTy).Contents (Elt F)) (x3 x4 : (⟨S128, .f32⟩ : BufTy).Contents (Elt F)) (x5 : (⟨S2x128, .f32⟩ : BufTy).Contents (Elt F)) :
    val_main_v27 (F := F) x0 x1 x2 x3 x4 x5 = hiddenStage (val_main_v19 (F := F) x0 x1 x2 x3 x4 x5) x1 (val_main_v24 (F := F) x5) (val_main_call2_v0 (F := F)) := rfl
theorem v39_eq (x0 : (⟨S10000x128, .f32⟩ : BufTy).Contents (Elt F)) (x1 : (⟨S10000x10000, .f32⟩ : BufTy).Contents (Elt F)) (x2 : (⟨S128x128, .f32⟩ : BufTy).Contents (Elt F)) (x3 x4 : (⟨S128, .f32⟩ : BufTy).Contents (Elt F)) (x5 : (⟨S2x128, .f32⟩ : BufTy).Contents (Elt F)) (x6 : (⟨S128x64, .f32⟩ : BufTy).Contents (Elt F)) (x7 : (⟨S64, .f32⟩ : BufTy).Contents (Elt F)) (x8 : (⟨S128, .f32⟩ : BufTy).Contents (Elt F)) :
    val_main_v39 (F := F) x0 x1 x2 x3 x4 x5 x6 x7 x8 = lastStage (val_main_v27 (F := F) x0 x1 x2 x3 x4 x5) x1 x6 (val_main_v32 (F := F) x8) (val_main_v37 (F := F) x7) (val_main_call3_v0 (F := F)) := rfl
theorem v40_eq (x0 : (⟨S10000x128, .f32⟩ : BufTy).Contents (Elt F)) (x1 : (⟨S10000x10000, .f32⟩ : BufTy).Contents (Elt F)) (x2 : (⟨S128x128, .f32⟩ : BufTy).Contents (Elt F)) (x3 x4 : (⟨S128, .f32⟩ : BufTy).Contents (Elt F)) (x5 : (⟨S2x128, .f32⟩ : BufTy).Contents (Elt F)) (x6 : (⟨S128x64, .f32⟩ : BufTy).Contents (Elt F)) (x7 : (⟨S64, .f32⟩ : BufTy).Contents (Elt F)) (x8 : (⟨S128, .f32⟩ : BufTy).Contents (Elt F)) :
    val_main_v40 (F := F) x0 x1 x2 x3 x4 x5 x6 x7 x8 = logSoftmaxStage (val_main_v39 (F := F) x0 x1 x2 x3 x4 x5 x6 x7 x8) := rfl

/-! ## Each piece evaluated from an arbitrary valuation -/

variable (W : Valuation τ sig (Elt F))

theorem seg1_result : after seg1 W (Proc.devRef .tc main_v11) = val_main_v11 (F := F) (W (Proc.devRef .tc main_arg0)) (W (Proc.devRef .tc main_arg1)) (W (Proc.devRef .tc main_arg2)) (W (Proc.devRef .tc main_arg3)) (W (Proc.devRef .tc main_arg4)) := by
  after_results_simp; rfl
theorem seg1_keeps : after seg1 W (Proc.devRef .tc main_arg1) = W (Proc.devRef .tc main_arg1) ∧ after seg1 W (Proc.devRef .tc main_arg5) = W (Proc.devRef .tc main_arg5)
    ∧ after seg1 W (Proc.devRef .tc main_arg6) = W (Proc.devRef .tc main_arg6) ∧ after seg1 W (Proc.devRef .tc main_arg7) = W (Proc.devRef .tc main_arg7) ∧ after seg1 W (Proc.devRef .tc main_arg8) = W (Proc.devRef .tc main_arg8) := by
  refine ⟨?_, ?_, ?_, ?_, ?_⟩ <;> after_results_simp

theorem seg2_result : after seg2 W (Proc.devRef .tc main_v19) = hiddenStage (W (Proc.devRef .tc main_v11)) (W (Proc.devRef .tc main_arg1)) (val_main_v16 (F := F) (W (Proc.devRef .tc main_arg5))) (val_main_call1_v0 (F := F)) := by
  after_results_simp; rfl
theorem seg2_keeps : after seg2 W (Proc.devRef .tc main_arg1) = W (Proc.devRef .tc main_arg1) ∧ after seg2 W (Proc.devRef .tc main_arg5) = W (Proc.devRef .tc main_arg5)
    ∧ after seg2 W (Proc.devRef .tc main_arg6) = W (Proc.devRef .tc main_arg6) ∧ after seg2 W (Proc.devRef .tc main_arg7) = W (Proc.devRef .tc main_arg7) ∧ after seg2 W (Proc.devRef .tc main_arg8) = W (Proc.devRef .tc main_arg8) := by
  refine ⟨?_, ?_, ?_, ?_, ?_⟩ <;> after_results_simp

theorem seg3_result : after seg3 W (Proc.devRef .tc main_v27) = hiddenStage (W (Proc.devRef .tc main_v19)) (W (Proc.devRef .tc main_arg1)) (val_main_v24 (F := F) (W (Proc.devRef .tc main_arg5))) (val_main_call2_v0 (F := F)) := by
  after_results_simp; rfl
theorem seg3_keeps : after seg3 W (Proc.devRef .tc main_arg1) = W (Proc.devRef .tc main_arg1)
    ∧ after seg3 W (Proc.devRef .tc main_arg6) = W (Proc.devRef .tc main_arg6) ∧ after seg3 W (Proc.devRef .tc main_arg7) = W (Proc.devRef .tc main_arg7) ∧ after seg3 W (Proc.devRef .tc main_arg8) = W (Proc.devRef .tc main_arg8) := by
  refine ⟨?_, ?_, ?_, ?_⟩ <;> after_results_simp

theorem seg4_result : after seg4 W (Proc.devRef .tc main_v39) = lastStage (W (Proc.devRef .tc main_v27)) (W (Proc.devRef .tc main_arg1)) (W (Proc.devRef .tc main_arg6)) (val_main_v32 (F := F) (W (Proc.devRef .tc main_arg8))) (val_main_v37 (F := F) (W (Proc.devRef .tc main_arg7))) (val_main_call3_v0 (F := F)) := by
  after_results_simp; rfl

/-- The transports of a value to its buffer's own type and back cancel (they are casts along one equation and its
    inverse), which leaves the fifteen operations' composed term. -/
theorem seg5_result : after seg5 W (Proc.devRef .tc main_v40) = logSoftmaxStage (W (Proc.devRef .tc main_v39)) := by
  after_results_simp
  simp only [TRef.toBuf, TRef.ofBuf, cast_cast, cast_eq]
  rfl

/-! ## The whole list -/

/-- After the 65 operations the result buffer holds the last generated stage of the nine arguments as the valuation
    has them. -/
theorem after_ops_result : after (ops (F := F)) W (Proc.devRef .tc main_v40)
    = val_main_v40 (F := F) (W (Proc.devRef .tc main_arg0)) (W (Proc.devRef .tc main_arg1)) (W (Proc.devRef .tc main_arg2)) (W (Proc.devRef .tc main_arg3)) (W (Proc.devRef .tc main_arg4))
        (W (Proc.devRef .tc main_arg5)) (W (Proc.devRef .tc main_arg6)) (W (Proc.devRef .tc main_arg7)) (W (Proc.devRef .tc main_arg8)) := by
  rw [ops_split, after_append, after_append, after_append, after_append]
  obtain ⟨k11, k15, k16, k17, k18⟩ := seg1_keeps W
  obtain ⟨k21, k25, k26, k27, k28⟩ := seg2_keeps (after seg1 W)
  obtain ⟨k31, k36, k37, k38⟩ := seg3_keeps (after seg2 (after seg1 W))
  rw [seg5_result, seg4_result, seg3_result, seg2_result, seg1_result,
    k31, k36, k37, k38, k21, k25, k26, k27, k28, k11, k15, k16, k17, k18,
    v40_eq, v39_eq, v27_eq, v19_eq]

end Cert.ReferenceIdeal.RefValue

end
-- ==== Proof.RefBridge.lean ====
/-
  The reference network, one operation at a time, is the arrangement R of the specification.

  Each layer of the reference is a short chain of elementwise operations, broadcasts of a row or a
  column, and contractions.  Read at an index (p, q) the chain collapses to one formula:

    first layer   max ((Σ_k (x[p,k] − (Σ_l L[p,l]·x[l,k])·(d1[k] + 1))·W1[k,q]) + b1[q]) 0
    hidden layer  max (h[p,q] − (Σ_l L[p,l]·h[l,q])·dh[r,q]) 0              (r = 0, 1)
    logits        max ((Σ_k (h[p,k] − (Σ_l L[p,l]·h[l,k])·(d2[k] + 1))·W2[k,q]) + b2[q]) 0
    log-softmax   (z[p,q] − m_p) − log (0 + Σ_j exp (z[p,j] − m_p)),   m_p = max (−∞) (max_j z[p,j])

  The only facts used are: which entry of its operand a broadcast, a slice or a reshape reads (an
  index identity, checked coordinate by coordinate), a contraction as a finite sum, and a reduction
  by maximum over one axis as the fold of max over that axis from its initial value.  No law of
  arithmetic is needed: the formulas above are the reference's own order of operations.
-/
import proofs.«120691_g47665547051069_cont_8to1c4_396_9_alg».proof.Proof.RefReadP
import proofs.«120691_g47665547051069_cont_8to1c4_396_9_alg».proof.Proof.Spec
import Idealize.ShloMosaic.PureOps.Reduce

noncomputable section

namespace Cert.ReferenceIdeal.Bridge

open Cert.ReferenceIdeal Cert.ReferenceIdeal.Gen Idealize.ShloMosaic Idealize.ShloMosaic.ValueIdx Cert.AdaGnn

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 x4 : (⟨S128, .f32⟩ : BufTy).Contents (Elt Ideal))
  (x5 : (⟨S2x128, .f32⟩ : BufTy).Contents (Elt Ideal)) (x6 : (⟨S128x64, .f32⟩ : BufTy).Contents (Elt Ideal))
  (x7 : (⟨S64, .f32⟩ : BufTy).Contents (Elt Ideal)) (x8 : (⟨S128, .f32⟩ : BufTy).Contents (Elt Ideal))

/-! ## Which entry each layout operation reads

A contraction L·h at (p, q) pairs L[p, l] with h[l, q]; a contraction h·W at (p, q) pairs h[p, k]
with W[k, q]; a vector broadcast to a row and then down the rows is read at its column. -/

/-- L·h at (p, q): the left factor is L[p, l]. -/
theorem lhs_Lh (j : S10000x128.Idx) (l : Fin 10000) : ReadP.lidx_main_v0 j l = ix2 (n0 := 10000) (n1 := 10000) (j 0) l :=
  funext fun a => Fin.ext (by match a with | ⟨0, _⟩ => rfl | ⟨1, _⟩ => rfl)
/-- L·h at (p, q): the right factor is h[l, q]. -/
theorem rhs_Lh (j : S10000x128.Idx) (l : Fin 10000) : ReadP.ridx_main_v0 j l = ix2 (n0 := 10000) (n1 := 128) l (j 1) :=
  funext fun a => Fin.ext (by match a with | ⟨0, _⟩ => rfl | ⟨1, _⟩ => rfl)
/-- h·W1 at (p, q): the left factor is h[p, k]. -/
theorem lhs_hW1 (i : S10000x128.Idx) (k : Fin 128) : ReadP.lidx_main_v7 i k = ix2 (n0 := 10000) (n1 := 128) (i 0) k :=
  funext fun a => Fin.ext (by match a with | ⟨0, _⟩ => rfl | ⟨1, _⟩ => rfl)
/-- h·W1 at (p, q): the right factor is W1[k, q]. -/
theorem rhs_hW1 (i : S10000x128.Idx) (k : Fin 128) : ReadP.ridx_main_v7 i k = ix2 (n0 := 128) (n1 := 128) k (i 1) :=
  funext fun a => Fin.ext (by match a with | ⟨0, _⟩ => rfl | ⟨1, _⟩ => rfl)
/-- d1 + 1 as a row broadcast down the rows, at (p, q): entry q. -/
theorem col_d1 (j : S10000x128.Idx) : ReadP.idx_main_v3 (ReadP.idx_main_v4 j) = ix1 (n := 128) (j 1) :=
  funext fun a => Fin.ext (by match a with | ⟨0, _⟩ => rfl)
/-- b1 as a row broadcast down the rows, at (p, q): entry q. -/
theorem col_b1 (j : S10000x128.Idx) : ReadP.idx_main_v8 (ReadP.idx_main_v9 j) = ix1 (n := 128) (j 1) :=
  funext fun a => Fin.ext (by match a with | ⟨0, _⟩ => rfl)

/-- The first layer. -/
theorem layer1 : ReadP.val_main_v11 (F := Ideal) x0 x1 x2 x3 x4 = AdaGnn.layer1R x1 x0 x2 x3 x4 := by
  funext i
  rw [ReadP.val_main_v11_apply, ReadP.val_main_v10_apply, ReadP.val_main_v7_apply, ReadP.val_main_v9_apply, ReadP.val_main_v8_apply,
    ReadP.val_main_call0_v0_apply, ReadP.val_main_call0_cst_apply]
  simp only [ReadP.val_main_v6_apply, ReadP.val_main_v5_apply, ReadP.val_main_v0_apply, ReadP.val_main_v4_apply, ReadP.val_main_v3_apply,
    ReadP.val_main_v2_apply, ReadP.val_main_v1_apply, ReadP.val_main_cst_apply,
    lhs_hW1, rhs_hW1, lhs_Lh, rhs_Lh, col_d1, col_b1,
    Ideal.addf_def, Ideal.subf_def, Ideal.mulf_def, Ideal.maximumf_def, Ideal.ofBits_def]
  rfl

/-! ## The hidden layers

Row r of the 2×128 table dh is sliced out, flattened to a vector, made a row again and broadcast
down the rows: at (p, q) that is dh[r, q].  The flattening reads column (q mod 128), which is q. -/

/-- Row 0 of dh broadcast down the rows, at (p, q): dh[0, q]. -/
theorem row0_dh (j : S10000x128.Idx) :
    ReadP.idx_main_v13 (ReadP.idx_main_v14 (ReadP.idx_main_v15 (ReadP.idx_main_v16 j))) = ix2 (n0 := 2) (n1 := 128) (0 : Fin 2) (j 1) :=
  funext fun a => Fin.ext (by
    match a with
    | ⟨0, _⟩ => rfl
    | ⟨1, _⟩ => exact Nat.mod_eq_of_lt (j 1).isLt)
/-- Row 1 of dh broadcast down the rows, at (p, q): dh[1, q]. -/
theorem row1_dh (j : S10000x128.Idx) :
    ReadP.idx_main_v21 (ReadP.idx_main_v22 (ReadP.idx_main_v23 (ReadP.idx_main_v24 j))) = ix2 (n0 := 2) (n1 := 128) (1 : Fin 2) (j 1) :=
  funext fun a => Fin.ext (by
    match a with
    | ⟨0, _⟩ => rfl
    | ⟨1, _⟩ => exact Nat.mod_eq_of_lt (j 1).isLt)
theorem lhs_Lh1 (j : S10000x128.Idx) (l : Fin 10000) : ReadP.lidx_main_v12 j l = ix2 (n0 := 10000) (n1 := 10000) (j 0) l :=
  funext fun a => Fin.ext (by match a with | ⟨0, _⟩ => rfl | ⟨1, _⟩ => rfl)
theorem rhs_Lh1 (j : S10000x128.Idx) (l : Fin 10000) : ReadP.ridx_main_v12 j l = ix2 (n0 := 10000) (n1 := 128) l (j 1) :=
  funext fun a => Fin.ext (by match a with | ⟨0, _⟩ => rfl | ⟨1, _⟩ => rfl)
theorem lhs_Lh2 (j : S10000x128.Idx) (l : Fin 10000) : ReadP.lidx_main_v20 j l = ix2 (n0 := 10000) (n1 := 10000) (j 0) l :=
  funext fun a => Fin.ext (by match a with | ⟨0, _⟩ => rfl | ⟨1, _⟩ => rfl)
theorem rhs_Lh2 (j : S10000x128.Idx) (l : Fin 10000) : ReadP.ridx_main_v20 j l = ix2 (n0 := 10000) (n1 := 128) l (j 1) :=
  funext fun a => Fin.ext (by match a with | ⟨0, _⟩ => rfl | ⟨1, _⟩ => rfl)

/-- The first hidden layer, over the first layer's result as a named array. -/
theorem hidden0 : ReadP.val_main_v19 (F := Ideal) x0 x1 x2 x3 x4 x5
    = AdaGnn.hiddenR x1 (ReadP.val_main_v11 (F := Ideal) x0 x1 x2 x3 x4) x5 0 := by
  funext i
  rw [ReadP.val_main_v19_apply, ReadP.val_main_v18_apply, ReadP.val_main_v17_apply, ReadP.val_main_v12_apply, ReadP.val_main_v16_apply,
    ReadP.val_main_v15_apply, ReadP.val_main_v14_apply, ReadP.val_main_v13_apply, ReadP.val_main_call1_v0_apply, ReadP.val_main_call1_cst_apply]
  simp only [lhs_Lh1, rhs_Lh1, row0_dh,
    Ideal.subf_def, Ideal.mulf_def, Ideal.maximumf_def, Ideal.ofBits_def]
  rfl

/-- The second hidden layer, over the first hidden layer's result as a named array. -/
theorem hidden1 : ReadP.val_main_v27 (F := Ideal) x0 x1 x2 x3 x4 x5
    = AdaGnn.hiddenR x1 (ReadP.val_main_v19 (F := Ideal) x0 x1 x2 x3 x4 x5) x5 1 := by
  funext i
  rw [ReadP.val_main_v27_apply, ReadP.val_main_v26_apply, ReadP.val_main_v25_apply, ReadP.val_main_v20_apply, ReadP.val_main_v24_apply,
    ReadP.val_main_v23_apply, ReadP.val_main_v22_apply, ReadP.val_main_v21_apply, ReadP.val_main_call2_v0_apply, ReadP.val_main_call2_cst_apply]
  simp only [lhs_Lh2, rhs_Lh2, row1_dh,
    Ideal.subf_def, Ideal.mulf_def, Ideal.maximumf_def, Ideal.ofBits_def]
  rfl

/-! ## The last weighted layer -/

theorem lhs_Lh3 (j : S10000x128.Idx) (l : Fin 10000) : ReadP.lidx_main_v28 j l = ix2 (n0 := 10000) (n1 := 10000) (j 0) l :=
  funext fun a => Fin.ext (by match a with | ⟨0, _⟩ => rfl | ⟨1, _⟩ => rfl)
theorem rhs_Lh3 (j : S10000x128.Idx) (l : Fin 10000) : ReadP.ridx_main_v28 j l = ix2 (n0 := 10000) (n1 := 128) l (j 1) :=
  funext fun a => Fin.ext (by match a with | ⟨0, _⟩ => rfl | ⟨1, _⟩ => rfl)
theorem lhs_hW2 (i : S10000x64.Idx) (k : Fin 128) : ReadP.lidx_main_v35 i k = ix2 (n0 := 10000) (n1 := 128) (i 0) k :=
  funext fun a => Fin.ext (by match a with | ⟨0, _⟩ => rfl | ⟨1, _⟩ => rfl)
theorem rhs_hW2 (i : S10000x64.Idx) (k : Fin 128) : ReadP.ridx_main_v35 i k = ix2 (n0 := 128) (n1 := 64) k (i 1) :=
  funext fun a => Fin.ext (by match a with | ⟨0, _⟩ => rfl | ⟨1, _⟩ => rfl)
/-- d2 + 1 as a row broadcast down the rows, at (p, q): entry q. -/
theorem col_d2 (j : S10000x128.Idx) : ReadP.idx_main_v31 (ReadP.idx_main_v32 j) = ix1 (n := 128) (j 1) :=
  funext fun a => Fin.ext (by match a with | ⟨0, _⟩ => rfl)
/-- b2 as a row broadcast down the rows, at (p, q): entry q. -/
theorem col_b2 (j : S10000x64.Idx) : ReadP.idx_main_v36 (ReadP.idx_main_v37 j) = ix1 (n := 64) (j 1) :=
  funext fun a => Fin.ext (by match a with | ⟨0, _⟩ => rfl)

/-- The logits, over the second hidden layer's result as a named array. -/
theorem logits : ReadP.val_main_v39 (F := Ideal) x0 x1 x2 x3 x4 x5 x6 x7 x8
    = AdaGnn.logitsR x1 (ReadP.val_main_v27 (F := Ideal) x0 x1 x2 x3 x4 x5) x6 x7 x8 := by
  funext i
  rw [ReadP.val_main_v39_apply, ReadP.val_main_v38_apply, ReadP.val_main_v35_apply, ReadP.val_main_v37_apply, ReadP.val_main_v36_apply,
    ReadP.val_main_call3_v0_apply, ReadP.val_main_call3_cst_apply]
  simp only [ReadP.val_main_v34_apply, ReadP.val_main_v33_apply, ReadP.val_main_v28_apply, ReadP.val_main_v32_apply, ReadP.val_main_v31_apply,
    ReadP.val_main_v30_apply, ReadP.val_main_v29_apply, ReadP.val_main_cst_0_apply,
    lhs_hW2, rhs_hW2, lhs_Lh3, rhs_Lh3, col_d2, col_b2,
    Ideal.addf_def, Ideal.subf_def, Ideal.mulf_def, Ideal.maximumf_def, Ideal.ofBits_def]
  rfl

/-! ## The row-wise log-softmax

The maximum over a row is a reduction over axis 1 of the 10000×64 array: at row p it is the fold of
max over the 64 columns, starting from the reduction's initial value −∞. -/

/-- The 10000×64 shape with axis 1 dropped is the vector shape of extent 10000. -/
theorem dropCols : S10000x64.Reduces [1] S10000 := by decide

/-- Row index p with column k put back on the dropped axis is (p, k). -/
theorem lift_row (p : Fin 10000) (k : Fin (S10000x64.size 1)) :
    dropCols.lift (ix1 (n := 10000) p) k = ix2 (n0 := 10000) (n1 := 64) p (⟨k.val, k.isLt⟩ : Fin 64) := by
  funext c; apply Fin.ext
  fin_cases c <;> rfl

/-- The reduction by maximum over the columns, at row index q, is the maximum of row q as a fold from −∞. -/
theorem rowMax_read (q : S10000.Idx) :
    ReadP.val_main_call4_v0 (F := Ideal) x0 x1 x2 x3 x4 x5 x6 x7 x8 q
      = AdaGnn.rowMax (ReadP.val_main_v39 (F := Ideal) x0 x1 x2 x3 x4 x5 x6 x7 x8) (q 0) := by
  obtain ⟨p, rfl⟩ : ∃ p : Fin 10000, q = ix1 (n := 10000) p := ⟨q 0, eq_ix1 q⟩
  show _ = AdaGnn.rowMax (ReadP.val_main_v39 (F := Ideal) x0 x1 x2 x3 x4 x5 x6 x7 x8) p
  unfold ReadP.val_main_call4_v0
  generalize ReadP.val_main_v39 (F := Ideal) x0 x1 x2 x3 x4 x5 x6 x7 x8 = z
  refine (Host.reduce_eq_fold_single (FloatOps.maximumf (F := Ideal) (φ := .f32)) z (ReadP.val_main_call4_cst (F := Ideal))
    reducesTo_S10000x64_S10000_d1 dropCols h_S_ (ix1 (n := 10000) p)).trans ?_
  have hf : (z ∘ dropCols.lift (ix1 (n := 10000) p)) = fun k : Fin 64 => z (ix2 (n0 := 10000) (n1 := 64) p k) :=
    funext fun k => congrArg z (lift_row p k)
  exact congrArg (fun f => Finset.fold max (Ideal.ofBits .f32 0xFF800000#32) f (Finset.univ : Finset (Fin 64))) hf

/-- The row maximum as a column broadcast along the rows, at (p, q): entry p. -/
theorem row_max (j : S10000x64.Idx) : ReadP.idx_main_call4_v3 (ReadP.idx_main_call4_v4 j) = ix1 (n := 10000) (j 0) :=
  funext fun a => Fin.ext (by match a with | ⟨0, _⟩ => rfl)
/-- The row's log-sum as a column broadcast along the rows, at (p, q): entry p. -/
theorem row_sum (j : S10000x64.Idx) : ReadP.idx_main_call4_v8 (ReadP.idx_main_call4_v10 j) = ix1 (n := 10000) (j 0) :=
  funext fun a => Fin.ext (by match a with | ⟨0, _⟩ => rfl)
/-- Summing the exponentials over the columns, at row p: column j of row p. -/
theorem sum_cols (p : S10000.Idx) (k : Fin 64) : ReadP.idx_main_call4_v7 p k = ix2 (n0 := 10000) (n1 := 64) (p 0) k :=
  funext fun a => Fin.ext (by match a with | ⟨0, _⟩ => rfl | ⟨1, _⟩ => rfl)

/-- The log-softmax, over the logits as a named array. -/
theorem logsm : ReadP.val_main_v40 (F := Ideal) x0 x1 x2 x3 x4 x5 x6 x7 x8
    = AdaGnn.logSoftmaxR (ReadP.val_main_v39 (F := Ideal) x0 x1 x2 x3 x4 x5 x6 x7 x8) := by
  funext i
  rw [ReadP.val_main_v40_apply, ReadP.val_main_call4_v10_apply, ReadP.val_main_call4_v9_apply, ReadP.val_main_call4_v8_apply,
    ReadP.val_main_call4_v7_apply, ReadP.val_main_call4_cst_1_apply]
  simp only [ReadP.val_main_call4_v6_apply, ReadP.val_main_call4_v5_apply, ReadP.val_main_call4_v4_apply, ReadP.val_main_call4_v3_apply,
    ReadP.val_main_call4_v2_apply, ReadP.val_main_call4_v1_apply, ReadP.val_main_call4_cst_0_apply,
    row_max, row_sum, sum_cols, rowMax_read,
    Ideal.subf_def, Ideal.maximumf_def, Ideal.ofBits_def, Ideal.hostUnary_exp_def, Ideal.hostUnary_log_def]
  rfl

/-! ## The whole reference -/

/-- The reference's result is the forward pass in arrangement R: the five layers chained. -/
theorem forward : ReadP.val_main_v40 (F := Ideal) x0 x1 x2 x3 x4 x5 x6 x7 x8 = AdaGnn.forwardR x0 x1 x2 x3 x4 x5 x6 x7 x8 := by
  rw [logsm, logits, hidden1, hidden0, layer1]
  rfl

end Cert.ReferenceIdeal.Bridge

end
-- ==== Proof.lean ====
/-
  The certificate of an AdaGNN forward pass: a Pallas kernel program of four row-strip sweeps over the
  dense N×N operator L (N = 10000) against its plain jnp reference.

  The mathematics.  With c = d + 1 a weighted layer of the network is relu ((h − (L·h) ⊙ c)·W + b).  The
  reference computes it in that order.  The kernel projects first: its first sweep computes
  relu ((x·W1 + b1) − ((L·x)·(c1 ⊙ W1))), its last two relu ((h·W2 + b2) − L·(h·(c2 ⊙ W2))), with the
  row-scaled weights c ⊙ W prepared on the host; the two hidden layers relu (h − (L·h) ⊙ dh[r]) are the
  same on both sides; the final row-wise log-softmax is written z − (log Σ exp (z − m) + m) in the kernel
  and (z − m) − log Σ exp (z − m) in the reference.  Read at the ideal values (floats are extended reals,
  operations exact, a change of float format the identity, so the kernel's bf16 copies of L and of each
  layer are the arrays themselves) the two arrangements agree when every input is finite: then every
  layer is real-valued, and on the reals the two orders differ by distributivity and by exchanging two
  finite sums.  On the extended reals distributivity fails at ±∞, which is where the precondition —
  every entry of every input finite — is used.

  The parts.  Spec: both arrangements as functions of arrays (forwardK, forwardR).  Algebra: they agree on
  real inputs.  Finite: the precondition makes every input real.  Region0–3: what each sweep leaves in
  its output arrays, as a whole-array function of the arrays it finds.  HostGlue: the host's row
  scalings, reshapes and slices.  KernelRun and KernelValue: the kernel's run ends with its result at
  forwardK of the arguments.  RefRunP, RefReadP, RefValue, RefBridge: the reference's run ends with its
  result at forwardR of the arguments.  The three frames are the generated ones (the reference's is its
  run with the result dropped); the idealization rewrote no operation, so preserves is trivial.
-/
import proofs.«120691_g47665547051069_cont_8to1c4_396_9_alg».proof.Defs
import proofs.«120691_g47665547051069_cont_8to1c4_396_9_alg».proof.Proof.Gen.Kernel
import proofs.«120691_g47665547051069_cont_8to1c4_396_9_alg».proof.Proof.Gen.Kernel.Frame
import proofs.«120691_g47665547051069_cont_8to1c4_396_9_alg».proof.Proof.Gen.KernelIdeal
import proofs.«120691_g47665547051069_cont_8to1c4_396_9_alg».proof.Proof.Gen.KernelIdeal.Frame
import proofs.«120691_g47665547051069_cont_8to1c4_396_9_alg».proof.Proof.Gen.ReferenceIdeal
import proofs.«120691_g47665547051069_cont_8to1c4_396_9_alg».proof.Proof.Gen.Pre_finite_inputs
import proofs.«120691_g47665547051069_cont_8to1c4_396_9_alg».proof.Proof.Algebra
import proofs.«120691_g47665547051069_cont_8to1c4_396_9_alg».proof.Proof.Finite
import proofs.«120691_g47665547051069_cont_8to1c4_396_9_alg».proof.Proof.KernelRun
import proofs.«120691_g47665547051069_cont_8to1c4_396_9_alg».proof.Proof.KernelValue
import proofs.«120691_g47665547051069_cont_8to1c4_396_9_alg».proof.Proof.RefRunP
import proofs.«120691_g47665547051069_cont_8to1c4_396_9_alg».proof.Proof.RefValue
import proofs.«120691_g47665547051069_cont_8to1c4_396_9_alg».proof.Proof.RefBridge
import Idealize.ShloMosaic.Adequacy
import Idealize.ShloMosaic.Init

noncomputable section

namespace Cert.Proof

open Idealize.ShloMosaic Idealize.ShloMosaic.TcCoe Idealize.SL.Sem Cert.AdaGnn

/-- The word-level kernel terminates, faults nowhere and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the nine arguments, all finite, both programs end with their results at one function of
    the arguments: the kernel at arrangement K of the forward pass, the reference at arrangement R, equal on real inputs. -/
theorem algebraic : Cert.algebraic_KernelIdeal_ReferenceIdeal := by
  intro m ρ m' ρ' hpre hagree
  refine ⟨fun c => forwardK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.WholeValue.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8⟩ := hagree c
    obtain ⟨r0, r1, r2, r3, r4, r5, r6, r7, r8⟩ := allReal_of_finite_inputs _ _ _ _ _ _ _ _ _ (hpre c)
    refine (Cert.ReferenceIdeal.RefValue.after_ops_result (F := Ideal) _).trans ?_
    show Cert.ReferenceIdeal.ReadP.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [Cert.ReferenceIdeal.Bridge.forward, a0, a1, a2, a3, a4, a5, a6, a7, a8]
    exact (forwardK_eq_forwardR _ _ _ _ _ _ _ _ _ r0 r1 r2 r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
